-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)) →
    ∃ (v0 : (c : Dev Cert.KernelIdeal.nD) → Buf (Elt Ideal) ((c.tc : Thread Cert.KernelIdeal.nD Cert.KernelIdeal.τ).loc Cert.KernelIdeal.main_v4)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v4) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v15) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S4x2048x4096 : Shape := ⟨3, ![4, 2048, 4096]⟩
abbrev S11008x4096 : Shape := ⟨2, ![11008, 4096]⟩
abbrev S_ : Shape := ⟨0, ![]⟩

class Facts : Prop where
  bcast_S_S4x2048x4096 : S_.BroadcastsInDim S4x2048x4096 (![] : Fin 0 → Fin S4x2048x4096.rank)
  reducesTo_S4x2048x4096_S_d0_1_2 : S4x2048x4096.ReducesTo [0, 1, 2] S_
  h_S_ : 0 < S_.numel
  bcast_S_S11008x4096 : S_.BroadcastsInDim S11008x4096 (![] : Fin 0 → Fin S11008x4096.rank)
  reducesTo_S11008x4096_S_d0_1 : S11008x4096.ReducesTo [0, 1] S_

variable [Facts]

def fn {F : FTy → Type} [FloatOps F] (main_arg0 : FVec F S4x2048x4096 .f32) (main_arg1 : FVec F S11008x4096 .f32) : IVec S_ 1 :=
  let main_v0 : FVec F S4x2048x4096 .f32 := Host.absf main_arg0
  let main_cst : FVec F S_ .f32 := constant S_ .f32 0x7F800000#32
  let main_v1 : FVec F S4x2048x4096 .f32 := broadcastInDim S4x2048x4096 ![] bcast_S_S4x2048x4096 main_cst
  let main_v2 : IVec S4x2048x4096 1 := cmpf .olt main_v0 main_v1
  let main_c : IVec S_ 1 := constantI S_ 1 1#1
  let main_v3 : IVec S_ 1 := (fun x v => Host.reduce IntOp.andi x v reducesTo_S4x2048x4096_S_d0_1_2 h_S_) main_v2 main_c
  let main_v4 : FVec F S11008x4096 .f32 := Host.absf main_arg1
  let main_cst_0 : FVec F S_ .f32 := constant S_ .f32 0x7F800000#32
  let main_v5 : FVec F S11008x4096 .f32 := broadcastInDim S11008x4096 ![] bcast_S_S11008x4096 main_cst_0
  let main_v6 : IVec S11008x4096 1 := cmpf .olt main_v4 main_v5
  let main_c_1 : IVec S_ 1 := constantI S_ 1 1#1
  let main_v7 : IVec S_ 1 := (fun x v => Host.reduce IntOp.andi x v reducesTo_S11008x4096_S_d0_1 h_S_) main_v6 main_c_1
  let main_v8 : IVec S_ 1 := andi main_v3 main_v7
  main_v8
-- ==== Kernel.lean ====
abbrev S4x2048x4096 : Shape := ⟨3, ![4, 2048, 4096]⟩
abbrev S11008x4096 : Shape := ⟨2, ![11008, 4096]⟩
abbrev S688x4096 : Shape := ⟨2, ![688, 4096]⟩
abbrev S688x32x128 : Shape := ⟨3, ![688, 32, 128]⟩
abbrev S688x32 : Shape := ⟨2, ![688, 32]⟩
abbrev S688x32x1 : Shape := ⟨3, ![688, 32, 1]⟩
abbrev S8192x4096 : Shape := ⟨2, ![8192, 4096]⟩
abbrev S8192x11008 : Shape := ⟨2, ![8192, 11008]⟩
abbrev S2048x1024 : Shape := ⟨2, ![2048, 1024]⟩
abbrev S1408x1024 : Shape := ⟨2, ![1408, 1024]⟩
abbrev S2048x1408 : Shape := ⟨2, ![2048, 1408]⟩
abbrev S4x2048x11008 : Shape := ⟨3, ![4, 2048, 11008]⟩

abbrev nBuf : Space → Nat
  | .hbm => 7
  | .vmem => 11
  | .smem => 0
  | _ => 0

abbrev bufTy : (tb : Table) → Fin (tcTables nBuf tb) → BufTy
  | .hbm, ⟨0, _⟩ => ⟨S4x2048x4096, .f32⟩
  | .hbm, ⟨1, _⟩ => ⟨S11008x4096, .f32⟩
  | .hbm, ⟨2, _⟩ => ⟨S11008x4096, .bf16⟩
  | .hbm, ⟨3, _⟩ => ⟨S8192x4096, .f32⟩
  | .hbm, ⟨4, _⟩ => ⟨S8192x4096, .bf16⟩
  | .hbm, ⟨5, _⟩ => ⟨S8192x11008, .f32⟩
  | .hbm, ⟨6, _⟩ => ⟨S4x2048x11008, .f32⟩
  | .local _ .vmem, ⟨0, _⟩ => ⟨S688x4096, .f32⟩
  | .local _ .vmem, ⟨1, _⟩ => ⟨S688x4096, .f32⟩
  | .local _ .vmem, ⟨2, _⟩ => ⟨S688x4096, .bf16⟩
  | .local _ .vmem, ⟨3, _⟩ => ⟨S688x4096, .bf16⟩
  | .local _ .vmem, ⟨4, _⟩ => ⟨S2048x1024, .bf16⟩
  | .local _ .vmem, ⟨5, _⟩ => ⟨S2048x1024, .bf16⟩
  | .local _ .vmem, ⟨6, _⟩ => ⟨S1408x1024, .bf16⟩
  | .local _ .vmem, ⟨7, _⟩ => ⟨S1408x1024, .bf16⟩
  | .local _ .vmem, ⟨8, _⟩ => ⟨S2048x1408, .f32⟩
  | .local _ .vmem, ⟨9, _⟩ => ⟨S2048x1408, .f32⟩
  | .local _ .vmem, ⟨10, _⟩ => ⟨S2048x1408, .f32⟩
  | _, _ => ⟨S4x2048x4096, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc1_stg0_0 : Ref sig .tc := ⟨.vmem, 4, rfl⟩
abbrev cc1_stg0_1 : Ref sig .tc := ⟨.vmem, 5, rfl⟩
abbrev cc1_stg1_0 : Ref sig .tc := ⟨.vmem, 6, rfl⟩
abbrev cc1_stg1_1 : Ref sig .tc := ⟨.vmem, 7, rfl⟩
abbrev cc1_stg2_0 : Ref sig .tc := ⟨.vmem, 8, rfl⟩
abbrev cc1_stg2_1 : Ref sig .tc := ⟨.vmem, 9, rfl⟩
abbrev cc1_scratch0 : Ref sig .tc := ⟨.vmem, 10, rfl⟩
abbrev cc0_sem0_0 : DmaSem sig := 0
abbrev cc0_sem0_1 : DmaSem sig := 1
abbrev cc0_sem1_0 : DmaSem sig := 2
abbrev cc0_sem1_1 : DmaSem sig := 3
abbrev cc1_sem0_0 : DmaSem sig := 4
abbrev cc1_sem0_1 : DmaSem sig := 5
abbrev cc1_sem1_0 : DmaSem sig := 6
abbrev cc1_sem1_1 : DmaSem sig := 7
abbrev cc1_sem2_0 : DmaSem sig := 8
abbrev cc1_sem2_1 : DmaSem sig := 9

abbrev nD : Nat := 1
abbrev τ : Topo := Topo.v7x

variable {F : FTy → Type} [FloatOps F]

abbrev grid0 : Pipeline.Grid := ⟨1, ![16], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S688x4096 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S688x4096 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev grid1 : Pipeline.Grid := ⟨3, ![4, 8, 4], ![false, false, false]⟩

def k1_cond2 (i : grid1.Coords) : BitVec 1 :=
  let arg2 : BitVec 32 := BitVec.ofNat 32 (i 2).val
  let c3_i32 : BitVec 32 := 3#32
  let v13 : BitVec 1 := Scalar.cmpi .eq arg2 c3_i32
  let v14 : BitVec 32 := Scalar.extui v13
  let c0_i32_8 : BitVec 32 := 0#32
  let v15 : BitVec 1 := Scalar.cmpi .ne v14 c0_i32_8
  v15

def cc1_transform_0 (i : grid1.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc1_transform_1 (i : grid1.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg2.toNat]

def cc1_transform_2 (i : grid1.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage1_0 : Fin 2 → Memref sig .tc .vmem S2048x1024 .bf16 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true, false, true]

abbrev stage1_1 : Fin 2 → Memref sig .tc .vmem S1408x1024 .bf16 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![false, true, true]

abbrev stage1_2 : Fin 2 → Memref sig .tc .vmem S2048x1408 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true, true, false]

class Facts₀ : Prop where
  inb_S688x4096_S688x4096_0_0 : ∀ a, (![0, 0] : Fin 2 → Nat) a + S688x4096.size a ≤ S688x4096.size a
  h_S688x4096 : 0 < S688x4096.numel
  shapeCasts_S688x4096_S688x32x128 : S688x4096.ShapeCasts S688x32x128
  reduces_S688x32x128_S688x32 : S688x32x128.Reduces [2] S688x32
  shapeCasts_S688x32_S688x32x1 : S688x32.ShapeCasts S688x32x1
  broadcasts_S688x32x1_S688x32x128 : S688x32x1.Broadcasts S688x32x128
  shapeCasts_S688x32x128_S688x4096 : S688x32x128.ShapeCasts S688x4096
  bitsLt_bf16_f32 : FTy.bits .bf16 < FTy.bits .f32
  packedbf16_S688x4096_S688x4096_0_0 : (Rect.unit (s := S688x4096) ![0, 0] S688x4096.size inb_S688x4096_S688x4096_0_0).PackedRows (EltTy.packing .bf16)
  shapeCasts_S4x2048x4096_S8192x4096 : S4x2048x4096.ShapeCasts S8192x4096
  inb_S2048x1408_S2048x1408_0_0 : ∀ a, (![0, 0] : Fin 2 → Nat) a + S2048x1408.size a ≤ S2048x1408.size a
  h_S2048x1408 : 0 < S2048x1408.numel
  shapeCasts_S2048x1408_S2048x1408 : S2048x1408.ShapeCasts S2048x1408
  inb_S2048x1024_S2048x1024_0_0 : ∀ a, (![0, 0] : Fin 2 → Nat) a + S2048x1024.size a ≤ S2048x1024.size a
  h_S2048x1024 : 0 < S2048x1024.numel
  shapeCasts_S2048x1024_S2048x1024 : S2048x1024.ShapeCasts S2048x1024
  inb_S1408x1024_S1408x1024_0_0 : ∀ a, (![0, 0] : Fin 2 → Nat) a + S1408x1024.size a ≤ S1408x1024.size a
  h_S1408x1024 : 0 < S1408x1024.numel
  shapeCasts_S1408x1024_S1408x1024 : S1408x1024.ShapeCasts S1408x1024
  shapeCasts_S8192x11008_S4x2048x11008 : S8192x11008.ShapeCasts S4x2048x11008
  dot_S2048x1024_S1408x1024_S2048x1408_1_1_0_0_n_n_wf : DotDims.WF S2048x1024 S1408x1024 S2048x1408 [1] [1] [0] [0] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S688x4096.size a ≤ S11008x4096.size a
  hwx0_0 : ∀ i : grid0.Coords, EltTy.bits .f32 = 32 ∨ (Rect.block (s := S11008x4096) S688x4096.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S688x4096.size a ≤ S11008x4096.size a
  hwx0_1 : ∀ i : grid0.Coords, EltTy.bits .bf16 = 32 ∨ (Rect.block (s := S11008x4096) S688x4096.size (cc0_transform_1 i) (hinb0_1 i)).WholeWords (EltTy.packing .bf16)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S2048x1024.size a ≤ S8192x4096.size a
  hwx1_0 : ∀ i : grid1.Coords, EltTy.bits .bf16 = 32 ∨ (Rect.block (s := S8192x4096) S2048x1024.size (cc1_transform_0 i) (hinb1_0 i)).WholeWords (EltTy.packing .bf16)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hstart1_1 : ∀ (i : grid1.Coords) a, cc1_transform_1 i a * S1408x1024.size a < S11008x4096.size a
  hwx1_1 : ∀ i : grid1.Coords, EltTy.bits .bf16 = 32 ∨ (Rect.unit (s := S11008x4096) (fun a => cc1_transform_1 i a * S1408x1024.size a) (fun a => (Pipeline.Clip.of (cc1_transform_1 i a) (S1408x1024.size a) (S11008x4096.size a)).extent (S1408x1024.size a)) fun a => Pipeline.Clip.inb (Pipeline.Clip.ok_of (hstart1_1 i a))).WholeWords (EltTy.packing .bf16)
  hwxs1_1 : ∀ i : grid1.Coords, EltTy.bits .bf16 = 32 ∨ (Rect.unit (s := S1408x1024) (fun _ => 0) (fun a => (Pipeline.Clip.of (cc1_transform_1 i a) (S1408x1024.size a) (S11008x4096.size a)).extent (S1408x1024.size a)) fun a => (Nat.zero_add _).trans_le (Pipeline.Clip.extent_le (Pipeline.Clip.ok_of (hstart1_1 i a)))).WholeWords (EltTy.packing .bf16)
  hstage1_2 : ∀ j, (stage1_2 j).IsWhole
  nbuf1_2 : grid1.bufCount reads1_2 false = 2
  hreads1_2 : ∀ i i' : grid1.Coords, (∀ a, reads1_2 a = true → i a = i' a) → cc1_transform_2 i = cc1_transform_2 i'
  hstart1_2 : ∀ (i : grid1.Coords) a, cc1_transform_2 i a * S2048x1408.size a < S8192x11008.size a
  hwx1_2 : ∀ i : grid1.Coords, EltTy.bits .f32 = 32 ∨ (Rect.unit (s := S8192x11008) (fun a => cc1_transform_2 i a * S2048x1408.size a) (fun a => (Pipeline.Clip.of (cc1_transform_2 i a) (S2048x1408.size a) (S8192x11008.size a)).extent (S2048x1408.size a)) fun a => Pipeline.Clip.inb (Pipeline.Clip.ok_of (hstart1_2 i a))).WholeWords (EltTy.packing .f32)
  hwxs1_2 : ∀ i : grid1.Coords, EltTy.bits .f32 = 32 ∨ (Rect.unit (s := S2048x1408) (fun _ => 0) (fun a => (Pipeline.Clip.of (cc1_transform_2 i a) (S2048x1408.size a) (S8192x11008.size a)).extent (S2048x1408.size a)) fun a => (Nat.zero_add _).trans_le (Pipeline.Clip.extent_le (Pipeline.Clip.ok_of (hstart1_2 i a)))).WholeWords (EltTy.packing .f32)

variable [Facts₀]

def dot_S2048x1024_S1408x1024_S2048x1408_1_1_0_0_n_n : DotDims S2048x1024 S1408x1024 S2048x1408 where
  lhsContracting := [1]
  rhsContracting := [1]
  lhsNonContracting := [0]
  rhsNonContracting := [0]
  lhsBatch := []
  rhsBatch := []
  wf := dot_S2048x1024_S1408x1024_S2048x1408_1_1_0_0_n_n_wf

abbrev win0_0 : Pipeline.Window sig grid0 :=
  Pipeline.Window.ofSpec (Memref.whole main_arg1) S688x4096.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v0) S688x4096.size cc0_transform_1 reads0_1 true false 2 stage0_1 sem0_1
    hrank0 hreads0_1 hinb0_1 nbuf0_1 (Memref.isWhole_whole _) hwx0_1 hstage0_1

abbrev win0 : Fin 2 → Pipeline.Window sig grid0 := fun | 0 => win0_0 | 1 => win0_1 | ⟨_ + 2, h⟩ => absurd h (Nat.not_lt.2 (Nat.le_add_left _ _))
abbrev spec0 : Fin 2 → Pipeline.WinSpec sig grid0.rank := fun w => (win0 w).toWinSpec

abbrev win1_0 : Pipeline.Window sig grid1 :=
  Pipeline.Window.ofSpec (Memref.whole main_v2) S2048x1024.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpecClip (Memref.whole main_v0) S1408x1024.size cc1_transform_1 reads1_1 false false 2 stage1_1 sem1_1
    hrank1 hreads1_1 hstart1_1 nbuf1_1 (Memref.isWhole_whole _) hwx1_1 hwxs1_1 hstage1_1

abbrev win1_2 : Pipeline.Window sig grid1 :=
  Pipeline.Window.ofSpecClip (Memref.whole main_v3) S2048x1408.size cc1_transform_2 reads1_2 true false 2 stage1_2 sem1_2
    hrank1 hreads1_2 hstart1_2 nbuf1_2 (Memref.isWhole_whole _) hwx1_2 hwxs1_2 hstage1_2

abbrev win1 : Fin 3 → Pipeline.Window sig grid1 := fun | 0 => win1_0 | 1 => win1_1 | 2 => win1_2 | ⟨_ + 3, h⟩ => absurd h (Nat.not_lt.2 (Nat.le_add_left _ _))
abbrev spec1 : Fin 3 → Pipeline.WinSpec sig grid1.rank := fun w => (win1 w).toWinSpec

abbrev idle1 : Fin 3 → grid1.Coords → Bool := fun | 0 => fun _ => false | 1 => fun _ => false | 2 => fun i => !(k1_cond2 i == 1#1) | ⟨_ + 3, h⟩ => absurd h (Nat.not_lt.2 (Nat.le_add_left _ _))

class Facts : Prop extends Facts₀ where

variable [Facts]
-- ==== ReferenceIdeal.lean ====
abbrev S4x2048x4096 : Shape := ⟨3, ![4, 2048, 4096]⟩
abbrev S11008x4096 : Shape := ⟨2, ![11008, 4096]⟩
abbrev S352256x128 : Shape := ⟨2, ![352256, 128]⟩
abbrev S_ : Shape := ⟨0, ![]⟩
abbrev S352256 : Shape := ⟨1, ![352256]⟩
abbrev S352256x1 : Shape := ⟨2, ![352256, 1]⟩
abbrev S4x2048x11008 : Shape := ⟨3, ![4, 2048, 11008]⟩

abbrev nBuf : Space → Nat
  | .hbm => 28
  | .vmem => 0
  | .smem => 0
  | _ => 0

abbrev bufTy : (tb : Table) → Fin (tcTables nBuf tb) → BufTy
  | .hbm, ⟨0, _⟩ => ⟨S4x2048x4096, .f32⟩
  | .hbm, ⟨1, _⟩ => ⟨S11008x4096, .f32⟩
  | .hbm, ⟨2, _⟩ => ⟨S352256x128, .f32⟩
  | .hbm, ⟨3, _⟩ => ⟨S352256x128, .f32⟩
  | .hbm, ⟨4, _⟩ => ⟨S_, .f32⟩
  | .hbm, ⟨5, _⟩ => ⟨S352256, .f32⟩
  | .hbm, ⟨6, _⟩ => ⟨S352256x1, .f32⟩
  | .hbm, ⟨7, _⟩ => ⟨S_, .f32⟩
  | .hbm, ⟨8, _⟩ => ⟨S352256x1, .f32⟩
  | .hbm, ⟨9, _⟩ => ⟨S352256x1, .f32⟩
  | .hbm, ⟨10, _⟩ => ⟨S_, .f32⟩
  | .hbm, ⟨11, _⟩ => ⟨S352256x1, .f32⟩
  | .hbm, ⟨12, _⟩ => ⟨S352256x1, .f32⟩
  | .hbm, ⟨13, _⟩ => ⟨S352256x128, .f32⟩
  | .hbm, ⟨14, _⟩ => ⟨S352256x128, .f32⟩
  | .hbm, ⟨15, _⟩ => ⟨S352256x128, .f32⟩
  | .hbm, ⟨16, _⟩ => ⟨S_, .f32⟩
  | .hbm, ⟨17, _⟩ => ⟨S_, .f32⟩
  | .hbm, ⟨18, _⟩ => ⟨S_, .f32⟩
  | .hbm, ⟨19, _⟩ => ⟨S352256x128, .f32⟩
  | .hbm, ⟨20, _⟩ => ⟨S352256x128, .f32⟩
  | .hbm, ⟨21, _⟩ => ⟨S_, .f32⟩
  | .hbm, ⟨22, _⟩ => ⟨S352256x128, .f32⟩
  | .hbm, ⟨23, _⟩ => ⟨S352256x128, .f32⟩
  | .hbm, ⟨24, _⟩ => ⟨S352256x128, .f32⟩
  | .hbm, ⟨25, _⟩ => ⟨S352256x128, .f32⟩
  | .hbm, ⟨26, _⟩ => ⟨S11008x4096, .f32⟩
  | .hbm, ⟨27, _⟩ => ⟨S4x2048x11008, .f32⟩
  | _, _ => ⟨S4x2048x4096, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_cst : Ref sig .tc := ⟨.hbm, 4, rfl⟩
abbrev main_v2 : Ref sig .tc := ⟨.hbm, 5, rfl⟩
abbrev main_v3 : Ref sig .tc := ⟨.hbm, 6, rfl⟩
abbrev main_cst_0 : Ref sig .tc := ⟨.hbm, 7, rfl⟩
abbrev main_v4 : Ref sig .tc := ⟨.hbm, 8, rfl⟩
abbrev main_v5 : Ref sig .tc := ⟨.hbm, 9, rfl⟩
abbrev main_cst_1 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_cst_2 : Ref sig .tc := ⟨.hbm, 16, rfl⟩
abbrev main_cst_3 : Ref sig .tc := ⟨.hbm, 17, rfl⟩
abbrev main_call1_v0 : Ref sig .tc := ⟨.hbm, 18, rfl⟩
abbrev main_call1_v1 : Ref sig .tc := ⟨.hbm, 19, rfl⟩
abbrev main_call1_v2 : Ref sig .tc := ⟨.hbm, 20, rfl⟩
abbrev main_call1_v3 : Ref sig .tc := ⟨.hbm, 21, rfl⟩
abbrev main_call1_v4 : Ref sig .tc := ⟨.hbm, 22, rfl⟩
abbrev main_v11 : Ref sig .tc := ⟨.hbm, 23, rfl⟩
abbrev main_v12 : Ref sig .tc := ⟨.hbm, 24, rfl⟩
abbrev main_v13 : Ref sig .tc := ⟨.hbm, 25, rfl⟩
abbrev main_v14 : Ref sig .tc := ⟨.hbm, 26, rfl⟩
abbrev main_v15 : Ref sig .tc := ⟨.hbm, 27, rfl⟩

abbrev nD : Nat := 1
abbrev τ : Topo := Topo.v7x

variable {F : FTy → Type} [FloatOps F]

class Facts₀ : Prop where
  shapeCasts_S11008x4096_S352256x128 : S11008x4096.ShapeCasts S352256x128
  reducesTo_S352256x128_S352256_d1 : S352256x128.ReducesTo [1] S352256
  h_S_ : 0 < S_.numel
  bcast_S352256_S352256x1_0 : S352256.BroadcastsInDim S352256x1 (![0] : Fin 1 → Fin S352256x1.rank)
  bcast_S_S352256x1 : S_.BroadcastsInDim S352256x1 (![] : Fin 0 → Fin S352256x1.rank)
  bcast_S352256x1_S352256x128_0_1 : S352256x1.BroadcastsInDim S352256x128 (![0, 1] : Fin 2 → Fin S352256x128.rank)
  bcast_S_S352256x128 : S_.BroadcastsInDim S352256x128 (![] : Fin 0 → Fin S352256x128.rank)
  shapeCasts_S352256x128_S11008x4096 : S352256x128.ShapeCasts S11008x4096
  dot_S4x2048x4096_S11008x4096_S4x2048x11008_2_1_01_0_n_n_wf : DotDims.WF S4x2048x4096 S11008x4096 S4x2048x11008 [2] [1] [0, 1] [0] [] []

variable [Facts₀]

def dot_S4x2048x4096_S11008x4096_S4x2048x11008_2_1_01_0_n_n : DotDims S4x2048x4096 S11008x4096 S4x2048x11008 where
  lhsContracting := [2]
  rhsContracting := [1]
  lhsNonContracting := [0, 1]
  rhsNonContracting := [0]
  lhsBatch := []
  rhsBatch := []
  wf := dot_S4x2048x4096_S11008x4096_S4x2048x11008_2_1_01_0_n_n_wf

class Facts : Prop extends Facts₀ where

variable [Facts]
-- ==== Proof.LooseBits.MatmulDefs.lean ====
/-
  The matrix-product region's body as the frame sees it: which buffers it touches, not what it computes.

  At grid point (i, j, k) the body clears its accumulator when k = 0, adds the product of the two input blocks
  to it, and copies it to the output block when k = 3. All of this happens inside four whole buffers: the two
  input blocks, the output block and the accumulator. The frame claim needs only that, so every buffer is held
  at contents nothing names, before and after.
-/
import proofs.«108235_j15058155339886_2_alg».proof.Proof.Gen.Kernel.Launch
import proofs.«108235_j15058155339886_2_alg».proof.Proof.Gen.Kernel.Skeleton
import proofs.«108235_j15058155339886_2_alg».proof.Proof.Gen.Kernel.Points
import Idealize.ShloMosaic.Lib.Pipeline.FrameBody
import Idealize.ShloMosaic.Lib.Tactic

set_option maxRecDepth 16384

noncomputable section

namespace Cert.Kernel.Loose

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat RDat Cfg Window BodyObligation cellOf)

variable {F : FTy → Type} [FloatOps F]

local notation "𝕄" => MT nD τ sig Unit (Elt F) ℕ (UR sig nD τ) ℕ

/-! ## The two conditions the body branches on

Both are read off the innermost grid coordinate `k`, the position along the contracted axis: the first holds at
`k = 0`, the second at `k = 3`. The frame needs neither decided: whichever way each goes, the body stays
inside the four buffers it is handed. -/

/-- The condition of the first branch, as the body computes it: the innermost coordinate is zero. -/
abbrev condZero (i : grid1.Coords) : Prop :=
  (Scalar.cmpi .ne (Scalar.extui (Scalar.cmpi .eq (BitVec.ofNat 32 (i 2).val) 0#32)) 0#32) = 1#1
/-- The condition of the second branch: the innermost coordinate is the last. -/
abbrev condLast (i : grid1.Coords) : Prop := k1_cond2 i = 1#1

/-- What the body is handed and what it hands back: the two input blocks, the output block and the accumulator,
    each a whole buffer at some contents. -/
def held4 (c : Dev nD) (arg3 : Memref sig .tc .vmem S2048x1024 .bf16) (arg4 : Memref sig .tc .vmem S1408x1024 .bf16)
    (arg5 : Memref sig .tc .vmem S2048x1408 .f32) (arg6 : Memref sig .tc .vmem S2048x1408 .f32) : sProp 𝕄 :=
  iprop((∃ d, owns (c : Thread nD τ) arg3 fullShare d) ∗ (∃ d, owns (c : Thread nD τ) arg4 fullShare d)
    ∗ (∃ d, owns (c : Thread nD τ) arg5 fullShare d) ∗ (∃ d, owns (c : Thread nD τ) arg6 fullShare d))

end Cert.Kernel.Loose

end
-- ==== Proof.LooseBits.MatmulA.lean ====
/-
  The matrix-product body with its two branches decided one way: the accumulator cleared, not copied out.
-/
import proofs.«108235_j15058155339886_2_alg».proof.Proof.Gen.Kernel.Launch
import proofs.«108235_j15058155339886_2_alg».proof.Proof.Gen.Kernel.Skeleton
import proofs.«108235_j15058155339886_2_alg».proof.Proof.Gen.Kernel.Points
import proofs.«108235_j15058155339886_2_alg».proof.Proof.LooseBits.MatmulDefs

set_option maxRecDepth 16384

noncomputable section

namespace Cert.Kernel.Loose

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat RDat Cfg Window BodyObligation cellOf)

variable {F : FTy → Type} [FloatOps F]

local notation "𝕄" => MT nD τ sig Unit (Elt F) ℕ (UR sig nD τ) ℕ

set_option maxHeartbeats 1000000 in
/-- With the first branch's condition true and the second's false, the body loads and stores whole buffers among the
    four it holds and returns holding all four, each at some contents. -/
theorem matmul_caseA (c : Dev nD) (E : Set ℕ) (i : grid1.Coords)
    (arg3 : Memref sig .tc .vmem S2048x1024 .bf16) (harg3 : arg3.IsWhole)
    (arg4 : Memref sig .tc .vmem S1408x1024 .bf16) (harg4 : arg4.IsWhole)
    (arg5 : Memref sig .tc .vmem S2048x1408 .f32) (harg5 : arg5.IsWhole)
    (arg6 : Memref sig .tc .vmem S2048x1408 .f32) (harg6 : arg6.IsWhole)
    (hc0 : condZero i) (hc1 : ¬condLast i) (K : PUnit → sProp 𝕄) :
    iprop(held4 c arg3 arg4 arg5 arg6 ∗ (held4 c arg3 arg4 arg5 arg6 -∗ K ⟨⟩))
      ⊢ wp frame (wpE (defs₀ (F := F)) Variants.none c none) E (cc1__matmul_kernel i arg3 harg3 arg4 harg4 arg5 harg5 arg6 harg6) K := by
  simp only [cc1__matmul_kernel_eq_skeleton]; unfold cc1__matmul_kernel_skel
  unfold held4 owns
  iintro ⟨⟨⟨%d3, %f3, -, H3⟩, ⟨%d4, %f4, -, H4⟩, ⟨%d5, %f5, -, H5⟩, ⟨%d6, %f6, -, H6⟩⟩, Hk⟩
  sl_exec (disch := first | exact hc0 | exact hc1)
  sl_step
  iapply Hk
  isplitl [H3]
  · iexists _; iexists _; isplitr
    swap; · iexact H3
    ipureintro; rfl
  isplitl [H4]
  · iexists _; iexists _; isplitr
    swap; · iexact H4
    ipureintro; rfl
  isplitl [H5]
  · iexists _; iexists _; isplitr
    swap; · iexact H5
    ipureintro; rfl
  · iexists _; iexists _; isplitr
    swap; · iexact H6
    ipureintro; rfl

end Cert.Kernel.Loose

end
-- ==== Proof.LooseBits.MatmulB.lean ====
/-
  The matrix-product body with its two branches decided one way: the accumulator neither cleared nor copied out.
-/
import proofs.«108235_j15058155339886_2_alg».proof.Proof.Gen.Kernel.Launch
import proofs.«108235_j15058155339886_2_alg».proof.Proof.Gen.Kernel.Skeleton
import proofs.«108235_j15058155339886_2_alg».proof.Proof.Gen.Kernel.Points
import proofs.«108235_j15058155339886_2_alg».proof.Proof.LooseBits.MatmulDefs

set_option maxRecDepth 16384

noncomputable section

namespace Cert.Kernel.Loose

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat RDat Cfg Window BodyObligation cellOf)

variable {F : FTy → Type} [FloatOps F]

local notation "𝕄" => MT nD τ sig Unit (Elt F) ℕ (UR sig nD τ) ℕ

set_option maxHeartbeats 1000000 in
/-- With the first branch's condition false and the second's false, the body loads and stores whole buffers among the
    four it holds and returns holding all four, each at some contents. -/
theorem matmul_caseB (c : Dev nD) (E : Set ℕ) (i : grid1.Coords)
    (arg3 : Memref sig .tc .vmem S2048x1024 .bf16) (harg3 : arg3.IsWhole)
    (arg4 : Memref sig .tc .vmem S1408x1024 .bf16) (harg4 : arg4.IsWhole)
    (arg5 : Memref sig .tc .vmem S2048x1408 .f32) (harg5 : arg5.IsWhole)
    (arg6 : Memref sig .tc .vmem S2048x1408 .f32) (harg6 : arg6.IsWhole)
    (hc0 : ¬condZero i) (hc1 : ¬condLast i) (K : PUnit → sProp 𝕄) :
    iprop(held4 c arg3 arg4 arg5 arg6 ∗ (held4 c arg3 arg4 arg5 arg6 -∗ K ⟨⟩))
      ⊢ wp frame (wpE (defs₀ (F := F)) Variants.none c none) E (cc1__matmul_kernel i arg3 harg3 arg4 harg4 arg5 harg5 arg6 harg6) K := by
  simp only [cc1__matmul_kernel_eq_skeleton]; unfold cc1__matmul_kernel_skel
  unfold held4 owns
  iintro ⟨⟨⟨%d3, %f3, -, H3⟩, ⟨%d4, %f4, -, H4⟩, ⟨%d5, %f5, -, H5⟩, ⟨%d6, %f6, -, H6⟩⟩, Hk⟩
  sl_exec (disch := first | exact hc0 | exact hc1)
  sl_step
  iapply Hk
  isplitl [H3]
  · iexists _; iexists _; isplitr
    swap; · iexact H3
    ipureintro; rfl
  isplitl [H4]
  · iexists _; iexists _; isplitr
    swap; · iexact H4
    ipureintro; rfl
  isplitl [H5]
  · iexists _; iexists _; isplitr
    swap; · iexact H5
    ipureintro; rfl
  · iexists _; iexists _; isplitr
    swap; · iexact H6
    ipureintro; rfl

end Cert.Kernel.Loose

end
-- ==== Proof.LooseBits.MatmulC.lean ====
/-
  The matrix-product body with its two branches decided one way: the accumulator not cleared, copied out.
-/
import proofs.«108235_j15058155339886_2_alg».proof.Proof.Gen.Kernel.Launch
import proofs.«108235_j15058155339886_2_alg».proof.Proof.Gen.Kernel.Skeleton
import proofs.«108235_j15058155339886_2_alg».proof.Proof.Gen.Kernel.Points
import proofs.«108235_j15058155339886_2_alg».proof.Proof.LooseBits.MatmulDefs

set_option maxRecDepth 16384

noncomputable section

namespace Cert.Kernel.Loose

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat RDat Cfg Window BodyObligation cellOf)

variable {F : FTy → Type} [FloatOps F]

local notation "𝕄" => MT nD τ sig Unit (Elt F) ℕ (UR sig nD τ) ℕ

set_option maxHeartbeats 1000000 in
/-- With the first branch's condition false and the second's true, the body loads and stores whole buffers among the
    four it holds and returns holding all four, each at some contents. -/
theorem matmul_caseC (c : Dev nD) (E : Set ℕ) (i : grid1.Coords)
    (arg3 : Memref sig .tc .vmem S2048x1024 .bf16) (harg3 : arg3.IsWhole)
    (arg4 : Memref sig .tc .vmem S1408x1024 .bf16) (harg4 : arg4.IsWhole)
    (arg5 : Memref sig .tc .vmem S2048x1408 .f32) (harg5 : arg5.IsWhole)
    (arg6 : Memref sig .tc .vmem S2048x1408 .f32) (harg6 : arg6.IsWhole)
    (hc0 : ¬condZero i) (hc1 : condLast i) (K : PUnit → sProp 𝕄) :
    iprop(held4 c arg3 arg4 arg5 arg6 ∗ (held4 c arg3 arg4 arg5 arg6 -∗ K ⟨⟩))
      ⊢ wp frame (wpE (defs₀ (F := F)) Variants.none c none) E (cc1__matmul_kernel i arg3 harg3 arg4 harg4 arg5 harg5 arg6 harg6) K := by
  simp only [cc1__matmul_kernel_eq_skeleton]; unfold cc1__matmul_kernel_skel
  unfold held4 owns
  iintro ⟨⟨⟨%d3, %f3, -, H3⟩, ⟨%d4, %f4, -, H4⟩, ⟨%d5, %f5, -, H5⟩, ⟨%d6, %f6, -, H6⟩⟩, Hk⟩
  sl_exec (disch := first | exact hc0 | exact hc1)
  sl_step
  iapply Hk
  isplitl [H3]
  · iexists _; iexists _; isplitr
    swap; · iexact H3
    ipureintro; rfl
  isplitl [H4]
  · iexists _; iexists _; isplitr
    swap; · iexact H4
    ipureintro; rfl
  isplitl [H5]
  · iexists _; iexists _; isplitr
    swap; · iexact H5
    ipureintro; rfl
  · iexists _; iexists _; isplitr
    swap; · iexact H6
    ipureintro; rfl

end Cert.Kernel.Loose

end
-- ==== Proof.LooseBits.MatmulD.lean ====
/-
  The matrix-product body with its two branches decided one way: the accumulator cleared and copied out.
-/
import proofs.«108235_j15058155339886_2_alg».proof.Proof.Gen.Kernel.Launch
import proofs.«108235_j15058155339886_2_alg».proof.Proof.Gen.Kernel.Skeleton
import proofs.«108235_j15058155339886_2_alg».proof.Proof.Gen.Kernel.Points
import proofs.«108235_j15058155339886_2_alg».proof.Proof.LooseBits.MatmulDefs

set_option maxRecDepth 16384

noncomputable section

namespace Cert.Kernel.Loose

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat RDat Cfg Window BodyObligation cellOf)

variable {F : FTy → Type} [FloatOps F]

local notation "𝕄" => MT nD τ sig Unit (Elt F) ℕ (UR sig nD τ) ℕ

set_option maxHeartbeats 1000000 in
/-- With the first branch's condition true and the second's true, the body loads and stores whole buffers among the
    four it holds and returns holding all four, each at some contents. -/
theorem matmul_caseD (c : Dev nD) (E : Set ℕ) (i : grid1.Coords)
    (arg3 : Memref sig .tc .vmem S2048x1024 .bf16) (harg3 : arg3.IsWhole)
    (arg4 : Memref sig .tc .vmem S1408x1024 .bf16) (harg4 : arg4.IsWhole)
    (arg5 : Memref sig .tc .vmem S2048x1408 .f32) (harg5 : arg5.IsWhole)
    (arg6 : Memref sig .tc .vmem S2048x1408 .f32) (harg6 : arg6.IsWhole)
    (hc0 : condZero i) (hc1 : condLast i) (K : PUnit → sProp 𝕄) :
    iprop(held4 c arg3 arg4 arg5 arg6 ∗ (held4 c arg3 arg4 arg5 arg6 -∗ K ⟨⟩))
      ⊢ wp frame (wpE (defs₀ (F := F)) Variants.none c none) E (cc1__matmul_kernel i arg3 harg3 arg4 harg4 arg5 harg5 arg6 harg6) K := by
  simp only [cc1__matmul_kernel_eq_skeleton]; unfold cc1__matmul_kernel_skel
  unfold held4 owns
  iintro ⟨⟨⟨%d3, %f3, -, H3⟩, ⟨%d4, %f4, -, H4⟩, ⟨%d5, %f5, -, H5⟩, ⟨%d6, %f6, -, H6⟩⟩, Hk⟩
  sl_exec (disch := first | exact hc0 | exact hc1)
  sl_step
  iapply Hk
  isplitl [H3]
  · iexists _; iexists _; isplitr
    swap; · iexact H3
    ipureintro; rfl
  isplitl [H4]
  · iexists _; iexists _; isplitr
    swap; · iexact H4
    ipureintro; rfl
  isplitl [H5]
  · iexists _; iexists _; isplitr
    swap; · iexact H5
    ipureintro; rfl
  · iexists _; iexists _; isplitr
    swap; · iexact H6
    ipureintro; rfl

end Cert.Kernel.Loose

end
-- ==== Proof.LooseBits.Matmul.lean ====
/-
  The matrix-product body at any grid point: whichever way its two branches go, it returns the four buffers.
-/
import proofs.«108235_j15058155339886_2_alg».proof.Proof.Gen.Kernel.Launch
import proofs.«108235_j15058155339886_2_alg».proof.Proof.Gen.Kernel.Skeleton
import proofs.«108235_j15058155339886_2_alg».proof.Proof.Gen.Kernel.Points
import proofs.«108235_j15058155339886_2_alg».proof.Proof.LooseBits.MatmulA
import proofs.«108235_j15058155339886_2_alg».proof.Proof.LooseBits.MatmulB
import proofs.«108235_j15058155339886_2_alg».proof.Proof.LooseBits.MatmulC
import proofs.«108235_j15058155339886_2_alg».proof.Proof.LooseBits.MatmulD

set_option maxRecDepth 16384

noncomputable section

namespace Cert.Kernel.Loose

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat RDat Cfg Window BodyObligation cellOf)

variable {F : FTy → Type} [FloatOps F]

local notation "𝕄" => MT nD τ sig Unit (Elt F) ℕ (UR sig nD τ) ℕ

/-- The body at any grid point, on any four whole buffers: it runs and hands the four back. -/
theorem matmul_run (c : Dev nD) (E : Set ℕ) (i : grid1.Coords)
    (arg3 : Memref sig .tc .vmem S2048x1024 .bf16) (harg3 : arg3.IsWhole)
    (arg4 : Memref sig .tc .vmem S1408x1024 .bf16) (harg4 : arg4.IsWhole)
    (arg5 : Memref sig .tc .vmem S2048x1408 .f32) (harg5 : arg5.IsWhole)
    (arg6 : Memref sig .tc .vmem S2048x1408 .f32) (harg6 : arg6.IsWhole) (K : PUnit → sProp 𝕄) :
    iprop(held4 c arg3 arg4 arg5 arg6 ∗ (held4 c arg3 arg4 arg5 arg6 -∗ K ⟨⟩))
      ⊢ wp frame (wpE (defs₀ (F := F)) Variants.none c none) E (cc1__matmul_kernel i arg3 harg3 arg4 harg4 arg5 harg5 arg6 harg6) K := by
  by_cases hc0 : condZero i <;> by_cases hc1 : condLast i
  · exact matmul_caseD c E i arg3 harg3 arg4 harg4 arg5 harg5 arg6 harg6 hc0 hc1 K
  · exact matmul_caseA c E i arg3 harg3 arg4 harg4 arg5 harg5 arg6 harg6 hc0 hc1 K
  · exact matmul_caseC c E i arg3 harg3 arg4 harg4 arg5 harg5 arg6 harg6 hc0 hc1 K
  · exact matmul_caseB c E i arg3 harg3 arg4 harg4 arg5 harg5 arg6 harg6 hc0 hc1 K

end Cert.Kernel.Loose

end
-- ==== Proof.LooseBits.Region0.lean ====
/-
  The quantization region read as exact proof data, at the contents `V` the region is entered with.

  The weight array is cut into sixteen blocks of 688 whole rows. At grid point `t` the body loads block `t`
  of the weights, quantizes every row of it group by group, and stores the result over the whole output
  block; the pipeline writes that block back to rows 688·t … 688·t + 687 of the output array. Nothing is kept
  between points and no block overhangs, so what each staging buffer holds after the body is a function of the
  input block alone.
-/
import proofs.«108235_j15058155339886_2_alg».proof.Proof.Gen.Kernel.Launch
import proofs.«108235_j15058155339886_2_alg».proof.Proof.Gen.Kernel.Skeleton
import proofs.«108235_j15058155339886_2_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Exact

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation BodyObligationLoose cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-- Block `t` of window `w`'s array as the region finds it. -/
def qblk (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-- The weight window's staging buffer holds the weight block at every point: the window is fetched at every
    point, is never cut and never idle. -/
theorem qbefore_of {c : Dev nD} (dat : Dat τ (Elt F) Unit ℕ (UR sig nD τ) ℕ cfg0 c) (hA : dat.A 0 = V c (Pipeline.arrRef spec0 0))
    (hafter : ∀ t, dat.after 0 t = qblk V c 0 t) (t : Fin cfg0.N) (d) : dat.before 0 t d = qblk V c 0 t :=
  (dat.before_in_eq_fetched 0 rfl (fun _ => rfl) (fun _ _ _ => rfl) (fun t => by rw [hafter]; unfold Dat.blockOf qblk; rw [hA]; try rfl) t d).trans
    (by unfold Dat.fetched Dat.blockOf qblk; rw [hA]; try rfl)

/-- The whole 688 × 4096 block as a rectangle. -/
abbrev rq : Rect S688x4096 := Rect.unit (s := S688x4096) ![0, 0] S688x4096.size inb_S688x4096_S688x4096_0_0

/-- What the body leaves in the output block: its one store, of the quantized rows of the loaded block. -/
def qout (x0 : Vec F S688x4096 .f32) : Vec F S688x4096 .bf16 :=
  View.canon [⟨rq, k0_pay1 (View.ld x0 rq)⟩]

theorem qcover (p0 : Vec F S688x4096 .bf16) (y : S688x4096.Idx) :
    ∃ pc ∈ ([⟨rq, p0⟩] : List (View.Piece (Elt F) S688x4096 .bf16)), y ∈ pc.1.set :=
  View.cover_of_tiled [⟨rq, p0⟩] S688x4096.size (by rfl) y

set_option maxHeartbeats 1000000 in
/-- The body on whole staging buffers: the weights' buffer is read and left as it was, the output's ends at the
    quantized rows. -/
theorem sound_quant (c : Dev nD) (E : Set ℕ) (i : grid0.Coords) (arg1 : Memref sig .tc .vmem S688x4096 .f32) (harg1 : arg1.IsWhole)
    (arg2 : Memref sig .tc .vmem S688x4096 .bf16) (harg2 : arg2.IsWhole)
    (x0 : Vec F S688x4096 .f32) (K : PUnit → sProp 𝕄) :
    iprop(owns (c : Thread nD τ) arg1 fullShare x0 ∗ (∃ d, owns (c : Thread nD τ) arg2 fullShare d)
        ∗ (iprop(owns (c : Thread nD τ) arg1 fullShare x0 ∗ owns (c : Thread nD τ) arg2 fullShare (qout x0)) -∗ K ⟨⟩))
      ⊢ wp frame (wpE (defs₀ (F := F)) Variants.none c none) E (cc0__quant_kernel i arg1 harg1 arg2 harg2) K := by
  simp only [cc0__quant_kernel_eq_skeleton]; unfold cc0__quant_kernel_skel
  unfold owns
  iintro ⟨⟨%f0, %hf0, H0⟩, ⟨%d1, %f1, -, H1⟩, Hk⟩
  subst hf0
  sl_exec
  sl_step
  iapply Hk
  isplitl [H0]
  · iexists f0; isplitr; · ipureintro; rfl
    iexact H0
  iexists _; isplitr
  swap; · iexact H1
  ipureintro
  exact View.read_writes_eq_canon _ _ _ (qcover _)

/-- The proof data of the quantization region on core `c`. -/
def qdat (c : Dev nD) : Dat τ (Elt F) Unit ℕ (UR sig nD τ) ℕ cfg0 c where
  A w := V c (Pipeline.arrRef spec0 w)
  after w t := match w with
    | ⟨0, _⟩ => qblk V c 0 t
    | ⟨1, _⟩ => qout (qblk V c 0 t)
  Φ _ := Pipeline.ΦA spec0 c
  q _ := fullShare
  owed _ := 0

theorem qA_eq (c : Dev nD) (w : Fin cfg0.W) : (qdat V c).A w = V c (Pipeline.arrRef spec0 w) := by
  dsimp only [qdat]
theorem qafter_0 (c : Dev nD) (t : Fin cfg0.N) : (qdat V c).after 0 t = qblk V c 0 t := by dsimp only [qdat]
theorem qafter_1 (c : Dev nD) (t : Fin cfg0.N) : (qdat V c).after 1 t = qout (qblk V c 0 t) := by dsimp only [qdat]
theorem qbefore_0 (c : Dev nD) (t : Fin cfg0.N) (d) : (qdat V c).before 0 t d = qblk V c 0 t :=
  qbefore_of V (qdat V c) (qA_eq V c 0) (qafter_0 V c) t d

def qPre (c : Dev nD) (t : Fin cfg0.N) : sProp 𝕄 :=
  iprop((qdat V c).Φ t.castSucc ∗ (qdat V c).owesAt () t.castSucc
    ∗ (∃ d, owns (c : Thread nD τ) (st0_0 t) fullShare ((qdat V c).before 0 t d))
    ∗ (∃ d, owns (c : Thread nD τ) (st0_1 t) fullShare ((qdat V c).before 1 t d)))

def qPost (c : Dev nD) (t : Fin cfg0.N) : sProp 𝕄 :=
  iprop((qdat V c).Φ t.succ ∗ (qdat V c).owesAt () t.succ
    ∗ owns (c : Thread nD τ) (st0_0 t) fullShare ((qdat V c).after 0 t)
    ∗ owns (c : Thread nD τ) (st0_1 t) fullShare ((qdat V c).after 1 t))

theorem sound_qbody (c : Dev nD) (t : Fin cfg0.N) :
    qPre V c t ⊢ wp frame (wpE (defs₀ (F := F)) Variants.none c none) Set.univ (bodyAt0 t) (fun _ => qPost V c t) := by
  unfold qPre qPost bodyAt0
  simp only [qbefore_0]
  rw [show (qdat V c).Φ t.succ = (qdat V c).Φ t.castSucc from rfl,
    show (qdat V c).owesAt () t.succ = (qdat V c).owesAt () t.castSucc from rfl,
    qafter_0, qafter_1]
  iintro ⟨HΦ, Ho, ⟨%d0, H0⟩, ⟨%d1, H1⟩⟩
  iapply (sound_quant c Set.univ _ _ _ _ _ (qblk V c 0 t) _)
  isplitl [H0]; · iexact H0
  isplitl [H1]; · iexists _; iexact H1
  iintro ⟨H0, H1⟩
  isplitl [HΦ]; · iexact HΦ
  isplitl [Ho]; · iexact Ho
  isplitl [H0]; · iexact H0
  iexact H1

theorem qbody_obligation (c : Dev nD) : BodyObligation (qdat (F := F) V c) (defs₀ (F := F)) Variants.none () Set.univ := fun t => by
  rw [bigSep_W0, bigSep_W0]
  exact sound_qbody V c t

end Cert.Kernel.Exact

end
-- ==== Proof.LooseBits.Data.lean ====
/-
  The program as four items run one after the other: the buffers' contents between the items, both regions'
  proof data, and what each core holds between two items.
-/
import proofs.«108235_j15058155339886_2_alg».proof.Proof.Gen.Kernel.Launch
import proofs.«108235_j15058155339886_2_alg».proof.Proof.Gen.Kernel.Skeleton
import proofs.«108235_j15058155339886_2_alg».proof.Proof.Gen.Kernel.Points
import proofs.«108235_j15058155339886_2_alg».proof.Proof.LooseBits.Region0
import proofs.«108235_j15058155339886_2_alg».proof.Proof.Gen.Kernel.Regions
import Idealize.ShloMosaic.Lib.Pipeline.Frame
import Idealize.ShloMosaic.Lib.Pipeline.FrameSuffix

set_option maxRecDepth 16384

noncomputable section

namespace Cert.Kernel.Loose

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat RDat Cfg Window BodyObligation cellOf)

variable {F : FTy → Type} [FloatOps F]

local notation "𝕄" => MT nD τ sig Unit (Elt F) ℕ (UR sig nD τ) ℕ

variable (m : (ℓ : Loc nD τ sig) → Buf (Elt F) ℓ)

/-! ## The buffers' contents between the items of the program

The program is four items: the quantization region, a host stretch (a reshape and a rounding of the activations),
the matrix-product region, a host stretch (a reshape of the result). What the first three leave in every buffer
is a function of the launch memory and is named here; what the matrix-product region leaves in its output is
not named, so from there on the contents are "some valuation that still has both arguments as launched". -/

/-- Core `c`'s buffers at launch. -/
abbrev W0 (c : Dev nD) : Valuation τ sig (Elt F) := fun b => m (c, b)
/-- The same read at the core's own references: what the quantization region is entered with. -/
abbrev VR0 : (c : Dev nD) → (b : Ref sig .tc) → Buf (Elt F) ((c : Thread nD τ).loc b) := fun c b => W0 m c b

/-- After the quantization region: its two arrays at what its write-backs leave, every other buffer as launched. -/
def W1 (c : Dev nD) : Valuation τ sig (Elt F) :=
  Pipeline.withArrays spec0 c (W0 m c) fun w => (Exact.qdat (VR0 m) c).arrAt w cfg0.N
theorem W1_arr (c : Dev nD) (w : Fin cfg0.W) :
    W1 m c (Proc.devRef .tc (Pipeline.arrRef spec0 w)) = (Exact.qdat (VR0 m) c).arrAt w cfg0.N := by
  unfold W1; exact Pipeline.withArrays_arr spec0 launch0.win.arr_inj c _ _ w
theorem W1_of_ne (c : Dev nD) (b : Ref sig .tc) (hb : ∀ w, Pipeline.arrRef spec0 w ≠ b) :
    W1 m c (Proc.devRef .tc b) = W0 m c (Proc.devRef .tc b) := by
  unfold W1; exact Pipeline.withArrays_of_ne spec0 c _ _ b hb
abbrev VR1 : (c : Dev nD) → (b : Ref sig .tc) → Buf (Elt F) ((c : Thread nD τ).loc b) := fun c b => W1 m c b
theorem hF0 (c : Dev nD) (w : Fin cfg0.W) : (Exact.qdat (VR0 m) c).arrAt w cfg0.N = VR1 m c (Pipeline.arrRef spec0 w) :=
  (W1_arr m c w).symm
theorem hrest0 (c : Dev nD) : ∀ b, b ∉ Finset.univ.image (Pipeline.arrRef spec0) → VR1 m c b = VR0 m c b :=
  fun b hb => W1_of_ne m c b fun w e => hb (Finset.mem_image.mpr ⟨w, Finset.mem_univ _, e⟩)

/-- After the first host stretch: what the matrix-product region is entered with. -/
abbrev W2 (c : Dev nD) : Valuation τ sig (Elt F) := StableHlo.after hostOps1 (W1 m c)
abbrev VR2 : (c : Dev nD) → (b : Ref sig .tc) → Buf (Elt F) ((c : Thread nD τ).loc b) := fun c b => W2 m c b

/-- Neither the quantization region nor the first host stretch changes the activations' array … -/
theorem W2_main_arg0 (c : Dev nD) : W2 m c (Proc.devRef .tc main_arg0) = m ((c : Thread nD τ).loc main_arg0) :=
  calc W2 m c (Proc.devRef .tc main_arg0)
    _ = W1 m c (Proc.devRef .tc main_arg0) := StableHlo.after_of_writes_sub hostOps1 _ hostOps1_writes (by decide)
    _ = W0 m c (Proc.devRef .tc main_arg0) := W1_of_ne m c main_arg0 (by decide)
    _ = m ((c : Thread nD τ).loc main_arg0) := rfl
/-- … nor the weights': the region only reads them (an input window's array is never written back). -/
theorem W2_main_arg1 (c : Dev nD) : W2 m c (Proc.devRef .tc main_arg1) = m ((c : Thread nD τ).loc main_arg1) :=
  calc W2 m c (Proc.devRef .tc main_arg1)
    _ = W1 m c (Proc.devRef .tc main_arg1) := StableHlo.after_of_writes_sub hostOps1 _ hostOps1_writes (by decide)
    _ = W0 m c (Proc.devRef .tc main_arg1) := (W1_arr m c 0).trans (((Exact.qdat (VR0 m) c).arrAt_in 0 rfl _).trans (Exact.qA_eq (VR0 m) c 0))
    _ = m ((c : Thread nD τ).loc main_arg1) := rfl

/-! ## The proof data -/

/-- The matrix-product region's proof data on core `c`: its three arrays as the region finds them; of what the
    body leaves in any staging buffer nothing is said (every input block is fetched afresh at every point, and the
    frame does not read the output); the invariant is the kernel's scratch — which holds the accumulator — and
    the generator register, each at something; nothing owed; full shares. -/
def mdat (c : Dev nD) : RDat τ (Elt F) Unit ℕ (UR sig nD τ) ℕ cfg1 c where
  A w := VR2 m c (Pipeline.arrRef spec1 w)
  after _ _ _ _ := True
  Φ _ := Pipeline.ΦA spec1 c
  q _ := fullShare
  owed _ := 0

/-- No pipeline has a prefetched table. -/
abbrev adm : (p : Fin 2) → (pcfgs (F := F) p).Adm := fun p => (cfgs p).toPCfg_adm

/-- Both pipelines' proof data: the quantization region's exact data read relationally, then the above. -/
def rdats : (p : Fin 2) → (c : Dev nD) → RDat τ (Elt F) Unit ℕ (UR sig nD τ) ℕ (Pipeline.pin (pcfgs (F := F)) adm p) c
  | ⟨0, _⟩ => fun c => (Exact.qdat (VR0 m) c).toR
  | ⟨1, _⟩ => fun c => mdat m c

abbrev 𝒱₀ : Variants := Variants.none
abbrev L : GSem nD τ sig → Finset Unit := fun _ => ∅
abbrev lv : GSem nD τ sig → Unit → ℕ := fun _ _ => 0

/-! ## The thread states -/

/-- What rides beside the buffers through every item: the generator register at some state, nothing owed. -/
abbrev R (c : Dev nD) : sProp 𝕄 := iprop((∃ r, prngReg c r) ∗ ∃ W, owes (c : Thread nD τ) (0 : CellTallies nD τ sig Unit) W)

/-- A valuation that still has both argument arrays as launched. -/
def Keeps (c : Dev nD) (V : Valuation τ sig (Elt F)) : Prop :=
  V (Proc.devRef .tc main_arg0) = m ((c : Thread nD τ).loc main_arg0) ∧ V (Proc.devRef .tc main_arg1) = m ((c : Thread nD τ).loc main_arg1)

/-- The thread state from the matrix-product region's exit on, but for the `owes`: every unscoped buffer at some
    valuation that keeps the arguments, the generator register at some state. -/
def Tn (c : Dev nD) : sProp 𝕄 :=
  iprop(∃ V : Valuation τ sig (Elt F), ⌜Keeps m c V⌝ ∗ StableHlo.held (c : Thread nD τ) (Pipeline.ucRefs τ sig) V ∗ ∃ r, prngReg c r)

end Cert.Kernel.Loose

end
-- ==== Proof.LooseBits.Body1.lean ====
/-
  The matrix-product region's body obligation over its relational proof data.
-/
import proofs.«108235_j15058155339886_2_alg».proof.Proof.Gen.Kernel.Launch
import proofs.«108235_j15058155339886_2_alg».proof.Proof.Gen.Kernel.Skeleton
import proofs.«108235_j15058155339886_2_alg».proof.Proof.Gen.Kernel.Points
import proofs.«108235_j15058155339886_2_alg».proof.Proof.LooseBits.Matmul
import proofs.«108235_j15058155339886_2_alg».proof.Proof.LooseBits.Data

set_option maxRecDepth 16384

noncomputable section

namespace Cert.Kernel.Loose

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat RDat Cfg Window BodyObligation cellOf)

variable {F : FTy → Type} [FloatOps F]

local notation "𝕄" => MT nD τ sig Unit (Elt F) ℕ (UR sig nD τ) ℕ

variable (m : (ℓ : Loc nD τ sig) → Buf (Elt F) ℓ)

/-- The region's invariant with the accumulator as a buffer the body can be handed: the four staging buffers of
    the other region, the accumulator, the generator register, each at something. -/
theorem PhiA1_eq (c : Dev nD) :
    (Pipeline.ΦA spec1 c : sProp 𝕄)
      = iprop(((∃ f : Buf (Elt F) ((c : Thread nD τ).loc cc0_stg0_0), ((c : Thread nD τ).loc cc0_stg0_0) ↦{fullShare} f)
          ∗ (∃ f : Buf (Elt F) ((c : Thread nD τ).loc cc0_stg0_1), ((c : Thread nD τ).loc cc0_stg0_1) ↦{fullShare} f)
          ∗ (∃ f : Buf (Elt F) ((c : Thread nD τ).loc cc0_stg1_0), ((c : Thread nD τ).loc cc0_stg1_0) ↦{fullShare} f)
          ∗ (∃ f : Buf (Elt F) ((c : Thread nD τ).loc cc0_stg1_1), ((c : Thread nD τ).loc cc0_stg1_1) ↦{fullShare} f)
          ∗ (∃ d, owns (c : Thread nD τ) (Memref.whole cc1_scratch0 : Memref sig .tc .vmem S2048x1408 .f32) fullShare d))
        ∗ ∃ r, prngReg c r) := by
  unfold Pipeline.ΦA; rw [scopedRest1_eq]; simp only [owns_whole]; try rfl

/-- What the body is called with at point `t`: the invariant, the core's `owes`, each window's current staging
    buffer at the contents `Y` it may hold, -/
def mPre (c : Dev nD) (t : Fin cfg1.N) (Y : (w : Fin cfg1.W) → (cfg1.win w).block.Idx → Elt F (cfg1.win w).elt) : sProp 𝕄 :=
  iprop((mdat m c).Φ t.castSucc ∗ (mdat m c).owesAt () t.castSucc
    ∗ owns (c : Thread nD τ) (st1_0 t) fullShare (Y 0)
    ∗ owns (c : Thread nD τ) (st1_1 t) fullShare (Y 1)
    ∗ owns (c : Thread nD τ) (st1_2 t) fullShare (Y 2))

/-- and what it returns: the same, each staging buffer at some contents. -/
def mPost (c : Dev nD) (t : Fin cfg1.N) (Y : (w : Fin cfg1.W) → (cfg1.win w).block.Idx → Elt F (cfg1.win w).elt) : sProp 𝕄 :=
  iprop((mdat m c).Φ t.succ ∗ (mdat m c).owesAt () t.succ
    ∗ (∃ X, ⌜(mdat m c).after 0 t (Y 0) X⌝ ∗ owns (c : Thread nD τ) (st1_0 t) fullShare X)
    ∗ (∃ X, ⌜(mdat m c).after 1 t (Y 1) X⌝ ∗ owns (c : Thread nD τ) (st1_1 t) fullShare X)
    ∗ (∃ X, ⌜(mdat m c).after 2 t (Y 2) X⌝ ∗ owns (c : Thread nD τ) (st1_2 t) fullShare X))

/-- The body at any point: the accumulator is taken out of the invariant, the body runs on the three staging
    buffers and the accumulator, and the accumulator goes back in; the core's `owes` passes through unread. -/
theorem sound_mbody (c : Dev nD) (t : Fin cfg1.N) (Y : (w : Fin cfg1.W) → (cfg1.win w).block.Idx → Elt F (cfg1.win w).elt) :
    mPre m c t Y ⊢ wp frame (wpE (defs₀ (F := F)) Variants.none c none) Set.univ (bodyAt1 t) (fun _ => mPost m c t Y) := by
  unfold mPre mPost bodyAt1
  rw [show (mdat m c).Φ t.succ = Pipeline.ΦA spec1 c from rfl, show (mdat m c).Φ t.castSucc = Pipeline.ΦA spec1 c from rfl,
    show (mdat m c).owesAt () t.succ = (mdat m c).owesAt () t.castSucc from rfl, PhiA1_eq]
  iintro ⟨⟨⟨Ha, Hb, Hc, Hd, Hs⟩, Hp⟩, Ho, H0, H1, H2⟩
  iapply (matmul_run c Set.univ _ _ _ _ _ _ _ _ _ _)
  unfold held4
  isplitl [H0 H1 H2 Hs]
  · isplitl [H0]; · iexists _; iexact H0
    isplitl [H1]; · iexists _; iexact H1
    isplitl [H2]; · iexists _; iexact H2
    iexact Hs
  iintro ⟨⟨%d0, H0⟩, ⟨%d1, H1⟩, ⟨%d2, H2⟩, Hs⟩
  isplitl [Ha Hb Hc Hd Hs Hp]
  · isplitl [Ha Hb Hc Hd Hs]
    · isplitl [Ha]; · iexact Ha
      isplitl [Hb]; · iexact Hb
      isplitl [Hc]; · iexact Hc
      isplitl [Hd]; · iexact Hd
      iexact Hs
    iexact Hp
  isplitl [Ho]; · iexact Ho
  isplitl [H0]
  · iexists d0; isplitr; · ipureintro; trivial
    iexact H0
  isplitl [H1]
  · iexists d1; isplitr; · ipureintro; trivial
    iexact H1
  · iexists d2; isplitr; · ipureintro; trivial
    iexact H2

/-- The body obligation of the relational data, at every point: nothing of what the buffers may hold is used. -/
theorem mbody_obligation (c : Dev nD) : (mdat (F := F) m c).BodyObligation (defs₀ (F := F)) Variants.none () Set.univ := fun t Y _ => by
  rw [bigSep_W1, bigSep_W1]
  exact sound_mbody m c t Y

end Cert.Kernel.Loose

end
-- ==== Proof.LooseBits.Segs.lean ====
/-
  The program's two regions and two host stretches as segments: what each is entered from, what it leaves, and
  why it gets from the one to the other.
-/
import proofs.«108235_j15058155339886_2_alg».proof.Proof.Gen.Kernel.Launch
import proofs.«108235_j15058155339886_2_alg».proof.Proof.Gen.Kernel.Skeleton
import proofs.«108235_j15058155339886_2_alg».proof.Proof.Gen.Kernel.Points
import proofs.«108235_j15058155339886_2_alg».proof.Proof.LooseBits.Body1
import Idealize.ShloMosaic.Lib.Pipeline.RegionsLoop

set_option maxRecDepth 16384

noncomputable section

namespace Cert.Kernel.Loose

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat RDat Cfg Window BodyObligation cellOf)

variable {F : FTy → Type} [FloatOps F]

local notation "𝕄" => MT nD τ sig Unit (Elt F) ℕ (UR sig nD τ) ℕ

variable (m : (ℓ : Loc nD τ sig) → Buf (Elt F) ℓ)

/-! ## A region's arrays back among the core's unscoped buffers -/

set_option backward.isDefEq.respectTransparency.types false in
/-- Pipeline `p`'s arrays at contents `G` and the unscoped rest at `V` are the core's unscoped buffers at any
    valuation `V'` that has the arrays at `G` and agrees with `V` off them. -/
theorem join_arrays {p : Fin 2} (c : Dev nD) (hw : Pipeline.WinFacts (Pipeline.pin (pcfgs (F := F)) adm p).spec)
    (harr : ∀ w, ((Pipeline.pin (pcfgs (F := F)) adm p).spec w).arr.IsWhole)
    (hshare : ∀ w, (rdats m p c).share w = fullShare)
    (V V' : (b : Ref sig .tc) → Buf (Elt F) ((c : Thread nD τ).loc b))
    (G : (w : Fin (Pipeline.pin (pcfgs (F := F)) adm p).W) → Buf (Elt F) (((Pipeline.pin (pcfgs (F := F)) adm p).spec w).arr.view.loc (c : Thread nD τ)))
    (hG : ∀ w, G w = V' (Pipeline.arrRef (Pipeline.pin (pcfgs (F := F)) adm p).spec w))
    (hrest : ∀ b, b ∉ Finset.univ.image (Pipeline.arrRef (Pipeline.pin (pcfgs (F := F)) adm p).spec) → V' b = V b) :
    iprop((rdats m p c).arrays G ∗ Pipeline.unscopedRest (Pipeline.pin (pcfgs (F := F)) adm p).spec c V) ⊢ (unscopedBufs c V' : sProp 𝕄) := by
  rw [Pipeline.unscopedBufs_split (Pipeline.pin (pcfgs (F := F)) adm) p hw.arr_unscoped hw.arr_inj c V',
    Pipeline.RDat.arrays_eq (pcfgs (F := F)) adm (rdats m) p c harr hshare]
  refine sep_mono (Entails.of_eq (bigSep_congr fun w _ => by rw [hG])) (Entails.of_eq ?_)
  unfold Pipeline.unscopedRest
  exact bigSep_congr fun b hb => by rw [hrest b (Finset.mem_sdiff.mp hb).2]

/-! ## The regions as segments -/

set_option backward.isDefEq.respectTransparency.types false in
/-- The quantization region: entered from every unscoped buffer at the launch contents, left with its output array
    at what its write-backs leave. Its arrays are split out of the unscoped buffers and put back at the exit
    contents; the generator register goes into the invariant and comes out; nothing owed; no semaphore of the
    kernel's own. -/
def reg0 : Pipeline.RDat.RegionSeg (pcfgs (F := F)) adm (rdats m) () defs₀ 𝒱₀ L lv 0 where
  win := launch0.win.to₀
  block_pos := launch0.block_pos
  stage_whole := launch0.stage_whole
  K := PEmpty
  osem k := k.elim
  ho := Pipeline.OwnSemFacts.none _
  hbody c := (Exact.qbody_obligation (VR0 m) c).toR
  hwaits := Pipeline.RDat.hwaits_of_owed_zero _ _ _ _ L lv 0 fun _ _ => rfl
  pre c := iprop(StableHlo.held (c : Thread nD τ) (Pipeline.ucRefs τ sig) (W0 m c) ∗ R c)
  post c := iprop(StableHlo.held (c : Thread nD τ) (Pipeline.ucRefs τ sig) (W1 m c) ∗ R c)
  X c := iprop(∃ r, prngReg c r)
  Y c := iprop(∃ r, prngReg c r)
  Z c := Pipeline.unscopedRest (Ix := Unit) (Name := ℕ) (U := UR sig nD τ) (Lvl := ℕ) spec0 c (VR0 m c)
  hentry c := by
    rw [Pipeline.ownSems0_none]
    have hsplit := Pipeline.RDat.arrays_of_unscopedBufs (p := 0) (pcfgs (F := F)) adm (rdats m) launch0.win launch0.arr_whole c
      ((rdats m 0 c).share_full fun _ => rfl) (VR0 m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.RDat.owesAt Pipeline.owesWithin
      icases HO with ⟨%W, HO⟩; iexists W; isplitr; · ipureintro; exact fun _ _ => Or.inl trivial
      iexact HO
    isplitl [Hp]; · iexact Hp
    iexact Hrest
  hin c := by
    rw [show (rdats m 0 c).Φ 0 = Pipeline.ΦA spec0 c from rfl]; unfold Pipeline.ΦA
    iintro ⟨Hp, -, Hr⟩
    isplitl [Hr]; · iexact Hr
    iexact Hp
  hout c := by
    rw [Pipeline.ownSems0_none, show (rdats m 0 c).Φ (Fin.last _) = Pipeline.ΦA spec0 c from rfl]; unfold Pipeline.ΦA
    iintro ⟨Hr, Hp⟩
    isplitl [Hp]; · iexact Hp
    isplitr; · iempintro
    iexact Hr
  hexit c := by
    -- each array holds what the exact data names: the only contents its write-backs allow
    have hw : ∀ w : Fin cfg0.W,
        (iprop(∃ G, ⌜(rdats m 0 c).ArrAt w cfg0.N G⌝ ∗ (cfg0.win w).arr.view.loc (c : Thread nD τ) ↦[(cfg0.win w).arr.view.set]{(rdats m 0 c).share w} G) : sProp 𝕄)
          ⊢ ((cfg0.win w).arr.view.loc (c : Thread nD τ) ↦[(cfg0.win w).arr.view.set]{(rdats m 0 c).share w} (Exact.qdat (VR0 m) c).arrAt w cfg0.N) := fun w => by
      iintro ⟨%G, %hG, H⟩
      obtain rfl : G = (Exact.qdat (VR0 m) c).arrAt w cfg0.N := (Exact.qdat (VR0 m) c).toR_arrAt w cfg0.N G hG
      iexact H
    have hnamed : ((rdats m 0 c).arraysAt cfg0.N : sProp 𝕄) ⊢ (rdats m 0 c).arrays ((Exact.qdat (VR0 m) c).arrAt · cfg0.N) := by
      unfold RDat.arraysAt RDat.arrays
      exact bigSep_mono fun w _ => hw w
    have hjoin := join_arrays m (p := 0) c launch0.win launch0.arr_whole ((rdats m 0 c).share_full fun _ => rfl)
      (VR0 m c) (VR1 m c) ((Exact.qdat (VR0 m) c).arrAt · cfg0.N) (hF0 m c) (hrest0 m c)
    rw [Pipeline.unscopedBufs_held] at hjoin
    iintro ⟨Ha, HO, HY, Hrest⟩
    ihave Ha := hnamed $$ Ha
    imodintro
    isplitl [Ha Hrest]
    · iapply hjoin; isplitl [Ha] <;> iassumption
    isplitl [HY]; · iexact HY
    unfold Pipeline.RDat.owesAt Pipeline.owesWithin
    icases HO with ⟨%W, -, HO⟩; iexists W; iexact HO

set_option backward.isDefEq.respectTransparency.types false in
/-- The matrix-product region: entered from every unscoped buffer at the contents the first host stretch leaves,
    left with its output array at contents nothing names — so with every unscoped buffer at some valuation, which
    still has both arguments as launched because neither is an array of this region. -/
def reg1 : Pipeline.RDat.RegionSeg (pcfgs (F := F)) adm (rdats m) () defs₀ 𝒱₀ L lv 1 where
  win := launch1.win.to₀
  block_pos := launch1.block_pos
  stage_whole := launch1.stage_whole
  K := PEmpty
  osem k := k.elim
  ho := Pipeline.OwnSemFacts.none _
  hbody c := mbody_obligation m c
  hwaits := Pipeline.RDat.hwaits_of_owed_zero _ _ _ _ L lv 1 fun _ _ => rfl
  pre c := iprop(StableHlo.held (c : Thread nD τ) (Pipeline.ucRefs τ sig) (W2 m c) ∗ R c)
  post c := iprop(Tn m c ∗ ∃ W, owes (c : Thread nD τ) (0 : CellTallies nD τ sig Unit) W)
  X c := iprop(∃ r, prngReg c r)
  Y c := iprop(∃ r, prngReg c r)
  Z c := Pipeline.unscopedRest (Ix := Unit) (Name := ℕ) (U := UR sig nD τ) (Lvl := ℕ) spec1 c (VR2 m c)
  hentry c := by
    rw [Pipeline.ownSems0_none]
    have hsplit := Pipeline.RDat.arrays_of_unscopedBufs (p := 1) (pcfgs (F := F)) adm (rdats m) launch1.win launch1.arr_whole c
      ((rdats m 1 c).share_full fun _ => rfl) (VR2 m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.RDat.owesAt Pipeline.owesWithin
      icases HO with ⟨%W, HO⟩; iexists W; isplitr; · ipureintro; exact fun _ _ => Or.inl trivial
      iexact HO
    isplitl [Hp]; · iexact Hp
    iexact Hrest
  hin c := by
    rw [show (rdats m 1 c).Φ 0 = Pipeline.ΦA spec1 c from rfl]; unfold Pipeline.ΦA
    iintro ⟨Hp, -, Hr⟩
    isplitl [Hr]; · iexact Hr
    iexact Hp
  hout c := by
    rw [Pipeline.ownSems0_none, show (rdats m 1 c).Φ (Fin.last _) = Pipeline.ΦA spec1 c from rfl]; unfold Pipeline.ΦA
    iintro ⟨Hr, Hp⟩
    isplitl [Hp]; · iexact Hp
    isplitr; · iempintro
    iexact Hr
  hexit c := by
    -- the three arrays' contents, each some buffer's worth, gathered into one family
    haveI : ∀ w : Fin cfg1.W, Nonempty (Buf (Elt F) ((cfg1.win w).arr.view.loc (c : Thread nD τ))) := fun w => ⟨(rdats m 1 c).A w⟩
    have hw : ∀ (G : (w : Fin cfg1.W) → Buf (Elt F) ((cfg1.win w).arr.view.loc (c : Thread nD τ))) (w : Fin cfg1.W),
        (iprop(⌜(rdats m 1 c).ArrAt w cfg1.N (G w)⌝ ∗ (cfg1.win w).arr.view.loc (c : Thread nD τ) ↦[(cfg1.win w).arr.view.set]{(rdats m 1 c).share w} G w) : sProp 𝕄)
          ⊢ ((cfg1.win w).arr.view.loc (c : Thread nD τ) ↦[(cfg1.win w).arr.view.set]{(rdats m 1 c).share w} G w) := fun G w => by
      iintro ⟨-, H⟩; iexact H
    have hgather : ((rdats m 1 c).arraysAt cfg1.N : sProp 𝕄) ⊢ iprop(∃ G, (rdats m 1 c).arrays G) := by
      unfold RDat.arraysAt RDat.arrays
      exact (BI.bigSep_exists_pi Finset.univ _).trans (exists_mono fun G => bigSep_mono fun w _ => hw G w)
    iintro ⟨Ha, HO, HY, Hrest⟩
    ihave Ha := hgather $$ Ha
    icases Ha with ⟨%G, Ha⟩
    have hjoin := join_arrays m (p := 1) c launch1.win launch1.arr_whole ((rdats m 1 c).share_full fun _ => rfl)
      (VR2 m c) (fun b => Pipeline.withArrays spec1 c (W2 m c) G b) G
      (fun w => (Pipeline.withArrays_arr spec1 launch1.win.arr_inj c _ G w).symm)
      (fun b hb => Pipeline.withArrays_of_ne spec1 c _ G b fun w e => hb (Finset.mem_image.mpr ⟨w, Finset.mem_univ _, e⟩))
    rw [Pipeline.unscopedBufs_held] at hjoin
    imodintro
    isplitr [HO]
    · unfold Tn
      iexists Pipeline.withArrays spec1 c (W2 m c) G
      isplitr
      · ipureintro
        exact ⟨(Pipeline.withArrays_of_ne spec1 c _ G main_arg0 (by decide)).trans (W2_main_arg0 m c),
          (Pipeline.withArrays_of_ne spec1 c _ G main_arg1 (by decide)).trans (W2_main_arg1 m c)⟩
      isplitl [Ha Hrest]
      · iapply hjoin; isplitl [Ha] <;> iassumption
      iexact HY
    unfold Pipeline.RDat.owesAt Pipeline.owesWithin
    icases HO with ⟨%W, -, HO⟩; iexists W; iexact HO

/-! ## The host stretches as segments -/

/-- The first host stretch, from the named contents the quantization region leaves. -/
abbrev hseg1 : Pipeline.HostSeg (Name := ℕ) (U := UR sig nD τ) (pcfgs (F := F)) defs₀ 𝒱₀ L lv :=
  Pipeline.HostSeg.ofOps _ _ _ _ _ (Pipeline.ucRefs τ sig) hostOps1
    (fun op h => Pipeline.sub_ucRefs op ((List.forall_iff_forall_mem.mp hostOps1_sub) op h))
    (fun op h => (List.forall_iff_forall_mem.mp hostOps1_fresh) op h) (W1 m) R

set_option backward.isDefEq.respectTransparency.types false in
/-- The last host stretch, from some valuation that keeps the arguments to another: its one operation writes
    neither argument. -/
def hseg3 : Pipeline.HostSeg (Name := ℕ) (U := UR sig nD τ) (pcfgs (F := F)) defs₀ 𝒱₀ L lv where
  prog := StableHlo.seq hostOps2
  pre c := iprop(Tn m c ∗ ∃ W, owes (c : Thread nD τ) (0 : CellTallies nD τ sig Unit) W)
  post c := iprop(Tn m c ∗ ∃ W, owes (c : Thread nD τ) (0 : CellTallies nD τ sig Unit) W)
  run c {β} k K := by
    unfold Tn
    iintro ⟨Hk, Hbd, ⟨⟨%V, %hV, Hh, Hp⟩, HO⟩, -⟩
    have hseq := StableHlo.wp_seq (defs := Pipeline.defs (pcfgs (F := F)) defs₀) (Variants.lift 𝒱₀) none Set.univ c (Pipeline.ucRefs τ sig) k (K := K) hostOps2
      (fun op h => Pipeline.sub_ucRefs op ((List.forall_iff_forall_mem.mp hostOps2_sub) op h))
      (fun op h => (List.forall_iff_forall_mem.mp hostOps2_fresh) op h) V
    iapply hseq $$ [Hbd Hh]
    · isplitl [Hbd] <;> iassumption
    iintro ⟨Hbd, Hh⟩
    iapply Hk
    isplitl [Hbd]; · iexact Hbd
    isplitr [HO]
    · iexists StableHlo.after hostOps2 V
      isplitr
      · ipureintro
        exact ⟨(StableHlo.after_of_writes_sub hostOps2 V hostOps2_writes (by decide)).trans hV.1,
          (StableHlo.after_of_writes_sub hostOps2 V hostOps2_writes (by decide)).trans hV.2⟩
      isplitl [Hh] <;> iassumption
    iexact HO

/-- The program's four items in order. -/
abbrev segs : List (Pipeline.RDat.Seg (pcfgs (F := F)) adm (rdats m) () defs₀ 𝒱₀ L lv) :=
  [ .region (reg0 m), .host (hseg1 m), .region (reg1 m), .host (hseg3 m) ]

end Cert.Kernel.Loose

end
-- ==== Proof.LooseBits.Frame.lean ====
/-
  The frame of the program: it terminates from any memory and leaves both argument arrays as launched.
-/
import proofs.«108235_j15058155339886_2_alg».proof.Proof.Gen.Kernel.Launch
import proofs.«108235_j15058155339886_2_alg».proof.Proof.Gen.Kernel.Skeleton
import proofs.«108235_j15058155339886_2_alg».proof.Proof.Gen.Kernel.Points
import proofs.«108235_j15058155339886_2_alg».proof.Proof.LooseBits.Segs

set_option maxRecDepth 16384

noncomputable section

namespace Cert.Kernel.Loose

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat RDat Cfg Window BodyObligation cellOf)

variable {F : FTy → Type} [FloatOps F]

local notation "𝕄" => MT nD τ sig Unit (Elt F) ℕ (UR sig nD τ) ℕ

set_option backward.isDefEq.respectTransparency.types false in
/-- The frame, at any `F`: from any memory with zero counters, every weakly fair execution of the program
    terminates, nothing faulting, and every final memory has both argument arrays as launched. The four items are
    composed one after the other from the launch; the last thread state — every unscoped buffer at some valuation
    that keeps the arguments — is read against the final state. -/
theorem frame (m : (ℓ : Loc nD τ sig) → Buf (Elt F) ℓ) (ρ : Dev nD → PrngReg) :
    θ_run (defs (F := F)) (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)) :=
  Pipeline.RDat.θ_run_regions_kit (pcfgs (F := F)) adm (rdats m) () cellOf_inj emb₁ defs₀ 𝒱₀ L lv m ρ main (segs m)
    (fun c Q => by
      rewrite [main_chain c, Pipeline.RDat.Seg.run_eq_chain,
        show (segs m).map Pipeline.RDat.Seg.prog = [
          Prog.lift (.customCall (Pipeline.entry 0) ()),
          StableHlo.seq hostOps1,
          Prog.lift (.customCall (Pipeline.entry 1) ()),
          StableHlo.seq hostOps2 ] from rfl]
      exact .rfl)
    (by simp only [segs, Pipeline.RDat.Seg.pipes_host, Pipeline.RDat.Seg.pipes_region, Pipeline.RDat.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m c) ∗ R c)) (Tₙ := Tn m)
    (hch := ⟨fun _ => .rfl, fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m c)
        from Pipeline.unscopedBufs_held c (W0 m c)]
      iintro ⟨⟨Hh, -, HO, -, Hp, -⟩, -⟩
      imodintro
      isplitl [Hh]; · iexact Hh
      isplitl [Hp]; · iexists _; iexact Hp
      iexists ∅; iexact HO)
    (QY := fun c s => s.mem ((c.tc : Thread nD τ).loc main_arg0) = m ((c.tc : Thread nD τ).loc main_arg0)
      ∧ s.mem ((c.tc : Thread nD τ).loc main_arg1) = m ((c.tc : Thread nD τ).loc main_arg1))
    (hfin := fun c s' => by
      unfold Tn StableHlo.held
      iintro ⟨⟨%V, %hV, Hh, -⟩, HSI⟩
      ihave Hr := (pointsTo_read_all (Pipeline.ucRefs τ sig) (fun b => ((c : Thread nD τ).1, b)) V s') $$ [Hh HSI]
      · isplitl [Hh] <;> iassumption
      icases Hr with ⟨%h, HSI⟩
      imodintro
      isplitr
      · ipureintro
        exact ⟨(h (Proc.devRef .tc main_arg0) (Finset.mem_filter.mpr ⟨StableHlo.devRef_mem_tcRefs main_arg0, by decide⟩)).trans hV.1,
          (h (Proc.devRef .tc main_arg1) (Finset.mem_filter.mpr ⟨StableHlo.devRef_mem_tcRefs main_arg1, by decide⟩)).trans hV.2⟩
      · iexact HSI)
    (hQ := fun _ h => h)

end Cert.Kernel.Loose

end
-- ==== Proof.LooseIdeal.MatmulDefs.lean ====
/-
  The matrix-product region's body as the frame sees it: which buffers it touches, not what it computes.

  At grid point (i, j, k) the body clears its accumulator when k = 0, adds the product of the two input blocks
  to it, and copies it to the output block when k = 3. All of this happens inside four whole buffers: the two
  input blocks, the output block and the accumulator. The frame claim needs only that, so every buffer is held
  at contents nothing names, before and after.
-/
import proofs.«108235_j15058155339886_2_alg».proof.Proof.Gen.KernelIdeal.Launch
import proofs.«108235_j15058155339886_2_alg».proof.Proof.Gen.KernelIdeal.Skeleton
import proofs.«108235_j15058155339886_2_alg».proof.Proof.Gen.KernelIdeal.Points
import Idealize.ShloMosaic.Lib.Pipeline.FrameBody
import Idealize.ShloMosaic.Lib.Tactic

set_option maxRecDepth 16384

noncomputable section

namespace Cert.KernelIdeal.Loose

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat RDat Cfg Window BodyObligation cellOf)

variable {F : FTy → Type} [FloatOps F]

local notation "𝕄" => MT nD τ sig Unit (Elt F) ℕ (UR sig nD τ) ℕ

/-! ## The two conditions the body branches on

Both are read off the innermost grid coordinate `k`, the position along the contracted axis: the first holds at
`k = 0`, the second at `k = 3`. The frame needs neither decided: whichever way each goes, the body stays
inside the four buffers it is handed. -/

/-- The condition of the first branch, as the body computes it: the innermost coordinate is zero. -/
abbrev condZero (i : grid1.Coords) : Prop :=
  (Scalar.cmpi .ne (Scalar.extui (Scalar.cmpi .eq (BitVec.ofNat 32 (i 2).val) 0#32)) 0#32) = 1#1
/-- The condition of the second branch: the innermost coordinate is the last. -/
abbrev condLast (i : grid1.Coords) : Prop := k1_cond2 i = 1#1

/-- What the body is handed and what it hands back: the two input blocks, the output block and the accumulator,
    each a whole buffer at some contents. -/
def held4 (c : Dev nD) (arg3 : Memref sig .tc .vmem S2048x1024 .bf16) (arg4 : Memref sig .tc .vmem S1408x1024 .bf16)
    (arg5 : Memref sig .tc .vmem S2048x1408 .f32) (arg6 : Memref sig .tc .vmem S2048x1408 .f32) : sProp 𝕄 :=
  iprop((∃ d, owns (c : Thread nD τ) arg3 fullShare d) ∗ (∃ d, owns (c : Thread nD τ) arg4 fullShare d)
    ∗ (∃ d, owns (c : Thread nD τ) arg5 fullShare d) ∗ (∃ d, owns (c : Thread nD τ) arg6 fullShare d))

end Cert.KernelIdeal.Loose

end
-- ==== Proof.LooseIdeal.MatmulA.lean ====
/-
  The matrix-product body with its two branches decided one way: the accumulator cleared, not copied out.
-/
import proofs.«108235_j15058155339886_2_alg».proof.Proof.Gen.KernelIdeal.Launch
import proofs.«108235_j15058155339886_2_alg».proof.Proof.Gen.KernelIdeal.Skeleton
import proofs.«108235_j15058155339886_2_alg».proof.Proof.Gen.KernelIdeal.Points
import proofs.«108235_j15058155339886_2_alg».proof.Proof.LooseIdeal.MatmulDefs

set_option maxRecDepth 16384

noncomputable section

namespace Cert.KernelIdeal.Loose

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat RDat Cfg Window BodyObligation cellOf)

variable {F : FTy → Type} [FloatOps F]

local notation "𝕄" => MT nD τ sig Unit (Elt F) ℕ (UR sig nD τ) ℕ

set_option maxHeartbeats 1000000 in
/-- With the first branch's condition true and the second's false, the body loads and stores whole buffers among the
    four it holds and returns holding all four, each at some contents. -/
theorem matmul_caseA (c : Dev nD) (E : Set ℕ) (i : grid1.Coords)
    (arg3 : Memref sig .tc .vmem S2048x1024 .bf16) (harg3 : arg3.IsWhole)
    (arg4 : Memref sig .tc .vmem S1408x1024 .bf16) (harg4 : arg4.IsWhole)
    (arg5 : Memref sig .tc .vmem S2048x1408 .f32) (harg5 : arg5.IsWhole)
    (arg6 : Memref sig .tc .vmem S2048x1408 .f32) (harg6 : arg6.IsWhole)
    (hc0 : condZero i) (hc1 : ¬condLast i) (K : PUnit → sProp 𝕄) :
    iprop(held4 c arg3 arg4 arg5 arg6 ∗ (held4 c arg3 arg4 arg5 arg6 -∗ K ⟨⟩))
      ⊢ wp frame (wpE (defs₀ (F := F)) Variants.none c none) E (cc1__matmul_kernel i arg3 harg3 arg4 harg4 arg5 harg5 arg6 harg6) K := by
  simp only [cc1__matmul_kernel_eq_skeleton]; unfold cc1__matmul_kernel_skel
  unfold held4 owns
  iintro ⟨⟨⟨%d3, %f3, -, H3⟩, ⟨%d4, %f4, -, H4⟩, ⟨%d5, %f5, -, H5⟩, ⟨%d6, %f6, -, H6⟩⟩, Hk⟩
  sl_exec (disch := first | exact hc0 | exact hc1)
  sl_step
  iapply Hk
  isplitl [H3]
  · iexists _; iexists _; isplitr
    swap; · iexact H3
    ipureintro; rfl
  isplitl [H4]
  · iexists _; iexists _; isplitr
    swap; · iexact H4
    ipureintro; rfl
  isplitl [H5]
  · iexists _; iexists _; isplitr
    swap; · iexact H5
    ipureintro; rfl
  · iexists _; iexists _; isplitr
    swap; · iexact H6
    ipureintro; rfl

end Cert.KernelIdeal.Loose

end
-- ==== Proof.LooseIdeal.MatmulB.lean ====
/-
  The matrix-product body with its two branches decided one way: the accumulator neither cleared nor copied out.
-/
import proofs.«108235_j15058155339886_2_alg».proof.Proof.Gen.KernelIdeal.Launch
import proofs.«108235_j15058155339886_2_alg».proof.Proof.Gen.KernelIdeal.Skeleton
import proofs.«108235_j15058155339886_2_alg».proof.Proof.Gen.KernelIdeal.Points
import proofs.«108235_j15058155339886_2_alg».proof.Proof.LooseIdeal.MatmulDefs

set_option maxRecDepth 16384

noncomputable section

namespace Cert.KernelIdeal.Loose

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat RDat Cfg Window BodyObligation cellOf)

variable {F : FTy → Type} [FloatOps F]

local notation "𝕄" => MT nD τ sig Unit (Elt F) ℕ (UR sig nD τ) ℕ

set_option maxHeartbeats 1000000 in
/-- With the first branch's condition false and the second's false, the body loads and stores whole buffers among the
    four it holds and returns holding all four, each at some contents. -/
theorem matmul_caseB (c : Dev nD) (E : Set ℕ) (i : grid1.Coords)
    (arg3 : Memref sig .tc .vmem S2048x1024 .bf16) (harg3 : arg3.IsWhole)
    (arg4 : Memref sig .tc .vmem S1408x1024 .bf16) (harg4 : arg4.IsWhole)
    (arg5 : Memref sig .tc .vmem S2048x1408 .f32) (harg5 : arg5.IsWhole)
    (arg6 : Memref sig .tc .vmem S2048x1408 .f32) (harg6 : arg6.IsWhole)
    (hc0 : ¬condZero i) (hc1 : ¬condLast i) (K : PUnit → sProp 𝕄) :
    iprop(held4 c arg3 arg4 arg5 arg6 ∗ (held4 c arg3 arg4 arg5 arg6 -∗ K ⟨⟩))
      ⊢ wp frame (wpE (defs₀ (F := F)) Variants.none c none) E (cc1__matmul_kernel i arg3 harg3 arg4 harg4 arg5 harg5 arg6 harg6) K := by
  simp only [cc1__matmul_kernel_eq_skeleton]; unfold cc1__matmul_kernel_skel
  unfold held4 owns
  iintro ⟨⟨⟨%d3, %f3, -, H3⟩, ⟨%d4, %f4, -, H4⟩, ⟨%d5, %f5, -, H5⟩, ⟨%d6, %f6, -, H6⟩⟩, Hk⟩
  sl_exec (disch := first | exact hc0 | exact hc1)
  sl_step
  iapply Hk
  isplitl [H3]
  · iexists _; iexists _; isplitr
    swap; · iexact H3
    ipureintro; rfl
  isplitl [H4]
  · iexists _; iexists _; isplitr
    swap; · iexact H4
    ipureintro; rfl
  isplitl [H5]
  · iexists _; iexists _; isplitr
    swap; · iexact H5
    ipureintro; rfl
  · iexists _; iexists _; isplitr
    swap; · iexact H6
    ipureintro; rfl

end Cert.KernelIdeal.Loose

end
-- ==== Proof.LooseIdeal.MatmulC.lean ====
/-
  The matrix-product body with its two branches decided one way: the accumulator not cleared, copied out.
-/
import proofs.«108235_j15058155339886_2_alg».proof.Proof.Gen.KernelIdeal.Launch
import proofs.«108235_j15058155339886_2_alg».proof.Proof.Gen.KernelIdeal.Skeleton
import proofs.«108235_j15058155339886_2_alg».proof.Proof.Gen.KernelIdeal.Points
import proofs.«108235_j15058155339886_2_alg».proof.Proof.LooseIdeal.MatmulDefs

set_option maxRecDepth 16384

noncomputable section

namespace Cert.KernelIdeal.Loose

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat RDat Cfg Window BodyObligation cellOf)

variable {F : FTy → Type} [FloatOps F]

local notation "𝕄" => MT nD τ sig Unit (Elt F) ℕ (UR sig nD τ) ℕ

set_option maxHeartbeats 1000000 in
/-- With the first branch's condition false and the second's true, the body loads and stores whole buffers among the
    four it holds and returns holding all four, each at some contents. -/
theorem matmul_caseC (c : Dev nD) (E : Set ℕ) (i : grid1.Coords)
    (arg3 : Memref sig .tc .vmem S2048x1024 .bf16) (harg3 : arg3.IsWhole)
    (arg4 : Memref sig .tc .vmem S1408x1024 .bf16) (harg4 : arg4.IsWhole)
    (arg5 : Memref sig .tc .vmem S2048x1408 .f32) (harg5 : arg5.IsWhole)
    (arg6 : Memref sig .tc .vmem S2048x1408 .f32) (harg6 : arg6.IsWhole)
    (hc0 : ¬condZero i) (hc1 : condLast i) (K : PUnit → sProp 𝕄) :
    iprop(held4 c arg3 arg4 arg5 arg6 ∗ (held4 c arg3 arg4 arg5 arg6 -∗ K ⟨⟩))
      ⊢ wp frame (wpE (defs₀ (F := F)) Variants.none c none) E (cc1__matmul_kernel i arg3 harg3 arg4 harg4 arg5 harg5 arg6 harg6) K := by
  simp only [cc1__matmul_kernel_eq_skeleton]; unfold cc1__matmul_kernel_skel
  unfold held4 owns
  iintro ⟨⟨⟨%d3, %f3, -, H3⟩, ⟨%d4, %f4, -, H4⟩, ⟨%d5, %f5, -, H5⟩, ⟨%d6, %f6, -, H6⟩⟩, Hk⟩
  sl_exec (disch := first | exact hc0 | exact hc1)
  sl_step
  iapply Hk
  isplitl [H3]
  · iexists _; iexists _; isplitr
    swap; · iexact H3
    ipureintro; rfl
  isplitl [H4]
  · iexists _; iexists _; isplitr
    swap; · iexact H4
    ipureintro; rfl
  isplitl [H5]
  · iexists _; iexists _; isplitr
    swap; · iexact H5
    ipureintro; rfl
  · iexists _; iexists _; isplitr
    swap; · iexact H6
    ipureintro; rfl

end Cert.KernelIdeal.Loose

end
-- ==== Proof.LooseIdeal.MatmulD.lean ====
/-
  The matrix-product body with its two branches decided one way: the accumulator cleared and copied out.
-/
import proofs.«108235_j15058155339886_2_alg».proof.Proof.Gen.KernelIdeal.Launch
import proofs.«108235_j15058155339886_2_alg».proof.Proof.Gen.KernelIdeal.Skeleton
import proofs.«108235_j15058155339886_2_alg».proof.Proof.Gen.KernelIdeal.Points
import proofs.«108235_j15058155339886_2_alg».proof.Proof.LooseIdeal.MatmulDefs

set_option maxRecDepth 16384

noncomputable section

namespace Cert.KernelIdeal.Loose

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat RDat Cfg Window BodyObligation cellOf)

variable {F : FTy → Type} [FloatOps F]

local notation "𝕄" => MT nD τ sig Unit (Elt F) ℕ (UR sig nD τ) ℕ

set_option maxHeartbeats 1000000 in
/-- With the first branch's condition true and the second's true, the body loads and stores whole buffers among the
    four it holds and returns holding all four, each at some contents. -/
theorem matmul_caseD (c : Dev nD) (E : Set ℕ) (i : grid1.Coords)
    (arg3 : Memref sig .tc .vmem S2048x1024 .bf16) (harg3 : arg3.IsWhole)
    (arg4 : Memref sig .tc .vmem S1408x1024 .bf16) (harg4 : arg4.IsWhole)
    (arg5 : Memref sig .tc .vmem S2048x1408 .f32) (harg5 : arg5.IsWhole)
    (arg6 : Memref sig .tc .vmem S2048x1408 .f32) (harg6 : arg6.IsWhole)
    (hc0 : condZero i) (hc1 : condLast i) (K : PUnit → sProp 𝕄) :
    iprop(held4 c arg3 arg4 arg5 arg6 ∗ (held4 c arg3 arg4 arg5 arg6 -∗ K ⟨⟩))
      ⊢ wp frame (wpE (defs₀ (F := F)) Variants.none c none) E (cc1__matmul_kernel i arg3 harg3 arg4 harg4 arg5 harg5 arg6 harg6) K := by
  simp only [cc1__matmul_kernel_eq_skeleton]; unfold cc1__matmul_kernel_skel
  unfold held4 owns
  iintro ⟨⟨⟨%d3, %f3, -, H3⟩, ⟨%d4, %f4, -, H4⟩, ⟨%d5, %f5, -, H5⟩, ⟨%d6, %f6, -, H6⟩⟩, Hk⟩
  sl_exec (disch := first | exact hc0 | exact hc1)
  sl_step
  iapply Hk
  isplitl [H3]
  · iexists _; iexists _; isplitr
    swap; · iexact H3
    ipureintro; rfl
  isplitl [H4]
  · iexists _; iexists _; isplitr
    swap; · iexact H4
    ipureintro; rfl
  isplitl [H5]
  · iexists _; iexists _; isplitr
    swap; · iexact H5
    ipureintro; rfl
  · iexists _; iexists _; isplitr
    swap; · iexact H6
    ipureintro; rfl

end Cert.KernelIdeal.Loose

end
-- ==== Proof.LooseIdeal.Matmul.lean ====
/-
  The matrix-product body at any grid point: whichever way its two branches go, it returns the four buffers.
-/
import proofs.«108235_j15058155339886_2_alg».proof.Proof.Gen.KernelIdeal.Launch
import proofs.«108235_j15058155339886_2_alg».proof.Proof.Gen.KernelIdeal.Skeleton
import proofs.«108235_j15058155339886_2_alg».proof.Proof.Gen.KernelIdeal.Points
import proofs.«108235_j15058155339886_2_alg».proof.Proof.LooseIdeal.MatmulA
import proofs.«108235_j15058155339886_2_alg».proof.Proof.LooseIdeal.MatmulB
import proofs.«108235_j15058155339886_2_alg».proof.Proof.LooseIdeal.MatmulC
import proofs.«108235_j15058155339886_2_alg».proof.Proof.LooseIdeal.MatmulD

set_option maxRecDepth 16384

noncomputable section

namespace Cert.KernelIdeal.Loose

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat RDat Cfg Window BodyObligation cellOf)

variable {F : FTy → Type} [FloatOps F]

local notation "𝕄" => MT nD τ sig Unit (Elt F) ℕ (UR sig nD τ) ℕ

/-- The body at any grid point, on any four whole buffers: it runs and hands the four back. -/
theorem matmul_run (c : Dev nD) (E : Set ℕ) (i : grid1.Coords)
    (arg3 : Memref sig .tc .vmem S2048x1024 .bf16) (harg3 : arg3.IsWhole)
    (arg4 : Memref sig .tc .vmem S1408x1024 .bf16) (harg4 : arg4.IsWhole)
    (arg5 : Memref sig .tc .vmem S2048x1408 .f32) (harg5 : arg5.IsWhole)
    (arg6 : Memref sig .tc .vmem S2048x1408 .f32) (harg6 : arg6.IsWhole) (K : PUnit → sProp 𝕄) :
    iprop(held4 c arg3 arg4 arg5 arg6 ∗ (held4 c arg3 arg4 arg5 arg6 -∗ K ⟨⟩))
      ⊢ wp frame (wpE (defs₀ (F := F)) Variants.none c none) E (cc1__matmul_kernel i arg3 harg3 arg4 harg4 arg5 harg5 arg6 harg6) K := by
  by_cases hc0 : condZero i <;> by_cases hc1 : condLast i
  · exact matmul_caseD c E i arg3 harg3 arg4 harg4 arg5 harg5 arg6 harg6 hc0 hc1 K
  · exact matmul_caseA c E i arg3 harg3 arg4 harg4 arg5 harg5 arg6 harg6 hc0 hc1 K
  · exact matmul_caseC c E i arg3 harg3 arg4 harg4 arg5 harg5 arg6 harg6 hc0 hc1 K
  · exact matmul_caseB c E i arg3 harg3 arg4 harg4 arg5 harg5 arg6 harg6 hc0 hc1 K

end Cert.KernelIdeal.Loose

end
-- ==== Proof.Exact.Region0.lean ====
/-
  The quantization region read as exact proof data, at the contents `V` the region is entered with.

  The weight array is cut into sixteen blocks of 688 whole rows. At grid point `t` the body loads block `t`
  of the weights, quantizes every row of it group by group, and stores the result over the whole output
  block; the pipeline writes that block back to rows 688·t … 688·t + 687 of the output array. Nothing is kept
  between points and no block overhangs, so what each staging buffer holds after the body is a function of the
  input block alone.
-/
import proofs.«108235_j15058155339886_2_alg».proof.Proof.Gen.KernelIdeal.Launch
import proofs.«108235_j15058155339886_2_alg».proof.Proof.Gen.KernelIdeal.Skeleton
import proofs.«108235_j15058155339886_2_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Exact

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation BodyObligationLoose cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-- Block `t` of window `w`'s array as the region finds it. -/
def qblk (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-- The weight window's staging buffer holds the weight block at every point: the window is fetched at every
    point, is never cut and never idle. -/
theorem qbefore_of {c : Dev nD} (dat : Dat τ (Elt F) Unit ℕ (UR sig nD τ) ℕ cfg0 c) (hA : dat.A 0 = V c (Pipeline.arrRef spec0 0))
    (hafter : ∀ t, dat.after 0 t = qblk V c 0 t) (t : Fin cfg0.N) (d) : dat.before 0 t d = qblk V c 0 t :=
  (dat.before_in_eq_fetched 0 rfl (fun _ => rfl) (fun _ _ _ => rfl) (fun t => by rw [hafter]; unfold Dat.blockOf qblk; rw [hA]; try rfl) t d).trans
    (by unfold Dat.fetched Dat.blockOf qblk; rw [hA]; try rfl)

/-- The whole 688 × 4096 block as a rectangle. -/
abbrev rq : Rect S688x4096 := Rect.unit (s := S688x4096) ![0, 0] S688x4096.size inb_S688x4096_S688x4096_0_0

/-- What the body leaves in the output block: its one store, of the quantized rows of the loaded block. -/
def qout (x0 : Vec F S688x4096 .f32) : Vec F S688x4096 .bf16 :=
  View.canon [⟨rq, k0_pay1 (View.ld x0 rq)⟩]

theorem qcover (p0 : Vec F S688x4096 .bf16) (y : S688x4096.Idx) :
    ∃ pc ∈ ([⟨rq, p0⟩] : List (View.Piece (Elt F) S688x4096 .bf16)), y ∈ pc.1.set :=
  View.cover_of_tiled [⟨rq, p0⟩] S688x4096.size (by rfl) y

set_option maxHeartbeats 1000000 in
/-- The body on whole staging buffers: the weights' buffer is read and left as it was, the output's ends at the
    quantized rows. -/
theorem sound_quant (c : Dev nD) (E : Set ℕ) (i : grid0.Coords) (arg1 : Memref sig .tc .vmem S688x4096 .f32) (harg1 : arg1.IsWhole)
    (arg2 : Memref sig .tc .vmem S688x4096 .bf16) (harg2 : arg2.IsWhole)
    (x0 : Vec F S688x4096 .f32) (K : PUnit → sProp 𝕄) :
    iprop(owns (c : Thread nD τ) arg1 fullShare x0 ∗ (∃ d, owns (c : Thread nD τ) arg2 fullShare d)
        ∗ (iprop(owns (c : Thread nD τ) arg1 fullShare x0 ∗ owns (c : Thread nD τ) arg2 fullShare (qout x0)) -∗ K ⟨⟩))
      ⊢ wp frame (wpE (defs₀ (F := F)) Variants.none c none) E (cc0__quant_kernel i arg1 harg1 arg2 harg2) K := by
  simp only [cc0__quant_kernel_eq_skeleton]; unfold cc0__quant_kernel_skel
  unfold owns
  iintro ⟨⟨%f0, %hf0, H0⟩, ⟨%d1, %f1, -, H1⟩, Hk⟩
  subst hf0
  sl_exec
  sl_step
  iapply Hk
  isplitl [H0]
  · iexists f0; isplitr; · ipureintro; rfl
    iexact H0
  iexists _; isplitr
  swap; · iexact H1
  ipureintro
  exact View.read_writes_eq_canon _ _ _ (qcover _)

/-- The proof data of the quantization region on core `c`. -/
def qdat (c : Dev nD) : Dat τ (Elt F) Unit ℕ (UR sig nD τ) ℕ cfg0 c where
  A w := V c (Pipeline.arrRef spec0 w)
  after w t := match w with
    | ⟨0, _⟩ => qblk V c 0 t
    | ⟨1, _⟩ => qout (qblk V c 0 t)
  Φ _ := Pipeline.ΦA spec0 c
  q _ := fullShare
  owed _ := 0

theorem qA_eq (c : Dev nD) (w : Fin cfg0.W) : (qdat V c).A w = V c (Pipeline.arrRef spec0 w) := by
  dsimp only [qdat]
theorem qafter_0 (c : Dev nD) (t : Fin cfg0.N) : (qdat V c).after 0 t = qblk V c 0 t := by dsimp only [qdat]
theorem qafter_1 (c : Dev nD) (t : Fin cfg0.N) : (qdat V c).after 1 t = qout (qblk V c 0 t) := by dsimp only [qdat]
theorem qbefore_0 (c : Dev nD) (t : Fin cfg0.N) (d) : (qdat V c).before 0 t d = qblk V c 0 t :=
  qbefore_of V (qdat V c) (qA_eq V c 0) (qafter_0 V c) t d

def qPre (c : Dev nD) (t : Fin cfg0.N) : sProp 𝕄 :=
  iprop((qdat V c).Φ t.castSucc ∗ (qdat V c).owesAt () t.castSucc
    ∗ (∃ d, owns (c : Thread nD τ) (st0_0 t) fullShare ((qdat V c).before 0 t d))
    ∗ (∃ d, owns (c : Thread nD τ) (st0_1 t) fullShare ((qdat V c).before 1 t d)))

def qPost (c : Dev nD) (t : Fin cfg0.N) : sProp 𝕄 :=
  iprop((qdat V c).Φ t.succ ∗ (qdat V c).owesAt () t.succ
    ∗ owns (c : Thread nD τ) (st0_0 t) fullShare ((qdat V c).after 0 t)
    ∗ owns (c : Thread nD τ) (st0_1 t) fullShare ((qdat V c).after 1 t))

theorem sound_qbody (c : Dev nD) (t : Fin cfg0.N) :
    qPre V c t ⊢ wp frame (wpE (defs₀ (F := F)) Variants.none c none) Set.univ (bodyAt0 t) (fun _ => qPost V c t) := by
  unfold qPre qPost bodyAt0
  simp only [qbefore_0]
  rw [show (qdat V c).Φ t.succ = (qdat V c).Φ t.castSucc from rfl,
    show (qdat V c).owesAt () t.succ = (qdat V c).owesAt () t.castSucc from rfl,
    qafter_0, qafter_1]
  iintro ⟨HΦ, Ho, ⟨%d0, H0⟩, ⟨%d1, H1⟩⟩
  iapply (sound_quant c Set.univ _ _ _ _ _ (qblk V c 0 t) _)
  isplitl [H0]; · iexact H0
  isplitl [H1]; · iexists _; iexact H1
  iintro ⟨H0, H1⟩
  isplitl [HΦ]; · iexact HΦ
  isplitl [Ho]; · iexact Ho
  isplitl [H0]; · iexact H0
  iexact H1

theorem qbody_obligation (c : Dev nD) : BodyObligation (qdat (F := F) V c) (defs₀ (F := F)) Variants.none () Set.univ := fun t => by
  rw [bigSep_W0, bigSep_W0]
  exact sound_qbody V c t

end Cert.KernelIdeal.Exact

end
-- ==== Proof.LooseIdeal.Data.lean ====
/-
  The program as four items run one after the other: the buffers' contents between the items, both regions'
  proof data, and what each core holds between two items.
-/
import proofs.«108235_j15058155339886_2_alg».proof.Proof.Gen.KernelIdeal.Launch
import proofs.«108235_j15058155339886_2_alg».proof.Proof.Gen.KernelIdeal.Skeleton
import proofs.«108235_j15058155339886_2_alg».proof.Proof.Gen.KernelIdeal.Points
import proofs.«108235_j15058155339886_2_alg».proof.Proof.Exact.Region0
import proofs.«108235_j15058155339886_2_alg».proof.Proof.Gen.KernelIdeal.Regions
import Idealize.ShloMosaic.Lib.Pipeline.Frame
import Idealize.ShloMosaic.Lib.Pipeline.FrameSuffix

set_option maxRecDepth 16384

noncomputable section

namespace Cert.KernelIdeal.Loose

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat RDat Cfg Window BodyObligation cellOf)

variable {F : FTy → Type} [FloatOps F]

local notation "𝕄" => MT nD τ sig Unit (Elt F) ℕ (UR sig nD τ) ℕ

variable (m : (ℓ : Loc nD τ sig) → Buf (Elt F) ℓ)

/-! ## The buffers' contents between the items of the program

The program is four items: the quantization region, a host stretch (a reshape and a rounding of the activations),
the matrix-product region, a host stretch (a reshape of the result). What the first three leave in every buffer
is a function of the launch memory and is named here; what the matrix-product region leaves in its output is
not named, so from there on the contents are "some valuation that still has both arguments as launched". -/

/-- Core `c`'s buffers at launch. -/
abbrev W0 (c : Dev nD) : Valuation τ sig (Elt F) := fun b => m (c, b)
/-- The same read at the core's own references: what the quantization region is entered with. -/
abbrev VR0 : (c : Dev nD) → (b : Ref sig .tc) → Buf (Elt F) ((c : Thread nD τ).loc b) := fun c b => W0 m c b

/-- After the quantization region: its two arrays at what its write-backs leave, every other buffer as launched. -/
def W1 (c : Dev nD) : Valuation τ sig (Elt F) :=
  Pipeline.withArrays spec0 c (W0 m c) fun w => (Exact.qdat (VR0 m) c).arrAt w cfg0.N
theorem W1_arr (c : Dev nD) (w : Fin cfg0.W) :
    W1 m c (Proc.devRef .tc (Pipeline.arrRef spec0 w)) = (Exact.qdat (VR0 m) c).arrAt w cfg0.N := by
  unfold W1; exact Pipeline.withArrays_arr spec0 launch0.win.arr_inj c _ _ w
theorem W1_of_ne (c : Dev nD) (b : Ref sig .tc) (hb : ∀ w, Pipeline.arrRef spec0 w ≠ b) :
    W1 m c (Proc.devRef .tc b) = W0 m c (Proc.devRef .tc b) := by
  unfold W1; exact Pipeline.withArrays_of_ne spec0 c _ _ b hb
abbrev VR1 : (c : Dev nD) → (b : Ref sig .tc) → Buf (Elt F) ((c : Thread nD τ).loc b) := fun c b => W1 m c b
theorem hF0 (c : Dev nD) (w : Fin cfg0.W) : (Exact.qdat (VR0 m) c).arrAt w cfg0.N = VR1 m c (Pipeline.arrRef spec0 w) :=
  (W1_arr m c w).symm
theorem hrest0 (c : Dev nD) : ∀ b, b ∉ Finset.univ.image (Pipeline.arrRef spec0) → VR1 m c b = VR0 m c b :=
  fun b hb => W1_of_ne m c b fun w e => hb (Finset.mem_image.mpr ⟨w, Finset.mem_univ _, e⟩)

/-- After the first host stretch: what the matrix-product region is entered with. -/
abbrev W2 (c : Dev nD) : Valuation τ sig (Elt F) := StableHlo.after hostOps1 (W1 m c)
abbrev VR2 : (c : Dev nD) → (b : Ref sig .tc) → Buf (Elt F) ((c : Thread nD τ).loc b) := fun c b => W2 m c b

/-- Neither the quantization region nor the first host stretch changes the activations' array … -/
theorem W2_main_arg0 (c : Dev nD) : W2 m c (Proc.devRef .tc main_arg0) = m ((c : Thread nD τ).loc main_arg0) :=
  calc W2 m c (Proc.devRef .tc main_arg0)
    _ = W1 m c (Proc.devRef .tc main_arg0) := StableHlo.after_of_writes_sub hostOps1 _ hostOps1_writes (by decide)
    _ = W0 m c (Proc.devRef .tc main_arg0) := W1_of_ne m c main_arg0 (by decide)
    _ = m ((c : Thread nD τ).loc main_arg0) := rfl
/-- … nor the weights': the region only reads them (an input window's array is never written back). -/
theorem W2_main_arg1 (c : Dev nD) : W2 m c (Proc.devRef .tc main_arg1) = m ((c : Thread nD τ).loc main_arg1) :=
  calc W2 m c (Proc.devRef .tc main_arg1)
    _ = W1 m c (Proc.devRef .tc main_arg1) := StableHlo.after_of_writes_sub hostOps1 _ hostOps1_writes (by decide)
    _ = W0 m c (Proc.devRef .tc main_arg1) := (W1_arr m c 0).trans (((Exact.qdat (VR0 m) c).arrAt_in 0 rfl _).trans (Exact.qA_eq (VR0 m) c 0))
    _ = m ((c : Thread nD τ).loc main_arg1) := rfl

/-! ## The proof data -/

/-- The matrix-product region's proof data on core `c`: its three arrays as the region finds them; of what the
    body leaves in any staging buffer nothing is said (every input block is fetched afresh at every point, and the
    frame does not read the output); the invariant is the kernel's scratch — which holds the accumulator — and
    the generator register, each at something; nothing owed; full shares. -/
def mdat (c : Dev nD) : RDat τ (Elt F) Unit ℕ (UR sig nD τ) ℕ cfg1 c where
  A w := VR2 m c (Pipeline.arrRef spec1 w)
  after _ _ _ _ := True
  Φ _ := Pipeline.ΦA spec1 c
  q _ := fullShare
  owed _ := 0

/-- No pipeline has a prefetched table. -/
abbrev adm : (p : Fin 2) → (pcfgs (F := F) p).Adm := fun p => (cfgs p).toPCfg_adm

/-- Both pipelines' proof data: the quantization region's exact data read relationally, then the above. -/
def rdats : (p : Fin 2) → (c : Dev nD) → RDat τ (Elt F) Unit ℕ (UR sig nD τ) ℕ (Pipeline.pin (pcfgs (F := F)) adm p) c
  | ⟨0, _⟩ => fun c => (Exact.qdat (VR0 m) c).toR
  | ⟨1, _⟩ => fun c => mdat m c

abbrev 𝒱₀ : Variants := Variants.none
abbrev L : GSem nD τ sig → Finset Unit := fun _ => ∅
abbrev lv : GSem nD τ sig → Unit → ℕ := fun _ _ => 0

/-! ## The thread states -/

/-- What rides beside the buffers through every item: the generator register at some state, nothing owed. -/
abbrev R (c : Dev nD) : sProp 𝕄 := iprop((∃ r, prngReg c r) ∗ ∃ W, owes (c : Thread nD τ) (0 : CellTallies nD τ sig Unit) W)

/-- A valuation that still has both argument arrays as launched. -/
def Keeps (c : Dev nD) (V : Valuation τ sig (Elt F)) : Prop :=
  V (Proc.devRef .tc main_arg0) = m ((c : Thread nD τ).loc main_arg0) ∧ V (Proc.devRef .tc main_arg1) = m ((c : Thread nD τ).loc main_arg1)

/-- The thread state from the matrix-product region's exit on, but for the `owes`: every unscoped buffer at some
    valuation that keeps the arguments, the generator register at some state. -/
def Tn (c : Dev nD) : sProp 𝕄 :=
  iprop(∃ V : Valuation τ sig (Elt F), ⌜Keeps m c V⌝ ∗ StableHlo.held (c : Thread nD τ) (Pipeline.ucRefs τ sig) V ∗ ∃ r, prngReg c r)

end Cert.KernelIdeal.Loose

end
-- ==== Proof.LooseIdeal.Body1.lean ====
/-
  The matrix-product region's body obligation over its relational proof data.
-/
import proofs.«108235_j15058155339886_2_alg».proof.Proof.Gen.KernelIdeal.Launch
import proofs.«108235_j15058155339886_2_alg».proof.Proof.Gen.KernelIdeal.Skeleton
import proofs.«108235_j15058155339886_2_alg».proof.Proof.Gen.KernelIdeal.Points
import proofs.«108235_j15058155339886_2_alg».proof.Proof.LooseIdeal.Matmul
import proofs.«108235_j15058155339886_2_alg».proof.Proof.LooseIdeal.Data

set_option maxRecDepth 16384

noncomputable section

namespace Cert.KernelIdeal.Loose

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat RDat Cfg Window BodyObligation cellOf)

variable {F : FTy → Type} [FloatOps F]

local notation "𝕄" => MT nD τ sig Unit (Elt F) ℕ (UR sig nD τ) ℕ

variable (m : (ℓ : Loc nD τ sig) → Buf (Elt F) ℓ)

/-- The region's invariant with the accumulator as a buffer the body can be handed: the four staging buffers of
    the other region, the accumulator, the generator register, each at something. -/
theorem PhiA1_eq (c : Dev nD) :
    (Pipeline.ΦA spec1 c : sProp 𝕄)
      = iprop(((∃ f : Buf (Elt F) ((c : Thread nD τ).loc cc0_stg0_0), ((c : Thread nD τ).loc cc0_stg0_0) ↦{fullShare} f)
          ∗ (∃ f : Buf (Elt F) ((c : Thread nD τ).loc cc0_stg0_1), ((c : Thread nD τ).loc cc0_stg0_1) ↦{fullShare} f)
          ∗ (∃ f : Buf (Elt F) ((c : Thread nD τ).loc cc0_stg1_0), ((c : Thread nD τ).loc cc0_stg1_0) ↦{fullShare} f)
          ∗ (∃ f : Buf (Elt F) ((c : Thread nD τ).loc cc0_stg1_1), ((c : Thread nD τ).loc cc0_stg1_1) ↦{fullShare} f)
          ∗ (∃ d, owns (c : Thread nD τ) (Memref.whole cc1_scratch0 : Memref sig .tc .vmem S2048x1408 .f32) fullShare d))
        ∗ ∃ r, prngReg c r) := by
  unfold Pipeline.ΦA; rw [scopedRest1_eq]; simp only [owns_whole]; try rfl

/-- What the body is called with at point `t`: the invariant, the core's `owes`, each window's current staging
    buffer at the contents `Y` it may hold, -/
def mPre (c : Dev nD) (t : Fin cfg1.N) (Y : (w : Fin cfg1.W) → (cfg1.win w).block.Idx → Elt F (cfg1.win w).elt) : sProp 𝕄 :=
  iprop((mdat m c).Φ t.castSucc ∗ (mdat m c).owesAt () t.castSucc
    ∗ owns (c : Thread nD τ) (st1_0 t) fullShare (Y 0)
    ∗ owns (c : Thread nD τ) (st1_1 t) fullShare (Y 1)
    ∗ owns (c : Thread nD τ) (st1_2 t) fullShare (Y 2))

/-- and what it returns: the same, each staging buffer at some contents. -/
def mPost (c : Dev nD) (t : Fin cfg1.N) (Y : (w : Fin cfg1.W) → (cfg1.win w).block.Idx → Elt F (cfg1.win w).elt) : sProp 𝕄 :=
  iprop((mdat m c).Φ t.succ ∗ (mdat m c).owesAt () t.succ
    ∗ (∃ X, ⌜(mdat m c).after 0 t (Y 0) X⌝ ∗ owns (c : Thread nD τ) (st1_0 t) fullShare X)
    ∗ (∃ X, ⌜(mdat m c).after 1 t (Y 1) X⌝ ∗ owns (c : Thread nD τ) (st1_1 t) fullShare X)
    ∗ (∃ X, ⌜(mdat m c).after 2 t (Y 2) X⌝ ∗ owns (c : Thread nD τ) (st1_2 t) fullShare X))

/-- The body at any point: the accumulator is taken out of the invariant, the body runs on the three staging
    buffers and the accumulator, and the accumulator goes back in; the core's `owes` passes through unread. -/
theorem sound_mbody (c : Dev nD) (t : Fin cfg1.N) (Y : (w : Fin cfg1.W) → (cfg1.win w).block.Idx → Elt F (cfg1.win w).elt) :
    mPre m c t Y ⊢ wp frame (wpE (defs₀ (F := F)) Variants.none c none) Set.univ (bodyAt1 t) (fun _ => mPost m c t Y) := by
  unfold mPre mPost bodyAt1
  rw [show (mdat m c).Φ t.succ = Pipeline.ΦA spec1 c from rfl, show (mdat m c).Φ t.castSucc = Pipeline.ΦA spec1 c from rfl,
    show (mdat m c).owesAt () t.succ = (mdat m c).owesAt () t.castSucc from rfl, PhiA1_eq]
  iintro ⟨⟨⟨Ha, Hb, Hc, Hd, Hs⟩, Hp⟩, Ho, H0, H1, H2⟩
  iapply (matmul_run c Set.univ _ _ _ _ _ _ _ _ _ _)
  unfold held4
  isplitl [H0 H1 H2 Hs]
  · isplitl [H0]; · iexists _; iexact H0
    isplitl [H1]; · iexists _; iexact H1
    isplitl [H2]; · iexists _; iexact H2
    iexact Hs
  iintro ⟨⟨%d0, H0⟩, ⟨%d1, H1⟩, ⟨%d2, H2⟩, Hs⟩
  isplitl [Ha Hb Hc Hd Hs Hp]
  · isplitl [Ha Hb Hc Hd Hs]
    · isplitl [Ha]; · iexact Ha
      isplitl [Hb]; · iexact Hb
      isplitl [Hc]; · iexact Hc
      isplitl [Hd]; · iexact Hd
      iexact Hs
    iexact Hp
  isplitl [Ho]; · iexact Ho
  isplitl [H0]
  · iexists d0; isplitr; · ipureintro; trivial
    iexact H0
  isplitl [H1]
  · iexists d1; isplitr; · ipureintro; trivial
    iexact H1
  · iexists d2; isplitr; · ipureintro; trivial
    iexact H2

/-- The body obligation of the relational data, at every point: nothing of what the buffers may hold is used. -/
theorem mbody_obligation (c : Dev nD) : (mdat (F := F) m c).BodyObligation (defs₀ (F := F)) Variants.none () Set.univ := fun t Y _ => by
  rw [bigSep_W1, bigSep_W1]
  exact sound_mbody m c t Y

end Cert.KernelIdeal.Loose

end
-- ==== Proof.LooseIdeal.Segs.lean ====
/-
  The program's two regions and two host stretches as segments: what each is entered from, what it leaves, and
  why it gets from the one to the other.
-/
import proofs.«108235_j15058155339886_2_alg».proof.Proof.Gen.KernelIdeal.Launch
import proofs.«108235_j15058155339886_2_alg».proof.Proof.Gen.KernelIdeal.Skeleton
import proofs.«108235_j15058155339886_2_alg».proof.Proof.Gen.KernelIdeal.Points
import proofs.«108235_j15058155339886_2_alg».proof.Proof.LooseIdeal.Body1
import Idealize.ShloMosaic.Lib.Pipeline.RegionsLoop

set_option maxRecDepth 16384

noncomputable section

namespace Cert.KernelIdeal.Loose

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat RDat Cfg Window BodyObligation cellOf)

variable {F : FTy → Type} [FloatOps F]

local notation "𝕄" => MT nD τ sig Unit (Elt F) ℕ (UR sig nD τ) ℕ

variable (m : (ℓ : Loc nD τ sig) → Buf (Elt F) ℓ)

/-! ## A region's arrays back among the core's unscoped buffers -/

set_option backward.isDefEq.respectTransparency.types false in
/-- Pipeline `p`'s arrays at contents `G` and the unscoped rest at `V` are the core's unscoped buffers at any
    valuation `V'` that has the arrays at `G` and agrees with `V` off them. -/
theorem join_arrays {p : Fin 2} (c : Dev nD) (hw : Pipeline.WinFacts (Pipeline.pin (pcfgs (F := F)) adm p).spec)
    (harr : ∀ w, ((Pipeline.pin (pcfgs (F := F)) adm p).spec w).arr.IsWhole)
    (hshare : ∀ w, (rdats m p c).share w = fullShare)
    (V V' : (b : Ref sig .tc) → Buf (Elt F) ((c : Thread nD τ).loc b))
    (G : (w : Fin (Pipeline.pin (pcfgs (F := F)) adm p).W) → Buf (Elt F) (((Pipeline.pin (pcfgs (F := F)) adm p).spec w).arr.view.loc (c : Thread nD τ)))
    (hG : ∀ w, G w = V' (Pipeline.arrRef (Pipeline.pin (pcfgs (F := F)) adm p).spec w))
    (hrest : ∀ b, b ∉ Finset.univ.image (Pipeline.arrRef (Pipeline.pin (pcfgs (F := F)) adm p).spec) → V' b = V b) :
    iprop((rdats m p c).arrays G ∗ Pipeline.unscopedRest (Pipeline.pin (pcfgs (F := F)) adm p).spec c V) ⊢ (unscopedBufs c V' : sProp 𝕄) := by
  rw [Pipeline.unscopedBufs_split (Pipeline.pin (pcfgs (F := F)) adm) p hw.arr_unscoped hw.arr_inj c V',
    Pipeline.RDat.arrays_eq (pcfgs (F := F)) adm (rdats m) p c harr hshare]
  refine sep_mono (Entails.of_eq (bigSep_congr fun w _ => by rw [hG])) (Entails.of_eq ?_)
  unfold Pipeline.unscopedRest
  exact bigSep_congr fun b hb => by rw [hrest b (Finset.mem_sdiff.mp hb).2]

/-! ## The regions as segments -/

set_option backward.isDefEq.respectTransparency.types false in
/-- The quantization region: entered from every unscoped buffer at the launch contents, left with its output array
    at what its write-backs leave. Its arrays are split out of the unscoped buffers and put back at the exit
    contents; the generator register goes into the invariant and comes out; nothing owed; no semaphore of the
    kernel's own. -/
def reg0 : Pipeline.RDat.RegionSeg (pcfgs (F := F)) adm (rdats m) () defs₀ 𝒱₀ L lv 0 where
  win := launch0.win.to₀
  block_pos := launch0.block_pos
  stage_whole := launch0.stage_whole
  K := PEmpty
  osem k := k.elim
  ho := Pipeline.OwnSemFacts.none _
  hbody c := (Exact.qbody_obligation (VR0 m) c).toR
  hwaits := Pipeline.RDat.hwaits_of_owed_zero _ _ _ _ L lv 0 fun _ _ => rfl
  pre c := iprop(StableHlo.held (c : Thread nD τ) (Pipeline.ucRefs τ sig) (W0 m c) ∗ R c)
  post c := iprop(StableHlo.held (c : Thread nD τ) (Pipeline.ucRefs τ sig) (W1 m c) ∗ R c)
  X c := iprop(∃ r, prngReg c r)
  Y c := iprop(∃ r, prngReg c r)
  Z c := Pipeline.unscopedRest (Ix := Unit) (Name := ℕ) (U := UR sig nD τ) (Lvl := ℕ) spec0 c (VR0 m c)
  hentry c := by
    rw [Pipeline.ownSems0_none]
    have hsplit := Pipeline.RDat.arrays_of_unscopedBufs (p := 0) (pcfgs (F := F)) adm (rdats m) launch0.win launch0.arr_whole c
      ((rdats m 0 c).share_full fun _ => rfl) (VR0 m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.RDat.owesAt Pipeline.owesWithin
      icases HO with ⟨%W, HO⟩; iexists W; isplitr; · ipureintro; exact fun _ _ => Or.inl trivial
      iexact HO
    isplitl [Hp]; · iexact Hp
    iexact Hrest
  hin c := by
    rw [show (rdats m 0 c).Φ 0 = Pipeline.ΦA spec0 c from rfl]; unfold Pipeline.ΦA
    iintro ⟨Hp, -, Hr⟩
    isplitl [Hr]; · iexact Hr
    iexact Hp
  hout c := by
    rw [Pipeline.ownSems0_none, show (rdats m 0 c).Φ (Fin.last _) = Pipeline.ΦA spec0 c from rfl]; unfold Pipeline.ΦA
    iintro ⟨Hr, Hp⟩
    isplitl [Hp]; · iexact Hp
    isplitr; · iempintro
    iexact Hr
  hexit c := by
    -- each array holds what the exact data names: the only contents its write-backs allow
    have hw : ∀ w : Fin cfg0.W,
        (iprop(∃ G, ⌜(rdats m 0 c).ArrAt w cfg0.N G⌝ ∗ (cfg0.win w).arr.view.loc (c : Thread nD τ) ↦[(cfg0.win w).arr.view.set]{(rdats m 0 c).share w} G) : sProp 𝕄)
          ⊢ ((cfg0.win w).arr.view.loc (c : Thread nD τ) ↦[(cfg0.win w).arr.view.set]{(rdats m 0 c).share w} (Exact.qdat (VR0 m) c).arrAt w cfg0.N) := fun w => by
      iintro ⟨%G, %hG, H⟩
      obtain rfl : G = (Exact.qdat (VR0 m) c).arrAt w cfg0.N := (Exact.qdat (VR0 m) c).toR_arrAt w cfg0.N G hG
      iexact H
    have hnamed : ((rdats m 0 c).arraysAt cfg0.N : sProp 𝕄) ⊢ (rdats m 0 c).arrays ((Exact.qdat (VR0 m) c).arrAt · cfg0.N) := by
      unfold RDat.arraysAt RDat.arrays
      exact bigSep_mono fun w _ => hw w
    have hjoin := join_arrays m (p := 0) c launch0.win launch0.arr_whole ((rdats m 0 c).share_full fun _ => rfl)
      (VR0 m c) (VR1 m c) ((Exact.qdat (VR0 m) c).arrAt · cfg0.N) (hF0 m c) (hrest0 m c)
    rw [Pipeline.unscopedBufs_held] at hjoin
    iintro ⟨Ha, HO, HY, Hrest⟩
    ihave Ha := hnamed $$ Ha
    imodintro
    isplitl [Ha Hrest]
    · iapply hjoin; isplitl [Ha] <;> iassumption
    isplitl [HY]; · iexact HY
    unfold Pipeline.RDat.owesAt Pipeline.owesWithin
    icases HO with ⟨%W, -, HO⟩; iexists W; iexact HO

set_option backward.isDefEq.respectTransparency.types false in
/-- The matrix-product region: entered from every unscoped buffer at the contents the first host stretch leaves,
    left with its output array at contents nothing names — so with every unscoped buffer at some valuation, which
    still has both arguments as launched because neither is an array of this region. -/
def reg1 : Pipeline.RDat.RegionSeg (pcfgs (F := F)) adm (rdats m) () defs₀ 𝒱₀ L lv 1 where
  win := launch1.win.to₀
  block_pos := launch1.block_pos
  stage_whole := launch1.stage_whole
  K := PEmpty
  osem k := k.elim
  ho := Pipeline.OwnSemFacts.none _
  hbody c := mbody_obligation m c
  hwaits := Pipeline.RDat.hwaits_of_owed_zero _ _ _ _ L lv 1 fun _ _ => rfl
  pre c := iprop(StableHlo.held (c : Thread nD τ) (Pipeline.ucRefs τ sig) (W2 m c) ∗ R c)
  post c := iprop(Tn m c ∗ ∃ W, owes (c : Thread nD τ) (0 : CellTallies nD τ sig Unit) W)
  X c := iprop(∃ r, prngReg c r)
  Y c := iprop(∃ r, prngReg c r)
  Z c := Pipeline.unscopedRest (Ix := Unit) (Name := ℕ) (U := UR sig nD τ) (Lvl := ℕ) spec1 c (VR2 m c)
  hentry c := by
    rw [Pipeline.ownSems0_none]
    have hsplit := Pipeline.RDat.arrays_of_unscopedBufs (p := 1) (pcfgs (F := F)) adm (rdats m) launch1.win launch1.arr_whole c
      ((rdats m 1 c).share_full fun _ => rfl) (VR2 m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.RDat.owesAt Pipeline.owesWithin
      icases HO with ⟨%W, HO⟩; iexists W; isplitr; · ipureintro; exact fun _ _ => Or.inl trivial
      iexact HO
    isplitl [Hp]; · iexact Hp
    iexact Hrest
  hin c := by
    rw [show (rdats m 1 c).Φ 0 = Pipeline.ΦA spec1 c from rfl]; unfold Pipeline.ΦA
    iintro ⟨Hp, -, Hr⟩
    isplitl [Hr]; · iexact Hr
    iexact Hp
  hout c := by
    rw [Pipeline.ownSems0_none, show (rdats m 1 c).Φ (Fin.last _) = Pipeline.ΦA spec1 c from rfl]; unfold Pipeline.ΦA
    iintro ⟨Hr, Hp⟩
    isplitl [Hp]; · iexact Hp
    isplitr; · iempintro
    iexact Hr
  hexit c := by
    -- the three arrays' contents, each some buffer's worth, gathered into one family
    haveI : ∀ w : Fin cfg1.W, Nonempty (Buf (Elt F) ((cfg1.win w).arr.view.loc (c : Thread nD τ))) := fun w => ⟨(rdats m 1 c).A w⟩
    have hw : ∀ (G : (w : Fin cfg1.W) → Buf (Elt F) ((cfg1.win w).arr.view.loc (c : Thread nD τ))) (w : Fin cfg1.W),
        (iprop(⌜(rdats m 1 c).ArrAt w cfg1.N (G w)⌝ ∗ (cfg1.win w).arr.view.loc (c : Thread nD τ) ↦[(cfg1.win w).arr.view.set]{(rdats m 1 c).share w} G w) : sProp 𝕄)
          ⊢ ((cfg1.win w).arr.view.loc (c : Thread nD τ) ↦[(cfg1.win w).arr.view.set]{(rdats m 1 c).share w} G w) := fun G w => by
      iintro ⟨-, H⟩; iexact H
    have hgather : ((rdats m 1 c).arraysAt cfg1.N : sProp 𝕄) ⊢ iprop(∃ G, (rdats m 1 c).arrays G) := by
      unfold RDat.arraysAt RDat.arrays
      exact (BI.bigSep_exists_pi Finset.univ _).trans (exists_mono fun G => bigSep_mono fun w _ => hw G w)
    iintro ⟨Ha, HO, HY, Hrest⟩
    ihave Ha := hgather $$ Ha
    icases Ha with ⟨%G, Ha⟩
    have hjoin := join_arrays m (p := 1) c launch1.win launch1.arr_whole ((rdats m 1 c).share_full fun _ => rfl)
      (VR2 m c) (fun b => Pipeline.withArrays spec1 c (W2 m c) G b) G
      (fun w => (Pipeline.withArrays_arr spec1 launch1.win.arr_inj c _ G w).symm)
      (fun b hb => Pipeline.withArrays_of_ne spec1 c _ G b fun w e => hb (Finset.mem_image.mpr ⟨w, Finset.mem_univ _, e⟩))
    rw [Pipeline.unscopedBufs_held] at hjoin
    imodintro
    isplitr [HO]
    · unfold Tn
      iexists Pipeline.withArrays spec1 c (W2 m c) G
      isplitr
      · ipureintro
        exact ⟨(Pipeline.withArrays_of_ne spec1 c _ G main_arg0 (by decide)).trans (W2_main_arg0 m c),
          (Pipeline.withArrays_of_ne spec1 c _ G main_arg1 (by decide)).trans (W2_main_arg1 m c)⟩
      isplitl [Ha Hrest]
      · iapply hjoin; isplitl [Ha] <;> iassumption
      iexact HY
    unfold Pipeline.RDat.owesAt Pipeline.owesWithin
    icases HO with ⟨%W, -, HO⟩; iexists W; iexact HO

/-! ## The host stretches as segments -/

/-- The first host stretch, from the named contents the quantization region leaves. -/
abbrev hseg1 : Pipeline.HostSeg (Name := ℕ) (U := UR sig nD τ) (pcfgs (F := F)) defs₀ 𝒱₀ L lv :=
  Pipeline.HostSeg.ofOps _ _ _ _ _ (Pipeline.ucRefs τ sig) hostOps1
    (fun op h => Pipeline.sub_ucRefs op ((List.forall_iff_forall_mem.mp hostOps1_sub) op h))
    (fun op h => (List.forall_iff_forall_mem.mp hostOps1_fresh) op h) (W1 m) R

set_option backward.isDefEq.respectTransparency.types false in
/-- The last host stretch, from some valuation that keeps the arguments to another: its one operation writes
    neither argument. -/
def hseg3 : Pipeline.HostSeg (Name := ℕ) (U := UR sig nD τ) (pcfgs (F := F)) defs₀ 𝒱₀ L lv where
  prog := StableHlo.seq hostOps2
  pre c := iprop(Tn m c ∗ ∃ W, owes (c : Thread nD τ) (0 : CellTallies nD τ sig Unit) W)
  post c := iprop(Tn m c ∗ ∃ W, owes (c : Thread nD τ) (0 : CellTallies nD τ sig Unit) W)
  run c {β} k K := by
    unfold Tn
    iintro ⟨Hk, Hbd, ⟨⟨%V, %hV, Hh, Hp⟩, HO⟩, -⟩
    have hseq := StableHlo.wp_seq (defs := Pipeline.defs (pcfgs (F := F)) defs₀) (Variants.lift 𝒱₀) none Set.univ c (Pipeline.ucRefs τ sig) k (K := K) hostOps2
      (fun op h => Pipeline.sub_ucRefs op ((List.forall_iff_forall_mem.mp hostOps2_sub) op h))
      (fun op h => (List.forall_iff_forall_mem.mp hostOps2_fresh) op h) V
    iapply hseq $$ [Hbd Hh]
    · isplitl [Hbd] <;> iassumption
    iintro ⟨Hbd, Hh⟩
    iapply Hk
    isplitl [Hbd]; · iexact Hbd
    isplitr [HO]
    · iexists StableHlo.after hostOps2 V
      isplitr
      · ipureintro
        exact ⟨(StableHlo.after_of_writes_sub hostOps2 V hostOps2_writes (by decide)).trans hV.1,
          (StableHlo.after_of_writes_sub hostOps2 V hostOps2_writes (by decide)).trans hV.2⟩
      isplitl [Hh] <;> iassumption
    iexact HO

/-- The program's four items in order. -/
abbrev segs : List (Pipeline.RDat.Seg (pcfgs (F := F)) adm (rdats m) () defs₀ 𝒱₀ L lv) :=
  [ .region (reg0 m), .host (hseg1 m), .region (reg1 m), .host (hseg3 m) ]

end Cert.KernelIdeal.Loose

end
-- ==== Proof.LooseIdeal.Frame.lean ====
/-
  The frame of the program: it terminates from any memory and leaves both argument arrays as launched.
-/
import proofs.«108235_j15058155339886_2_alg».proof.Proof.Gen.KernelIdeal.Launch
import proofs.«108235_j15058155339886_2_alg».proof.Proof.Gen.KernelIdeal.Skeleton
import proofs.«108235_j15058155339886_2_alg».proof.Proof.Gen.KernelIdeal.Points
import proofs.«108235_j15058155339886_2_alg».proof.Proof.LooseIdeal.Segs

set_option maxRecDepth 16384

noncomputable section

namespace Cert.KernelIdeal.Loose

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat RDat Cfg Window BodyObligation cellOf)

variable {F : FTy → Type} [FloatOps F]

local notation "𝕄" => MT nD τ sig Unit (Elt F) ℕ (UR sig nD τ) ℕ

set_option backward.isDefEq.respectTransparency.types false in
/-- The frame, at any `F`: from any memory with zero counters, every weakly fair execution of the program
    terminates, nothing faulting, and every final memory has both argument arrays as launched. The four items are
    composed one after the other from the launch; the last thread state — every unscoped buffer at some valuation
    that keeps the arguments — is read against the final state. -/
theorem frame (m : (ℓ : Loc nD τ sig) → Buf (Elt F) ℓ) (ρ : Dev nD → PrngReg) :
    θ_run (defs (F := F)) (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)) :=
  Pipeline.RDat.θ_run_regions_kit (pcfgs (F := F)) adm (rdats m) () cellOf_inj emb₁ defs₀ 𝒱₀ L lv m ρ main (segs m)
    (fun c Q => by
      rewrite [main_chain c, Pipeline.RDat.Seg.run_eq_chain,
        show (segs m).map Pipeline.RDat.Seg.prog = [
          Prog.lift (.customCall (Pipeline.entry 0) ()),
          StableHlo.seq hostOps1,
          Prog.lift (.customCall (Pipeline.entry 1) ()),
          StableHlo.seq hostOps2 ] from rfl]
      exact .rfl)
    (by simp only [segs, Pipeline.RDat.Seg.pipes_host, Pipeline.RDat.Seg.pipes_region, Pipeline.RDat.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m c) ∗ R c)) (Tₙ := Tn m)
    (hch := ⟨fun _ => .rfl, fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m c)
        from Pipeline.unscopedBufs_held c (W0 m c)]
      iintro ⟨⟨Hh, -, HO, -, Hp, -⟩, -⟩
      imodintro
      isplitl [Hh]; · iexact Hh
      isplitl [Hp]; · iexists _; iexact Hp
      iexists ∅; iexact HO)
    (QY := fun c s => s.mem ((c.tc : Thread nD τ).loc main_arg0) = m ((c.tc : Thread nD τ).loc main_arg0)
      ∧ s.mem ((c.tc : Thread nD τ).loc main_arg1) = m ((c.tc : Thread nD τ).loc main_arg1))
    (hfin := fun c s' => by
      unfold Tn StableHlo.held
      iintro ⟨⟨%V, %hV, Hh, -⟩, HSI⟩
      ihave Hr := (pointsTo_read_all (Pipeline.ucRefs τ sig) (fun b => ((c : Thread nD τ).1, b)) V s') $$ [Hh HSI]
      · isplitl [Hh] <;> iassumption
      icases Hr with ⟨%h, HSI⟩
      imodintro
      isplitr
      · ipureintro
        exact ⟨(h (Proc.devRef .tc main_arg0) (Finset.mem_filter.mpr ⟨StableHlo.devRef_mem_tcRefs main_arg0, by decide⟩)).trans hV.1,
          (h (Proc.devRef .tc main_arg1) (Finset.mem_filter.mpr ⟨StableHlo.devRef_mem_tcRefs main_arg1, by decide⟩)).trans hV.2⟩
      · iexact HSI)
    (hQ := fun _ h => h)

end Cert.KernelIdeal.Loose

end
-- ==== Proof.Exact.MatmulBody.lean ====
/-
  The body of the contraction region as three triples, one per control case of a grid point `(i, j, k)`.

  At every point the body adds the product of the activation block and the transposed weight block into the
  accumulator. At `k = 0` the accumulator is zeroed first; at `k = 3` it is afterwards copied over the output
  block. Every access is of a whole buffer, so what a buffer holds after the body is the stored value itself.
-/
import proofs.«108235_j15058155339886_2_alg».proof.Proof.Gen.KernelIdeal.Launch
import proofs.«108235_j15058155339886_2_alg».proof.Proof.Gen.KernelIdeal.Skeleton
import proofs.«108235_j15058155339886_2_alg».proof.Proof.Gen.KernelIdeal.Points
import Idealize.ShloMosaic.Lib.Pipeline.FrameBody
import Idealize.ShloMosaic.Lib.Pipeline.Value
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Exact

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation BodyObligationLoose cellOf)

set_option maxHeartbeats 2000000 in
/-- The body where the accumulator is zeroed first and the output block is left alone. -/
theorem sound_first {F : FTy → Type} [FloatOps F] (c : Dev nD) (E : Set ℕ) (i : grid1.Coords)
    (h0 : Scalar.cmpi .ne (Scalar.extui (Scalar.cmpi .eq (BitVec.ofNat 32 (i 2).val) 0#32)) 0#32 = 1#1)
    (h3 : ¬ (k1_cond2 i = 1#1))
    (arg3 : Memref sig .tc .vmem S2048x1024 .bf16) (harg3 : arg3.IsWhole)
    (arg4 : Memref sig .tc .vmem S1408x1024 .bf16) (harg4 : arg4.IsWhole)
    (arg5 : Memref sig .tc .vmem S2048x1408 .f32) (harg5 : arg5.IsWhole)
    (arg6 : Memref sig .tc .vmem S2048x1408 .f32) (harg6 : arg6.IsWhole)
    (x0 : Vec F S2048x1024 .bf16) (x1 : Vec F S1408x1024 .bf16) (o a : Vec F S2048x1408 .f32)
    (K : PUnit → sProp (MT nD τ sig Unit (Elt F) ℕ (UR sig nD τ) ℕ)) :
    iprop(owns (c : Thread nD τ) arg3 fullShare x0 ∗ owns (c : Thread nD τ) arg4 fullShare x1
        ∗ owns (c : Thread nD τ) arg5 fullShare o ∗ owns (c : Thread nD τ) arg6 fullShare a
        ∗ (iprop(owns (c : Thread nD τ) arg3 fullShare x0 ∗ owns (c : Thread nD τ) arg4 fullShare x1
            ∗ owns (c : Thread nD τ) arg5 fullShare (o) ∗ owns (c : Thread nD τ) arg6 fullShare (k1_pay2 k1_pay1 x0 x1)) -∗ K ⟨⟩))
      ⊢ wp frame (wpE (defs₀ (F := F)) Variants.none c none) E (cc1__matmul_kernel i arg3 harg3 arg4 harg4 arg5 harg5 arg6 harg6) K := by
  have hz : (![0, 0] : Fin 2 → Nat) = fun _ => 0 := funext fun a => by fin_cases a <;> rfl
  simp only [cc1__matmul_kernel_eq_skeleton]; unfold cc1__matmul_kernel_skel
  unfold owns
  iintro ⟨⟨%f3, %hf3, H3⟩, ⟨%f4, %hf4, H4⟩, ⟨%f5, %hf5, H5⟩, ⟨%f6, %hf6, H6⟩, Hk⟩
  subst hf3 hf4 hf5 hf6
  sl_exec
  sl_step
  iapply Hk
  isplitl [H3]
  · iexists f3; isplitr; · ipureintro; rfl
    iexact H3
  isplitl [H4]
  · iexists f4; isplitr; · ipureintro; rfl
    iexact H4
  isplitl [H5]
  · iexists f5; isplitr; · ipureintro; rfl
    iexact H5
  iexists _; isplitr
  swap; · iexact H6
  ipureintro
  sl_unfold_run_names
  rw [View.read_writes_eq_canon _ _ _ (fun y => ⟨_, List.mem_cons_self .., View.mem_set_unit_zero hz inb_S2048x1408_S2048x1408_0_0 y⟩), View.canon_cons_unit_zero hz, View.readCov_unit_zero _ hz]
  simp only [View.readAt_eq_ld, View.ld_unit_zero (S := S2048x1408) hz, View.ld_unit_zero (S := S2048x1024) hz, View.ld_unit_zero (S := S1408x1024) hz]

set_option maxHeartbeats 2000000 in
/-- The body where the accumulator is only added into. -/
theorem sound_mid {F : FTy → Type} [FloatOps F] (c : Dev nD) (E : Set ℕ) (i : grid1.Coords)
    (h0 : ¬ (Scalar.cmpi .ne (Scalar.extui (Scalar.cmpi .eq (BitVec.ofNat 32 (i 2).val) 0#32)) 0#32 = 1#1))
    (h3 : ¬ (k1_cond2 i = 1#1))
    (arg3 : Memref sig .tc .vmem S2048x1024 .bf16) (harg3 : arg3.IsWhole)
    (arg4 : Memref sig .tc .vmem S1408x1024 .bf16) (harg4 : arg4.IsWhole)
    (arg5 : Memref sig .tc .vmem S2048x1408 .f32) (harg5 : arg5.IsWhole)
    (arg6 : Memref sig .tc .vmem S2048x1408 .f32) (harg6 : arg6.IsWhole)
    (x0 : Vec F S2048x1024 .bf16) (x1 : Vec F S1408x1024 .bf16) (o a : Vec F S2048x1408 .f32)
    (K : PUnit → sProp (MT nD τ sig Unit (Elt F) ℕ (UR sig nD τ) ℕ)) :
    iprop(owns (c : Thread nD τ) arg3 fullShare x0 ∗ owns (c : Thread nD τ) arg4 fullShare x1
        ∗ owns (c : Thread nD τ) arg5 fullShare o ∗ owns (c : Thread nD τ) arg6 fullShare a
        ∗ (iprop(owns (c : Thread nD τ) arg3 fullShare x0 ∗ owns (c : Thread nD τ) arg4 fullShare x1
            ∗ owns (c : Thread nD τ) arg5 fullShare (o) ∗ owns (c : Thread nD τ) arg6 fullShare (k1_pay2 a x0 x1)) -∗ K ⟨⟩))
      ⊢ wp frame (wpE (defs₀ (F := F)) Variants.none c none) E (cc1__matmul_kernel i arg3 harg3 arg4 harg4 arg5 harg5 arg6 harg6) K := by
  have hz : (![0, 0] : Fin 2 → Nat) = fun _ => 0 := funext fun a => by fin_cases a <;> rfl
  simp only [cc1__matmul_kernel_eq_skeleton]; unfold cc1__matmul_kernel_skel
  unfold owns
  iintro ⟨⟨%f3, %hf3, H3⟩, ⟨%f4, %hf4, H4⟩, ⟨%f5, %hf5, H5⟩, ⟨%f6, %hf6, H6⟩, Hk⟩
  subst hf3 hf4 hf5 hf6
  sl_exec
  sl_step
  iapply Hk
  isplitl [H3]
  · iexists f3; isplitr; · ipureintro; rfl
    iexact H3
  isplitl [H4]
  · iexists f4; isplitr; · ipureintro; rfl
    iexact H4
  isplitl [H5]
  · iexists f5; isplitr; · ipureintro; rfl
    iexact H5
  iexists _; isplitr
  swap; · iexact H6
  ipureintro
  rw [View.read_writes_eq_canon _ _ _ (fun y => ⟨_, List.mem_cons_self .., View.mem_set_unit_zero hz inb_S2048x1408_S2048x1408_0_0 y⟩), View.canon_cons_unit_zero hz]
  simp only [View.readAt_eq_ld, View.ld_unit_zero (S := S2048x1408) hz, View.ld_unit_zero (S := S2048x1024) hz, View.ld_unit_zero (S := S1408x1024) hz]

set_option maxHeartbeats 2000000 in
/-- The body where the accumulator is added into and then copied over the output block. -/
theorem sound_last {F : FTy → Type} [FloatOps F] (c : Dev nD) (E : Set ℕ) (i : grid1.Coords)
    (h0 : ¬ (Scalar.cmpi .ne (Scalar.extui (Scalar.cmpi .eq (BitVec.ofNat 32 (i 2).val) 0#32)) 0#32 = 1#1))
    (h3 : k1_cond2 i = 1#1)
    (arg3 : Memref sig .tc .vmem S2048x1024 .bf16) (harg3 : arg3.IsWhole)
    (arg4 : Memref sig .tc .vmem S1408x1024 .bf16) (harg4 : arg4.IsWhole)
    (arg5 : Memref sig .tc .vmem S2048x1408 .f32) (harg5 : arg5.IsWhole)
    (arg6 : Memref sig .tc .vmem S2048x1408 .f32) (harg6 : arg6.IsWhole)
    (x0 : Vec F S2048x1024 .bf16) (x1 : Vec F S1408x1024 .bf16) (o a : Vec F S2048x1408 .f32)
    (K : PUnit → sProp (MT nD τ sig Unit (Elt F) ℕ (UR sig nD τ) ℕ)) :
    iprop(owns (c : Thread nD τ) arg3 fullShare x0 ∗ owns (c : Thread nD τ) arg4 fullShare x1
        ∗ owns (c : Thread nD τ) arg5 fullShare o ∗ owns (c : Thread nD τ) arg6 fullShare a
        ∗ (iprop(owns (c : Thread nD τ) arg3 fullShare x0 ∗ owns (c : Thread nD τ) arg4 fullShare x1
            ∗ owns (c : Thread nD τ) arg5 fullShare (k1_pay2 a x0 x1) ∗ owns (c : Thread nD τ) arg6 fullShare (k1_pay2 a x0 x1)) -∗ K ⟨⟩))
      ⊢ wp frame (wpE (defs₀ (F := F)) Variants.none c none) E (cc1__matmul_kernel i arg3 harg3 arg4 harg4 arg5 harg5 arg6 harg6) K := by
  have hz : (![0, 0] : Fin 2 → Nat) = fun _ => 0 := funext fun a => by fin_cases a <;> rfl
  simp only [cc1__matmul_kernel_eq_skeleton]; unfold cc1__matmul_kernel_skel
  unfold owns
  iintro ⟨⟨%f3, %hf3, H3⟩, ⟨%f4, %hf4, H4⟩, ⟨%f5, %hf5, H5⟩, ⟨%f6, %hf6, H6⟩, Hk⟩
  subst hf3 hf4 hf5 hf6
  sl_exec
  sl_step
  iapply Hk
  isplitl [H3]
  · iexists f3; isplitr; · ipureintro; rfl
    iexact H3
  isplitl [H4]
  · iexists f4; isplitr; · ipureintro; rfl
    iexact H4
  isplitl [H5]
  · iexists _; isplitr
    swap; · iexact H5
    ipureintro
    sl_unfold_run_names
    rw [View.read_writes_eq_canon _ _ _ (fun y => ⟨_, List.mem_cons_self .., View.mem_set_unit_zero hz inb_S2048x1408_S2048x1408_0_0 y⟩), View.canon_cons_unit_zero hz, View.readCov_unit_zero _ hz]
    simp only [View.readAt_eq_ld, View.ld_unit_zero (S := S2048x1408) hz, View.ld_unit_zero (S := S2048x1024) hz, View.ld_unit_zero (S := S1408x1024) hz]
  iexists _; isplitr
  swap; · iexact H6
  ipureintro
  sl_unfold_run_names
  rw [View.read_writes_eq_canon _ _ _ (fun y => ⟨_, List.mem_cons_self .., View.mem_set_unit_zero hz inb_S2048x1408_S2048x1408_0_0 y⟩), View.canon_cons_unit_zero hz]
  simp only [View.readAt_eq_ld, View.ld_unit_zero (S := S2048x1408) hz, View.ld_unit_zero (S := S2048x1024) hz, View.ld_unit_zero (S := S1408x1024) hz]

end Cert.KernelIdeal.Exact

end
-- ==== Proof.Exact.MatmulData.lean ====
/-
  The contraction region read as exact proof data at the ideal instance, at the contents `V` it is entered with.

  Grid point `t` has coordinates `(i, j, k) = (t / 32, t / 4 % 8, t % 4)`. The activation block `(i, k)` lies inside
  its array. The weight block `(j, k)` has 1408 rows of which, for `j = 7`, only the first 1152 lie inside the
  array: past them the staging buffer holds words nothing names, and so do the accumulator's and the output
  block's columns 1152 … 1407 there. The accumulator is therefore followed only on the columns inside the array
  (`cols`), where it agrees with the recursion `accAt` that feeds the body the weight block filled out with a
  fixed word; on those columns an entry of the product reads only rows of the weight block that are inside the
  array (`StepLocal`), so the unnamed words never reach them.
-/
import proofs.«108235_j15058155339886_2_alg».proof.Proof.Exact.MatmulBody
import Idealize.ShloMosaic.PureOps.Ideal
import Idealize.ShloMosaic.PureOps.Ideal.Laws

set_option maxRecDepth 16384

noncomputable section

namespace Cert.KernelIdeal.Exact

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation BodyObligationLoose cellOf)

local notation "𝕄" => MT nD τ sig Unit (Elt Ideal) ℕ (UR sig nD τ) ℕ

variable (V : (c : Dev nD) → (b : Ref sig .tc) → Buf (Elt Ideal) ((c : Thread nD τ).loc b))

/-- Block `t` of window `w`'s array as the region finds it: its part inside the array. -/
def mblk (c : Dev nD) (w : Fin cfg1.W) (t : Fin cfg1.N) : ((cfg1.win w).xblock (cfg1.grid.coords t)).Idx → Elt Ideal (cfg1.win w).elt :=
  ((cfg1.win w).blk t).view.read (Elt Ideal) (V c (Pipeline.arrRef spec1 w))

/-- The weight block at point `t` filled out past the array's end with one fixed word. -/
def wfill (c : Dev nD) (t : Fin cfg1.N) : S1408x1024.Idx → Elt Ideal .bf16 :=
  win1_1.fill (grid1.coords t) (fun _ => Scalar.ofBits (F := Ideal) .bf16 0#16) (mblk V c 1 t)

/-- The accumulator before point `n`, as the body computes it from the activation blocks and the filled-out
    weight blocks: zeroed at the first point of every group of four, the block product added at every point. -/
def accAt (c : Dev nD) : Nat → Vec Ideal S2048x1408 .f32
  | 0 => k1_pay1 (F := Ideal)
  | n + 1 =>
    if h : n < cfg1.N then
      k1_pay2 (F := Ideal) (if n % 4 = 0 then k1_pay1 (F := Ideal) else accAt c n) (mblk V c 0 ⟨n, h⟩) (wfill V c ⟨n, h⟩)
    else accAt c n

theorem accAt_succ (c : Dev nD) (t : Fin cfg1.N) :
    accAt V c (t.val + 1) = k1_pay2 (F := Ideal) (if t.val % 4 = 0 then k1_pay1 (F := Ideal) else accAt V c t.val) (mblk V c 0 t) (wfill V c t) := by
  rw [accAt, dif_pos t.isLt]

/-- Two accumulators agree on the first `n` columns. -/
def Agree (n : Nat) (f g : Vec Ideal S2048x1408 .f32) : Prop := ∀ y : S2048x1408.Idx, (y 1).val < n → f y = g y

/-- How many columns of the output block at point `t` lie inside the array. -/
def cols (t : Nat) : Nat := if t / 4 % 8 = 7 then 1152 else 1408

/-- What is known of the accumulator before point `u`: inside a group of four, it is `accAt` on the columns inside
    the array. Before a group's first point nothing is known, and nothing is needed. -/
def AccInv (c : Dev nD) (u : Nat) (acc : Vec Ideal S2048x1408 .f32) : Prop :=
  u % 4 ≠ 0 → Agree (cols (u - 1)) acc (accAt V c u)

/-- On the first `n` columns the body's sum reads the accumulator there and the first `n` rows of the weight block. -/
def StepLocal : Prop :=
  ∀ (n : Nat) (acc acc' : Vec Ideal S2048x1408 .f32) (xb : Vec Ideal S2048x1024 .bf16) (wb wb' : Vec Ideal S1408x1024 .bf16),
    Agree n acc acc' → (∀ y' : S1408x1024.Idx, (y' 0).val < n → wb y' = wb' y') →
    Agree n (k1_pay2 (F := Ideal) acc xb wb) (k1_pay2 (F := Ideal) acc' xb wb')

/-! ## The grid, decided -/

theorem first_iff : ∀ t : Fin cfg1.N,
    (Scalar.cmpi .ne (Scalar.extui (Scalar.cmpi .eq (BitVec.ofNat 32 ((grid1.coords t) 2).val) 0#32)) 0#32 = 1#1) ↔ t.val % 4 = 0 :=
  (by decide +kernel : ∀ t : Fin grid1.N,
    (Scalar.cmpi .ne (Scalar.extui (Scalar.cmpi .eq (BitVec.ofNat 32 ((grid1.coords t) 2).val) 0#32)) 0#32 = 1#1) ↔ t.val % 4 = 0)
theorem last_iff : ∀ t : Fin cfg1.N, k1_cond2 (grid1.coords t) = 1#1 ↔ t.val % 4 = 3 :=
  (by decide +kernel : ∀ t : Fin grid1.N, k1_cond2 (grid1.coords t) = 1#1 ↔ t.val % 4 = 3)
theorem idle_iff : ∀ t : Fin cfg1.N, cfg1.idle 2 (cfg1.grid.coords t) = true ↔ t.val % 4 ≠ 3 :=
  (by decide +kernel : ∀ t : Fin grid1.N, idle1 2 (grid1.coords t) = true ↔ t.val % 4 ≠ 3)
/-- The weight block's rows and the output block's columns inside the array are the same in number. -/
theorem xsize_w : ∀ t : Fin cfg1.N, win1_1.xsize (grid1.coords t) 0 = cols t.val ∧ win1_1.xsize (grid1.coords t) 1 = 1024 :=
  (by decide +kernel : ∀ t : Fin grid1.N, win1_1.xsize (grid1.coords t) 0 = cols t.val ∧ win1_1.xsize (grid1.coords t) 1 = 1024)
theorem xsize_o : ∀ t : Fin cfg1.N, win1_2.xsize (grid1.coords t) 0 = 2048 ∧ win1_2.xsize (grid1.coords t) 1 = cols t.val :=
  (by decide +kernel : ∀ t : Fin grid1.N, win1_2.xsize (grid1.coords t) 0 = 2048 ∧ win1_2.xsize (grid1.coords t) 1 = cols t.val)

theorem cols_pred {t : Nat} (h : t % 4 ≠ 0) : cols (t - 1) = cols t := by
  unfold cols; rw [show (t - 1) / 4 = t / 4 by omega]

/-- Two fillings of the weight block agree on the rows inside the array. -/
theorem fill_agree (c : Dev nD) (t : Fin cfg1.N) (d d' : S1408x1024.Idx → Elt Ideal .bf16) (g) (y' : S1408x1024.Idx)
    (h : (y' 0).val < cols t.val) :
    win1_1.fill (grid1.coords t) d g y' = win1_1.fill (grid1.coords t) d' g y' := by
  have hm : win1_1.moved (grid1.coords t) y' = true := (win1_1.moved_iff _ y').mpr fun a => by
    match a with
    | ⟨0, _⟩ => show (y' 0).val < win1_1.xsize (grid1.coords t) 0; rw [(xsize_w t).1]; exact h
    | ⟨1, _⟩ => show (y' 1).val < win1_1.xsize (grid1.coords t) 1; rw [(xsize_w t).2]; exact (y' 1).isLt
  unfold Window.fill; rw [dif_pos hm, dif_pos hm]

/-- Accumulators that agree on the columns inside the array have the same part written back. -/
theorem cut_agree (t : Fin cfg1.N) (X Y : Vec Ideal S2048x1408 .f32) (h : Agree (cols t.val) X Y) :
    win1_2.cut (grid1.coords t) X = win1_2.cut (grid1.coords t) Y := by
  funext j
  refine h _ ?_
  have := (j 1).isLt
  rw [← (xsize_o t).2]; exact this

end Cert.KernelIdeal.Exact

end
-- ==== Proof.Exact.MatmulObl.lean ====
/-
  The proof data of the contraction region and its body obligation.

  Between points the invariant holds the accumulator at contents that agree with `accAt` on the columns inside the
  array (inside a group of four points). The activation window is handed back at its block; the weight window at
  its block filled out with whatever lay past the array's end; the output window is left as found except at the
  group's last point, where it receives the accumulator.
-/
import proofs.«108235_j15058155339886_2_alg».proof.Proof.Exact.MatmulData

set_option maxRecDepth 16384

noncomputable section

namespace Cert.KernelIdeal.Exact

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation BodyObligationLoose cellOf)

local notation "𝕄" => MT nD τ sig Unit (Elt Ideal) ℕ (UR sig nD τ) ℕ

variable (V : (c : Dev nD) → (b : Ref sig .tc) → Buf (Elt Ideal) ((c : Thread nD τ).loc b))

/-- The quantization region's staging buffers, which this region does not use, at some contents. -/
def restM (c : Dev nD) : sProp 𝕄 :=
  iprop((∃ f : Buf (Elt Ideal) ((c : Thread nD τ).loc cc0_stg0_0), ((c : Thread nD τ).loc cc0_stg0_0) ↦{fullShare} f)
    ∗ (∃ f : Buf (Elt Ideal) ((c : Thread nD τ).loc cc0_stg0_1), ((c : Thread nD τ).loc cc0_stg0_1) ↦{fullShare} f)
    ∗ (∃ f : Buf (Elt Ideal) ((c : Thread nD τ).loc cc0_stg1_0), ((c : Thread nD τ).loc cc0_stg1_0) ↦{fullShare} f)
    ∗ (∃ f : Buf (Elt Ideal) ((c : Thread nD τ).loc cc0_stg1_1), ((c : Thread nD τ).loc cc0_stg1_1) ↦{fullShare} f))

/-- The invariant before point `u`: the unused buffers, the accumulator at contents within `AccInv`, the generator
    register. -/
def ΦM (c : Dev nD) (u : Nat) : sProp 𝕄 :=
  iprop(restM c
    ∗ (∃ acc : Vec Ideal S2048x1408 .f32, owns (c : Thread nD τ) (Memref.whole cc1_scratch0) fullShare acc ∗ ⌜AccInv V c u acc⌝)
    ∗ ∃ r, prngReg c r)

/-- The proof data of the contraction region on core `c`. -/
def mdat (c : Dev nD) : Dat τ (Elt Ideal) Unit ℕ (UR sig nD τ) ℕ cfg1 c where
  A w := V c (Pipeline.arrRef spec1 w)
  after w t := match w with
    | ⟨0, _⟩ => mblk V c 0 t
    | ⟨1, _⟩ => wfill V c t
    | ⟨2, _⟩ => accAt V c (t.val + 1)
  Φ u := ΦM V c u.val
  q _ := fullShare
  owed _ := 0

theorem mA_eq (c : Dev nD) (w : Fin cfg1.W) : (mdat V c).A w = V c (Pipeline.arrRef spec1 w) := by dsimp only [mdat]
theorem mafter_0 (c : Dev nD) (t : Fin cfg1.N) : (mdat V c).after 0 t = mblk V c 0 t := by dsimp only [mdat]
theorem mafter_1 (c : Dev nD) (t : Fin cfg1.N) : (mdat V c).after 1 t = wfill V c t := by dsimp only [mdat]
theorem mafter_2 (c : Dev nD) (t : Fin cfg1.N) : (mdat V c).after 2 t = accAt V c (t.val + 1) := by dsimp only [mdat]

/-- The activation window's buffer holds its block at every point (fetched at every point, never cut). -/
theorem mbefore_0 (c : Dev nD) (t : Fin cfg1.N) (d) : (mdat V c).before 0 t d = mblk V c 0 t := by
  rw [(mdat V c).before_fetched 0 t (fetch1_0 t) d]
  unfold Dat.fetched Dat.blockOf mblk; rw [mA_eq]; try rfl

/-- The weight window's buffer holds its block inside the array and `d` past its end (fetched at every point). -/
theorem mbefore_1 (c : Dev nD) (t : Fin cfg1.N) (d) :
    (mdat V c).before 1 t d = win1_1.fill (grid1.coords t) d (mblk V c 1 t) := by
  rw [(mdat V c).before_fetched 1 t (fetch1_1 t) d]
  unfold Dat.fetched Dat.blockOf mblk; rw [mA_eq]; try rfl

/-- What the body leaves in the accumulator agrees with the recursion on the columns inside the array. -/
theorem step_agree (hs : StepLocal) (c : Dev nD) (t : Fin cfg1.N) (acc : Vec Ideal S2048x1408 .f32) (hacc : AccInv V c t.val acc)
    (d1 : S1408x1024.Idx → Elt Ideal .bf16) :
    Agree (cols t.val)
      (k1_pay2 (F := Ideal) (if t.val % 4 = 0 then k1_pay1 (F := Ideal) else acc) (mblk V c 0 t) (win1_1.fill (grid1.coords t) d1 (mblk V c 1 t)))
      (accAt V c (t.val + 1)) := by
  rw [accAt_succ]
  refine hs _ _ _ _ _ _ ?_ (fun y' h => fill_agree c t _ _ _ y' h)
  by_cases h0 : t.val % 4 = 0
  · rw [if_pos h0, if_pos h0]; exact fun _ _ => rfl
  · rw [if_neg h0, if_neg h0, ← cols_pred h0]; exact hacc h0

theorem accInv_succ (hs : StepLocal) (c : Dev nD) (t : Fin cfg1.N) (acc : Vec Ideal S2048x1408 .f32) (hacc : AccInv V c t.val acc)
    (d1 : S1408x1024.Idx → Elt Ideal .bf16) :
    AccInv V c (t.val + 1)
      (k1_pay2 (F := Ideal) (if t.val % 4 = 0 then k1_pay1 (F := Ideal) else acc) (mblk V c 0 t) (win1_1.fill (grid1.coords t) d1 (mblk V c 1 t))) := by
  intro _
  rw [Nat.add_sub_cancel]
  exact step_agree V hs c t acc hacc d1

end Cert.KernelIdeal.Exact

end
-- ==== Proof.Exact.MatmulOblig.lean ====
/-
  The body obligation of the contraction region, point by point: by the point's place in its group of four the body
  is one of three triples; the invariant's accumulator is handed to it and taken back within `AccInv`.
-/
import proofs.«108235_j15058155339886_2_alg».proof.Proof.Exact.MatmulObl

set_option maxRecDepth 16384

noncomputable section

namespace Cert.KernelIdeal.Exact

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation BodyObligationLoose cellOf)

local notation "𝕄" => MT nD τ sig Unit (Elt Ideal) ℕ (UR sig nD τ) ℕ

variable (V : (c : Dev nD) → (b : Ref sig .tc) → Buf (Elt Ideal) ((c : Thread nD τ).loc b))

set_option backward.isDefEq.respectTransparency.types false in
theorem mbody_obligation (hs : StepLocal) (c : Dev nD) :
    BodyObligationLoose (mdat V c) (defs₀ (F := Ideal)) Variants.none () Set.univ := fun t => by
  rw [bigSep_W1, bigSep_W1]
  simp only
  rw [show (mdat V c).owesAt () t.succ = (mdat V c).owesAt () t.castSucc from rfl,
    show (mdat V c).Φ t.castSucc = ΦM V c t.val from rfl, show (mdat V c).Φ t.succ = ΦM V c (t.val + 1) from rfl,
    mafter_0, mafter_1, mafter_2]
  unfold ΦM
  iintro ⟨⟨Hrest, ⟨%acc, Hacc, %hinv⟩, Hprng⟩, Ho, ⟨%d0, H0⟩, ⟨%d1, H1⟩, ⟨%d2, H2⟩⟩
  rw [mbefore_0 V c t d0, mbefore_1 V c t d1]
  by_cases hf : t.val % 4 = 0
  · -- the group's first point
    have h0 := (first_iff t).mpr hf
    have h3 : ¬ k1_cond2 (grid1.coords t) = 1#1 := fun h => by have := (last_iff t).mp h; omega
    have hidle : idle1 2 (grid1.coords t) = true := (idle_iff t).mpr (by omega)
    have hfl : (win1 2).flush t = false := by
      cases h : (win1 2).flush t with
      | false => rfl
      | true => exact absurd ((flush1_2 t).mp h) (by omega)
    simp only [hidle, hfl]
    show _ ⊢ wp frame (wpE (defs₀ (F := Ideal)) Variants.none c none) Set.univ (bodyAt1 t) _
    unfold bodyAt1
    refine BIBase.Entails.trans ?_ (sound_first (F := Ideal) c Set.univ (grid1.coords t) h0 h3 (win1_0.stage (cfg1.slots t 0)) (hstage1_0 ((cfg1.slots t 0).cast nbuf1_0)) (win1_1.stage (cfg1.slots t 1)) (hstage1_1 ((cfg1.slots t 1).cast nbuf1_1)) (win1_2.stage (cfg1.slots t 2)) (hstage1_2 ((cfg1.slots t 2).cast nbuf1_2)) (Memref.whole cc1_scratch0) (Memref.isWhole_whole _) (mblk V c 0 t) (win1_1.fill (grid1.coords t) d1 (mblk V c 1 t)) ((mdat V c).before 2 t d2) acc _)
    iintro ⟨⟨⟨⟨⟨⟨Hrest, Hacc⟩, Hprng⟩, Ho⟩, H0⟩, H1⟩, H2⟩
    isplitl [H0]; · iexact H0
    isplitl [H1]; · iexact H1
    isplitl [H2]; · iexact H2
    isplitl [Hacc]; · iexact Hacc
    iintro ⟨H0, H1, H2, Hacc⟩
    isplitl [Hrest Hacc Hprng]
    · isplitl [Hrest]; · iexact Hrest
      isplitl [Hacc]
      · iexists _
        isplitl [Hacc]; · iexact Hacc
        ipureintro
        have hnext := accInv_succ V hs c t acc hinv d1
        rw [if_pos hf] at hnext
        exact hnext
      iexact Hprng
    isplitl [Ho]; · iexact Ho
    isplitl [H0]; · iexact H0
    isplitl [H1]
    · iexists d1
      rw [show (win1 1).cut (grid1.coords t) (wfill V c t) = mblk V c 1 t from win1_1.cut_fill _ _ _]
      iexact H1
    iexists d2; iexact H2
  by_cases hl : t.val % 4 = 3
  · -- the group's last point
    have h0 : ¬ (Scalar.cmpi .ne (Scalar.extui (Scalar.cmpi .eq (BitVec.ofNat 32 ((grid1.coords t) 2).val) 0#32)) 0#32 = 1#1) := fun h => hf ((first_iff t).mp h)
    have h3 := (last_iff t).mpr hl
    have hidle : idle1 2 (grid1.coords t) = false := by
      cases h : idle1 2 (grid1.coords t) with
      | false => rfl
      | true => exact absurd hl ((idle_iff t).mp h)
    simp only [hidle]
    show _ ⊢ wp frame (wpE (defs₀ (F := Ideal)) Variants.none c none) Set.univ (bodyAt1 t) _
    unfold bodyAt1
    refine BIBase.Entails.trans ?_ (sound_last (F := Ideal) c Set.univ (grid1.coords t) h0 h3 (win1_0.stage (cfg1.slots t 0)) (hstage1_0 ((cfg1.slots t 0).cast nbuf1_0)) (win1_1.stage (cfg1.slots t 1)) (hstage1_1 ((cfg1.slots t 1).cast nbuf1_1)) (win1_2.stage (cfg1.slots t 2)) (hstage1_2 ((cfg1.slots t 2).cast nbuf1_2)) (Memref.whole cc1_scratch0) (Memref.isWhole_whole _) (mblk V c 0 t) (win1_1.fill (grid1.coords t) d1 (mblk V c 1 t)) ((mdat V c).before 2 t d2) acc _)
    iintro ⟨⟨⟨⟨⟨⟨Hrest, Hacc⟩, Hprng⟩, Ho⟩, H0⟩, H1⟩, H2⟩
    isplitl [H0]; · iexact H0
    isplitl [H1]; · iexact H1
    isplitl [H2]; · iexact H2
    isplitl [Hacc]; · iexact Hacc
    iintro ⟨H0, H1, H2, Hacc⟩
    isplitl [Hrest Hacc Hprng]
    · isplitl [Hrest]; · iexact Hrest
      isplitl [Hacc]
      · iexists _
        isplitl [Hacc]; · iexact Hacc
        ipureintro
        have hnext := accInv_succ V hs c t acc hinv d1
        rw [if_neg hf] at hnext
        exact hnext
      iexact Hprng
    isplitl [Ho]; · iexact Ho
    isplitl [H0]; · iexact H0
    isplitl [H1]
    · iexists d1
      rw [show (win1 1).cut (grid1.coords t) (wfill V c t) = mblk V c 1 t from win1_1.cut_fill _ _ _]
      iexact H1
    iexists _
    have hag := step_agree V hs c t acc hinv d1
    rw [if_neg hf] at hag
    rw [win1_2.fill_congr_cut (grid1.coords t) (cut_agree t _ _ hag)]
    iexact H2
  · -- a point inside the group
    have h0 : ¬ (Scalar.cmpi .ne (Scalar.extui (Scalar.cmpi .eq (BitVec.ofNat 32 ((grid1.coords t) 2).val) 0#32)) 0#32 = 1#1) := fun h => hf ((first_iff t).mp h)
    have h3 : ¬ k1_cond2 (grid1.coords t) = 1#1 := fun h => hl ((last_iff t).mp h)
    have hidle : idle1 2 (grid1.coords t) = true := (idle_iff t).mpr (by omega)
    have hfl : (win1 2).flush t = false := by
      cases h : (win1 2).flush t with
      | false => rfl
      | true => exact absurd ((flush1_2 t).mp h) (by omega)
    simp only [hidle, hfl]
    show _ ⊢ wp frame (wpE (defs₀ (F := Ideal)) Variants.none c none) Set.univ (bodyAt1 t) _
    unfold bodyAt1
    refine BIBase.Entails.trans ?_ (sound_mid (F := Ideal) c Set.univ (grid1.coords t) h0 h3 (win1_0.stage (cfg1.slots t 0)) (hstage1_0 ((cfg1.slots t 0).cast nbuf1_0)) (win1_1.stage (cfg1.slots t 1)) (hstage1_1 ((cfg1.slots t 1).cast nbuf1_1)) (win1_2.stage (cfg1.slots t 2)) (hstage1_2 ((cfg1.slots t 2).cast nbuf1_2)) (Memref.whole cc1_scratch0) (Memref.isWhole_whole _) (mblk V c 0 t) (win1_1.fill (grid1.coords t) d1 (mblk V c 1 t)) ((mdat V c).before 2 t d2) acc _)
    iintro ⟨⟨⟨⟨⟨⟨Hrest, Hacc⟩, Hprng⟩, Ho⟩, H0⟩, H1⟩, H2⟩
    isplitl [H0]; · iexact H0
    isplitl [H1]; · iexact H1
    isplitl [H2]; · iexact H2
    isplitl [Hacc]; · iexact Hacc
    iintro ⟨H0, H1, H2, Hacc⟩
    isplitl [Hrest Hacc Hprng]
    · isplitl [Hrest]; · iexact Hrest
      isplitl [Hacc]
      · iexists _
        isplitl [Hacc]; · iexact Hacc
        ipureintro
        have hnext := accInv_succ V hs c t acc hinv d1
        rw [if_neg hf] at hnext
        exact hnext
      iexact Hprng
    isplitl [Ho]; · iexact Ho
    isplitl [H0]; · iexact H0
    isplitl [H1]
    · iexists d1
      rw [show (win1 1).cut (grid1.coords t) (wfill V c t) = mblk V c 1 t from win1_1.cut_fill _ _ _]
      iexact H1
    iexists d2; iexact H2

end Cert.KernelIdeal.Exact

end
-- ==== Proof.Exact.Run.lean ====
/-
  The run of the idealized program: the two regions and the host lines between them, from the launch to the return.

  The buffer contents at each boundary are a fold from the launch memory: the quantization region replaces the
  quantized-weight array by what its sixteen write-backs leave; the host lines flatten and convert the activations;
  the contraction region replaces the product array by what its thirty-two write-backs leave; the last host line
  reshapes it. Every weakly fair execution terminates and every final memory holds exactly the last fold.
-/
import proofs.«108235_j15058155339886_2_alg».proof.Proof.Exact.Region0
import proofs.«108235_j15058155339886_2_alg».proof.Proof.Exact.MatmulOblig

set_option maxRecDepth 16384

noncomputable section

namespace Cert.KernelIdeal.Exact

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation BodyObligationLoose cellOf)

local notation "𝕄" => MT nD τ sig Unit (Elt Ideal) ℕ (UR sig nD τ) ℕ

variable (m : (ℓ : Loc nD τ sig) → Buf (Elt Ideal) ℓ) (ρ : Dev nD → PrngReg)

/-! ## The contents at each boundary -/

/-- At launch. -/
abbrev W0 : Dev nD → Valuation τ sig (Elt Ideal) := fun c b => (s₀ m ρ).mem ((c : Dev nD), b)
abbrev V0 : (c : Dev nD) → (b : Ref sig .tc) → Buf (Elt Ideal) ((c : Thread nD τ).loc b) := fun c b => W0 m ρ c b
/-- After the quantization region: its arrays at what its write-backs leave. -/
def W1 (c : Dev nD) : Valuation τ sig (Elt Ideal) :=
  Pipeline.withArrays spec0 c (W0 m ρ c) fun w => (qdat (V0 m ρ) c).arrAt w cfg0.N
theorem W1_arr (c : Dev nD) (w : Fin cfg0.W) :
    W1 m ρ c (Proc.devRef .tc (Pipeline.arrRef spec0 w)) = (qdat (V0 m ρ) c).arrAt w cfg0.N := by
  unfold W1; exact Pipeline.withArrays_arr spec0 launch0.win.arr_inj c _ _ w
theorem W1_of_ne (c : Dev nD) (b : Ref sig .tc) (hb : ∀ w, Pipeline.arrRef spec0 w ≠ b) :
    W1 m ρ c (Proc.devRef .tc b) = W0 m ρ c (Proc.devRef .tc b) := by
  unfold W1; exact Pipeline.withArrays_of_ne spec0 c _ _ b hb
abbrev V1 : (c : Dev nD) → (b : Ref sig .tc) → Buf (Elt Ideal) ((c : Thread nD τ).loc b) := fun c b => W1 m ρ c b
theorem hF0 (c : Dev nD) (w : Fin cfg0.W) : (qdat (V0 m ρ) c).arrAt w cfg0.N = V1 m ρ c (Pipeline.arrRef spec0 w) :=
  (W1_arr m ρ c w).symm
theorem hrest0 (c : Dev nD) : ∀ b, b ∉ Finset.univ.image (Pipeline.arrRef spec0) → V1 m ρ c b = V0 m ρ c b :=
  fun b hb => W1_of_ne m ρ c b fun w e => hb (Finset.mem_image.mpr ⟨w, Finset.mem_univ _, e⟩)

/-- After the host lines that flatten and convert the activations. -/
abbrev W2 : Dev nD → Valuation τ sig (Elt Ideal) := fun c => StableHlo.after hostOps1 (W1 m ρ c)
abbrev V2 : (c : Dev nD) → (b : Ref sig .tc) → Buf (Elt Ideal) ((c : Thread nD τ).loc b) := fun c b => W2 m ρ c b
/-- After the contraction region. -/
def W3 (c : Dev nD) : Valuation τ sig (Elt Ideal) :=
  Pipeline.withArrays spec1 c (W2 m ρ c) fun w => (mdat (V2 m ρ) c).arrAt w cfg1.N
theorem W3_arr (c : Dev nD) (w : Fin cfg1.W) :
    W3 m ρ c (Proc.devRef .tc (Pipeline.arrRef spec1 w)) = (mdat (V2 m ρ) c).arrAt w cfg1.N := by
  unfold W3; exact Pipeline.withArrays_arr spec1 launch1.win.arr_inj c _ _ w
theorem W3_of_ne (c : Dev nD) (b : Ref sig .tc) (hb : ∀ w, Pipeline.arrRef spec1 w ≠ b) :
    W3 m ρ c (Proc.devRef .tc b) = W2 m ρ c (Proc.devRef .tc b) := by
  unfold W3; exact Pipeline.withArrays_of_ne spec1 c _ _ b hb
abbrev V3 : (c : Dev nD) → (b : Ref sig .tc) → Buf (Elt Ideal) ((c : Thread nD τ).loc b) := fun c b => W3 m ρ c b
theorem hF1 (c : Dev nD) (w : Fin cfg1.W) : (mdat (V2 m ρ) c).arrAt w cfg1.N = V3 m ρ c (Pipeline.arrRef spec1 w) :=
  (W3_arr m ρ c w).symm
theorem hrest1 (c : Dev nD) : ∀ b, b ∉ Finset.univ.image (Pipeline.arrRef spec1) → V3 m ρ c b = V2 m ρ c b :=
  fun b hb => W3_of_ne m ρ c b fun w e => hb (Finset.mem_image.mpr ⟨w, Finset.mem_univ _, e⟩)
/-- After the last host line. -/
abbrev W4 : Dev nD → Valuation τ sig (Elt Ideal) := fun c => StableHlo.after hostOps2 (W3 m ρ c)

/-! ## The proof data family and the thread state -/

abbrev adm : (p : Fin 2) → (pcfgs (F := Ideal) p).Adm := fun p => (cfgs p).toPCfg_adm
def pdats : (p : Fin 2) → (c : Dev nD) → Dat τ (Elt Ideal) Unit ℕ (UR sig nD τ) ℕ (Pipeline.pin (pcfgs (F := Ideal)) adm p) c
  | ⟨0, _⟩ => fun c => qdat (V0 m ρ) c
  | ⟨1, _⟩ => fun c => mdat (V2 m ρ) c
abbrev 𝒱₀ : Variants := Variants.none
abbrev L : GSem nD τ sig → Finset Unit := fun _ => ∅
abbrev lv : GSem nD τ sig → Unit → ℕ := fun _ _ => 0
/-- What rides beside the buffers: the generator register at some state, and nothing owed. -/
abbrev R (c : Dev nD) : sProp 𝕄 := iprop((∃ r, prngReg c r) ∗ ∃ W, owes (c : Thread nD τ) (0 : CellTallies nD τ sig Unit) W)
abbrev hseg (ops : List (HloOp τ sig (Elt Ideal))) (hsub : ops.Forall fun op => op.bufs ⊆ StableHlo.tcRefs τ sig)
    (hfresh : ops.Forall fun op => op.fresh = ∅) (W : Dev nD → Valuation τ sig (Elt Ideal)) :
    Pipeline.HostSeg (Name := ℕ) (U := UR sig nD τ) (pcfgs (F := Ideal)) defs₀ 𝒱₀ L lv :=
  Pipeline.HostSeg.ofOps _ _ _ _ _ (Pipeline.ucRefs τ sig) ops
    (fun op h => Pipeline.sub_ucRefs op ((List.forall_iff_forall_mem.mp hsub) op h))
    (fun op h => (List.forall_iff_forall_mem.mp hfresh) op h) W R
theorem hostOps1_fresh' : (hostOps1 : List (HloOp τ sig (Elt Ideal))).Forall fun op => op.fresh = ∅ := by
  simp only [List.Forall]; repeat' constructor
theorem hostOps2_fresh' : (hostOps2 : List (HloOp τ sig (Elt Ideal))).Forall fun op => op.fresh = ∅ := by
  simp only [List.Forall]; repeat' constructor
theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩
abbrev Tₙ (c : Dev nD) : sProp 𝕄 := StableHlo.held (c : Thread nD τ) (Pipeline.ucRefs τ sig) (W4 m ρ c)

/-! ## The regions as segments -/

set_option backward.isDefEq.respectTransparency.types false in
/-- The quantization region: entered with every unscoped buffer at the launch contents, left with them at `W1`. -/
def reg0 : Pipeline.RegionSeg (pcfgs (F := Ideal)) adm (pdats m ρ) () defs₀ 𝒱₀ L lv 0 where
  win := launch0.win.to₀
  block_pos := launch0.block_pos
  stage_whole := launch0.stage_whole
  K := PEmpty
  osem k := k.elim
  ho := Pipeline.OwnSemFacts.none _
  hbody c := (qbody_obligation (V0 m ρ) c).loose
  hwaits := Pipeline.hwaits_of_owed_zero _ _ _ _ L lv 0 fun _ _ => rfl
  pre c := iprop(StableHlo.held (c : Thread nD τ) (Pipeline.ucRefs τ sig) (W0 m ρ c) ∗ R c)
  post c := iprop(StableHlo.held (c : Thread nD τ) (Pipeline.ucRefs τ sig) (W1 m ρ c) ∗ R c)
  X c := iprop(∃ r, prngReg c r)
  Y c := iprop(∃ r, prngReg c r)
  Z c := Pipeline.unscopedRest (Ix := Unit) (Name := ℕ) (U := UR sig nD τ) (Lvl := ℕ) spec0 c (V0 m ρ c)
  hentry c := by
    rw [Pipeline.ownSems0_none]
    have hsplit := Pipeline.arrays_of_unscopedBufs (p := 0) (pcfgs (F := Ideal)) adm (pdats m ρ) launch0.win launch0.arr_whole c
      ((pdats m ρ 0 c).share_full fun _ => rfl) (V0 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 0 c).Φ 0 = Pipeline.ΦA spec0 c from rfl]; unfold Pipeline.ΦA
    iintro ⟨Hp, -, Hr⟩
    isplitl [Hr]; · iexact Hr
    iexact Hp
  hout c := by
    rw [Pipeline.ownSems0_none, show (pdats m ρ 0 c).Φ (Fin.last _) = Pipeline.ΦA spec0 c from rfl]; unfold Pipeline.ΦA
    iintro ⟨Hr, Hp⟩
    isplitl [Hp]; · iexact Hp
    isplitr; · iempintro
    iexact Hr
  hexit c := by
    have hjoin := Pipeline.unscopedBufs_of_arrays (p := 0) (pcfgs (F := Ideal)) adm (Ix := Unit) (Name := ℕ) (U := UR sig nD τ) (Lvl := ℕ)
      launch0.win launch0.arr_whole c (pdats m ρ) ((pdats m ρ 0 c).share_full fun _ => rfl)
      (V0 m ρ c) (V1 m ρ c) ((pdats m ρ 0 c).arrAt · cfg0.N) (hF0 m ρ c) (hrest0 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- The contraction region: entered with every unscoped buffer at `W2`, left with them at `W3`. Its accumulator comes
    out of the scoped buffers no window stages, at contents nothing is asked of, and goes back there at the end. -/
def reg1 (hs : StepLocal) : Pipeline.RegionSeg (pcfgs (F := Ideal)) adm (pdats m ρ) () defs₀ 𝒱₀ L lv 1 where
  win := launch1.win.to₀
  block_pos := launch1.block_pos
  stage_whole := launch1.stage_whole
  K := PEmpty
  osem k := k.elim
  ho := Pipeline.OwnSemFacts.none _
  hbody c := mbody_obligation (V2 m ρ) hs c
  hwaits := Pipeline.hwaits_of_owed_zero _ _ _ _ L lv 1 fun _ _ => rfl
  pre c := iprop(StableHlo.held (c : Thread nD τ) (Pipeline.ucRefs τ sig) (W2 m ρ c) ∗ R c)
  post c := iprop(StableHlo.held (c : Thread nD τ) (Pipeline.ucRefs τ sig) (W3 m ρ c) ∗ R c)
  X c := iprop(∃ r, prngReg c r)
  Y c := iprop(∃ r, prngReg c r)
  Z c := Pipeline.unscopedRest (Ix := Unit) (Name := ℕ) (U := UR sig nD τ) (Lvl := ℕ) spec1 c (V2 m ρ c)
  hentry c := by
    rw [Pipeline.ownSems0_none]
    have hsplit := Pipeline.arrays_of_unscopedBufs (p := 1) (pcfgs (F := Ideal)) adm (pdats m ρ) launch1.win launch1.arr_whole c
      ((pdats m ρ 1 c).share_full fun _ => rfl) (V2 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 1 c).Φ 0 = ΦM (V2 m ρ) c 0 from rfl,
      show (Pipeline.scopedRest (Pipeline.pin (pcfgs (F := Ideal)) adm 1).spec c : sProp 𝕄) = _ from scopedRest1_eq (Ix := Unit) (Val := Elt Ideal) (Name := ℕ) (U := UR sig nD τ) (Lvl := ℕ) c]
    unfold ΦM restM
    iintro ⟨Hp, -, ⟨H1, H2, H3, H4, ⟨%f, Hs⟩⟩⟩
    isplitl [H1 H2 H3 H4]
    · isplitl [H1]; · iexact H1
      isplitl [H2]; · iexact H2
      isplitl [H3]; · iexact H3
      iexact H4
    isplitl [Hs]
    · iexists f
      isplitl [Hs]
      · rw [owns_whole_eq]; iexists f; isplitr; · ipureintro; rfl
        iexact Hs
      ipureintro; exact fun h => absurd rfl h
    iexact Hp
  hout c := by
    rw [Pipeline.ownSems0_none, show (pdats m ρ 1 c).Φ (Fin.last _) = ΦM (V2 m ρ) c cfg1.N from rfl,
      show (Pipeline.scopedRest (Pipeline.pin (pcfgs (F := Ideal)) adm 1).spec c : sProp 𝕄) = _ from scopedRest1_eq (Ix := Unit) (Val := Elt Ideal) (Name := ℕ) (U := UR sig nD τ) (Lvl := ℕ) c]
    unfold ΦM restM
    simp only [owns_whole_eq]
    iintro ⟨⟨H1, H2, H3, H4⟩, ⟨%acc, ⟨%f, -, Hs⟩, -⟩, Hp⟩
    isplitl [Hp]; · iexact Hp
    isplitr; · iempintro
    isplitl [H1]; · iexact H1
    isplitl [H2]; · iexact H2
    isplitl [H3]; · iexact H3
    isplitl [H4]; · iexact H4
    iexists f; iexact Hs
  hexit c := by
    have hjoin := Pipeline.unscopedBufs_of_arrays (p := 1) (pcfgs (F := Ideal)) adm (Ix := Unit) (Name := ℕ) (U := UR sig nD τ) (Lvl := ℕ)
      launch1.win launch1.arr_whole c (pdats m ρ) ((pdats m ρ 1 c).share_full fun _ => rfl)
      (V2 m ρ c) (V3 m ρ c) ((pdats m ρ 1 c).arrAt · cfg1.N) (hF1 m ρ c) (hrest1 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

/-! ## The program as segments, and the launch -/

abbrev segs (hs : StepLocal) : List (Pipeline.Seg (pcfgs (F := Ideal)) adm (pdats m ρ) () defs₀ 𝒱₀ L lv) :=
  [ .region (reg0 m ρ),
    .host (hseg hostOps1 hostOps1_sub hostOps1_fresh' (W1 m ρ)),
    .region (reg1 m ρ hs),
    .host (hseg hostOps2 hostOps2_sub hostOps2_fresh' (W3 m ρ)) ]

theorem main_run (hs : StepLocal) (c : Dev nD) : main (F := Ideal) c = Pipeline.Seg.run (segs m ρ hs) := (main_chain c).trans (by chain_rfl)

set_option backward.isDefEq.respectTransparency.types false in
/-- Every weakly fair execution terminates, and every final memory holds every unscoped buffer at the last fold. -/
theorem run (hs : StepLocal) : θ_run defs (onTc (τ := τ) (main (F := Ideal))) ⟨m, fun _ => 0, ρ⟩ (fun r => ∀ c : Dev nD,
      ∀ b ∈ Pipeline.ucRefs τ sig, r.2.mem (((c : Thread nD τ)).1, b) = W4 m ρ c b) :=
  Pipeline.θ_run_regions_kit (pcfgs (F := Ideal)) adm (pdats m ρ) () cellOf_inj emb₁ defs₀ 𝒱₀ L lv m ρ main (segs m ρ hs)
    (fun c Q => by rw [main_run m ρ hs c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun c => by
      show iprop(StableHlo.held (c : Thread nD τ) (Pipeline.ucRefs τ sig) (StableHlo.after hostOps2 (W3 m ρ c)) ∗ R c) ⊢ _
      iintro ⟨Hh, -, HO⟩
      isplitl [Hh]; · iexact Hh
      iexact HO⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W4 m ρ c b)
    (hfin := fun c s' => by
      show iprop(StableHlo.held (c : Thread nD τ) (Pipeline.ucRefs τ sig) (W4 m ρ c) ∗ _) ⊢ _
      unfold StableHlo.held
      iintro ⟨Hh, HSI⟩
      imodintro
      iapply (pointsTo_read_all (Pipeline.ucRefs τ sig) (fun b => (((c : Thread nD τ)).1, b)) (W4 m ρ c) s')
      isplitl [Hh] <;> iassumption)
    (hQ := fun s h c => h c)

end Cert.KernelIdeal.Exact

end
-- ==== Proof.Spec.lean ====
/-
  The function both programs compute, stated once over plain index functions and extended reals.

  A weight row of 4096 entries is cut into 32 groups of 128 consecutive lanes. A group's scale is the
  mean of its absolute values (the sum over the 128 lanes divided by 128), kept from below by the literal
  `ε` (the f32 word 0x322BCC77, the same word in both programs). An entry is divided by its group's
  scale, rounded to the nearest integer with ties to even, clamped to [-1, 1] and multiplied by the scale
  again: the dequantized ternary weight. The result is the contraction of the activations with the
  dequantized weight rows, `y[b, s, o] = ∑ k, x[b, s, k] · wq[o, k]`.

  The literals stay as their f32 words read at the ideal instance: the same word stands on both sides
  and is never evaluated.
-/
import Idealize.ShloMosaic.PureOps.Ideal
import Idealize.ShloMosaic.PureOps.Ideal.Laws
import Idealize.ShloMosaic.Lib.ValueIdx

noncomputable section

open scoped BigOperators

namespace Cert.BitLinear

open Idealize.ShloMosaic Idealize.ShloMosaic.ValueIdx

/-- Lane `l` of group `g` is entry `g·128 + l` of the row. -/
def lane (g : Fin 32) (l : Fin 128) : Fin 4096 := ⟨g.val * 128 + l.val, by omega⟩

/-- The group an entry of the row lies in. -/
def grp (c : Fin 4096) : Fin 32 := ⟨c.val / 128, by omega⟩

/-- A group's scale: the mean of the absolute values of its 128 lanes, at least `ε`. -/
def gscale (row : Fin 4096 → EReal) (g : Fin 32) : EReal :=
  max (Ideal.div (∑ l : Fin 128, max (row (lane g l)) (-(row (lane g l)))) (Ideal.ofBits .f32 0x43000000#32))
    (Ideal.ofBits .f32 0x322BCC77#32)

/-- One entry of a row after ternary quantization and dequantization: the entry over its group's scale, rounded
    half to even, clamped to [-1, 1], times the scale. -/
def qrow (row : Fin 4096 → EReal) (c : Fin 4096) : EReal :=
  min (Ideal.ofBits .f32 0x3F800000#32)
      (max (Ideal.ofBits .f32 0xBF800000#32) (Ideal.liftRound Ideal.roundHalfEven (Ideal.div (row c) (gscale row (grp c)))))
    * gscale row (grp c)

/-- The dequantized weight, row by row. -/
def wq (w : (⟨2, ![11008, 4096]⟩ : Shape).Idx → EReal) (r : Fin 11008) (c : Fin 4096) : EReal :=
  qrow (fun c' => w (ix2 r c')) c

/-- The result at one entry: the row of activations against the dequantized weight row. -/
def yAt (x : (⟨3, ![4, 2048, 4096]⟩ : Shape).Idx → EReal) (w : (⟨2, ![11008, 4096]⟩ : Shape).Idx → EReal)
    (b : Fin 4) (s : Fin 2048) (o : Fin 11008) : EReal :=
  ∑ k : Fin 4096, x (ix3 b s k) * wq w o k

/-- The result array. -/
def G (x : (⟨3, ![4, 2048, 4096]⟩ : Shape).Idx → EReal) (w : (⟨2, ![11008, 4096]⟩ : Shape).Idx → EReal) :
    (⟨3, ![4, 2048, 11008]⟩ : Shape).Idx → EReal :=
  fun i => yAt x w (i 0) (i 1) (i 2)

end Cert.BitLinear

end
-- ==== Proof.LaneGroup.lean ====
/-
  Groups and lanes of a row of 4096 entries: entry c lies in group c / 128 at lane c mod 128, and lane l of
  group g is entry g·128 + l, whose group is g again.
-/
import proofs.«108235_j15058155339886_2_alg».proof.Proof.Spec

namespace Cert.BitLinear

/-- The lane of an entry within its group. -/
def lanePos (c : Fin 4096) : Fin 128 := ⟨c.val % 128, Nat.mod_lt _ (by norm_num)⟩

/-- Lane c mod 128 of group c / 128 is entry c. -/
theorem lane_grp (c : Fin 4096) : lane (grp c) (lanePos c) = c :=
  Fin.ext (by show c.val / 128 * 128 + c.val % 128 = c.val; omega)

/-- The group of lane l of group g is g. -/
theorem grp_lane (g : Fin 32) (l : Fin 128) : grp (lane g l) = g :=
  Fin.ext (by show (g.val * 128 + l.val) / 128 = g.val; omega)

end Cert.BitLinear
-- ==== Proof.LibFlatten.lean ====
/-
  A reshape between a flat axis and a pair of axes, read at an entry.

  Row-major order puts entry (j, k) of a b×c pair of axes at flat position j·c + k. So an a×n array viewed as a×b×c
  (n = b·c) holds at (i, j, k) the entry (i, j·c + k), and the other way round; the same without the leading axis,
  from a length-n vector to b×c and from b×c to a 1×n row; and a length-n vector viewed as 1×n×1 holds at (0, k, 0)
  the vector's entry k. The flat coordinate is any `q : Fin n` with value j·c + k.
-/
import Idealize.ShloMosaic.Lib.Pipeline.Value
import Idealize.ShloMosaic.Lib.ValueIdx

noncomputable section

namespace Cert.Flatten

open Idealize.ShloMosaic Idealize.ShloMosaic.ValueIdx

variable {α : Type} {a b c n : Nat}

/-- An a×n array viewed as a×b×c, at (i, j, k): the entry (i, j·c + k). -/
theorem split_apply (x : (⟨2, ![a, n]⟩ : Shape).Idx → α) (h : (⟨2, ![a, n]⟩ : Shape).ShapeCasts ⟨3, ![a, b, c]⟩)
    (hn : n = b * c) (i : Fin a) (j : Fin b) (k : Fin c) (q : Fin n) (hq : q.val = j.val * c + k.val) :
    shapeCast ⟨3, ![a, b, c]⟩ x h (ix3 i j k) = x (ix2 i q) :=
  shapeCast_apply x h (ix3 i j k) (ix2 i q) (by
    rw [Shape.rowMajor_val_two, Shape.rowMajor_val_three]
    show i.val * n + q.val = (i.val * b + j.val) * c + k.val
    rw [hq, hn, Nat.add_mul, Nat.mul_assoc, Nat.add_assoc])

/-- An a×b×c array flattened to a×n, at (i, j·c + k): the entry (i, j, k). -/
theorem merge_apply (x : (⟨3, ![a, b, c]⟩ : Shape).Idx → α) (h : (⟨3, ![a, b, c]⟩ : Shape).ShapeCasts ⟨2, ![a, n]⟩)
    (hn : n = b * c) (i : Fin a) (j : Fin b) (k : Fin c) (q : Fin n) (hq : q.val = j.val * c + k.val) :
    shapeCast ⟨2, ![a, n]⟩ x h (ix2 i q) = x (ix3 i j k) :=
  shapeCast_apply x h (ix2 i q) (ix3 i j k) (by
    rw [Shape.rowMajor_val_two, Shape.rowMajor_val_three]
    show (i.val * b + j.val) * c + k.val = i.val * n + q.val
    rw [hq, hn, Nat.add_mul, Nat.mul_assoc, Nat.add_assoc])

/-- A length-n vector viewed as b×c, at (j, k): the entry j·c + k. -/
theorem split1_apply (x : (⟨1, ![n]⟩ : Shape).Idx → α) (h : (⟨1, ![n]⟩ : Shape).ShapeCasts ⟨2, ![b, c]⟩)
    (j : Fin b) (k : Fin c) (q : Fin n) (hq : q.val = j.val * c + k.val) :
    shapeCast ⟨2, ![b, c]⟩ x h (ix2 j k) = x (ix1 q) :=
  shapeCast_apply x h (ix2 j k) (ix1 q) (by
    rw [Shape.rowMajor_val_two, Shape.rowMajor_val_one]
    show q.val = j.val * c + k.val
    exact hq)

/-- A b×c array flattened to a 1×n row, at (0, j·c + k): the entry (j, k). -/
theorem merge1_apply (x : (⟨2, ![b, c]⟩ : Shape).Idx → α) (h : (⟨2, ![b, c]⟩ : Shape).ShapeCasts ⟨2, ![1, n]⟩)
    (j : Fin b) (k : Fin c) (q : Fin n) (hq : q.val = j.val * c + k.val) :
    shapeCast ⟨2, ![1, n]⟩ x h (ix2 0 q) = x (ix2 j k) :=
  shapeCast_apply x h (ix2 0 q) (ix2 j k) (by
    rw [Shape.rowMajor_val_two, Shape.rowMajor_val_two]
    show j.val * c + k.val = 0 * n + q.val
    rw [hq, Nat.zero_mul, Nat.zero_add])

/-- A length-n vector viewed as 1×n×1, at (0, k, 0): the entry k. -/
theorem column3_apply (x : (⟨1, ![n]⟩ : Shape).Idx → α) (h : (⟨1, ![n]⟩ : Shape).ShapeCasts ⟨3, ![1, n, 1]⟩) (k : Fin n) :
    shapeCast ⟨3, ![1, n, 1]⟩ x h (ix3 0 k 0) = x (ix1 k) :=
  shapeCast_apply x h (ix3 0 k 0) (ix1 k) (by
    rw [Shape.rowMajor_val_three, Shape.rowMajor_val_one]
    show k.val = (0 * n + k.val) * 1 + 0
    rw [Nat.zero_mul, Nat.zero_add, Nat.mul_one, Nat.add_zero])

end Cert.Flatten

end
-- ==== Proof.LibBatch3.lean ====
/-
  Arrays with a batch axis, a row axis and a lane axis, read at an entry (b, r, l).

  * Merging the batch and row axes: an A×B×C array viewed as (A·B)×C holds at (b·B + r, l) what the array holds at
    (b, r, l), and the view back splits the merged row index the same way: both views keep the row-major position.
  * Broadcasts that repeat a per-batch row (A×1×C), a per-row column (A×B×1) or one shared row (1×1×C) over the
    whole A×B×C array, and a length-C vector viewed as a 1×1×C row.
  * The sum over the lane axis kept as a unit axis: an A×B×C array summed over its lanes and viewed as A×B×1 holds
    at (b, r, 0) the sum over l of the entries (b, r, l).
-/
import Idealize.ShloMosaic.PureOps.Ideal.Laws
import Idealize.ShloMosaic.Lib.ValueIdx
import Idealize.ShloMosaic.Lib.Pipeline.Value

noncomputable section

open scoped BigOperators

namespace Cert.Batch3

open Idealize.ShloMosaic Idealize.ShloMosaic.ValueIdx

variable {α : Type} {A B C : Nat}

/-- The merged view (A·B)×C of an A×B×C array at (q, l), where q = b·B + r, is the array at (b, r, l). -/
theorem merge_apply {n : Nat} (x : (⟨3, ![A, B, C]⟩ : Shape).Idx → α)
    (h : (⟨3, ![A, B, C]⟩ : Shape).ShapeCasts ⟨2, ![n, C]⟩) (b : Fin A) (r : Fin B) (l : Fin C) (q : Fin n)
    (hq : q.val = b.val * B + r.val) :
    shapeCast ⟨2, ![n, C]⟩ x h (ix2 q l) = x (ix3 b r l) := by
  refine shapeCast_apply x h (ix2 q l) (ix3 b r l) ?_
  rw [Shape.rowMajor_val_three, Shape.rowMajor_val_two]
  show (b.val * B + r.val) * C + l.val = q.val * C + l.val
  rw [hq]

/-- The split view A×B×C of an (A·B)×C array at (b, r, l) is the array at (q, l), where q = b·B + r. -/
theorem split_apply {n : Nat} (y : (⟨2, ![n, C]⟩ : Shape).Idx → α)
    (h : (⟨2, ![n, C]⟩ : Shape).ShapeCasts ⟨3, ![A, B, C]⟩) (b : Fin A) (r : Fin B) (l : Fin C) (q : Fin n)
    (hq : q.val = b.val * B + r.val) :
    shapeCast ⟨3, ![A, B, C]⟩ y h (ix3 b r l) = y (ix2 q l) := by
  refine shapeCast_apply y h (ix3 b r l) (ix2 q l) ?_
  rw [Shape.rowMajor_val_three, Shape.rowMajor_val_two]
  show q.val * C + l.val = (b.val * B + r.val) * C + l.val
  rw [hq]

/-- A per-batch row A×1×C repeated over the B rows: entry (b, r, l) is the row's (b, 0, l). -/
theorem bcast_row_apply (x : (⟨3, ![A, 1, C]⟩ : Shape).Idx → α)
    (h : (⟨3, ![A, 1, C]⟩ : Shape).Broadcasts ⟨3, ![A, B, C]⟩) (b : Fin A) (r : Fin B) (l : Fin C) :
    broadcastTo ⟨3, ![A, B, C]⟩ x h (ix3 b r l) = x (ix3 b 0 l) := by
  refine broadcastTo_apply x h (ix3 b r l) (ix3 b 0 l) (fun ax => ?_)
  match ax with
  | ⟨0, _⟩ =>
    show b.val = if A = 1 then 0 else b.val
    split_ifs with hA
    · have := b.isLt; omega
    · rfl
  | ⟨1, _⟩ => show 0 = if (1 : Nat) = 1 then 0 else r.val; rw [if_pos rfl]
  | ⟨2, _⟩ =>
    show l.val = if C = 1 then 0 else l.val
    split_ifs with hC
    · have := l.isLt; omega
    · rfl

/-- A per-row column A×B×1 repeated over the C lanes: entry (b, r, l) is the column's (b, r, 0). -/
theorem bcast_col_apply (x : (⟨3, ![A, B, 1]⟩ : Shape).Idx → α)
    (h : (⟨3, ![A, B, 1]⟩ : Shape).Broadcasts ⟨3, ![A, B, C]⟩) (b : Fin A) (r : Fin B) (l : Fin C) :
    broadcastTo ⟨3, ![A, B, C]⟩ x h (ix3 b r l) = x (ix3 b r 0) := by
  refine broadcastTo_apply x h (ix3 b r l) (ix3 b r 0) (fun ax => ?_)
  match ax with
  | ⟨0, _⟩ =>
    show b.val = if A = 1 then 0 else b.val
    split_ifs with hA
    · have := b.isLt; omega
    · rfl
  | ⟨1, _⟩ =>
    show r.val = if B = 1 then 0 else r.val
    split_ifs with hB
    · have := r.isLt; omega
    · rfl
  | ⟨2, _⟩ => show 0 = if (1 : Nat) = 1 then 0 else l.val; rw [if_pos rfl]

/-- One shared row 1×1×C repeated over every batch and row: entry (b, r, l) is the row's (0, 0, l). -/
theorem bcast_lane_apply (x : (⟨3, ![1, 1, C]⟩ : Shape).Idx → α)
    (h : (⟨3, ![1, 1, C]⟩ : Shape).Broadcasts ⟨3, ![A, B, C]⟩) (b : Fin A) (r : Fin B) (l : Fin C) :
    broadcastTo ⟨3, ![A, B, C]⟩ x h (ix3 b r l) = x (ix3 0 0 l) := by
  refine broadcastTo_apply x h (ix3 b r l) (ix3 0 0 l) (fun ax => ?_)
  match ax with
  | ⟨0, _⟩ => show 0 = if (1 : Nat) = 1 then 0 else b.val; rw [if_pos rfl]
  | ⟨1, _⟩ => show 0 = if (1 : Nat) = 1 then 0 else r.val; rw [if_pos rfl]
  | ⟨2, _⟩ =>
    show l.val = if C = 1 then 0 else l.val
    split_ifs with hC
    · have := l.isLt; omega
    · rfl

/-- A length-C vector viewed as a 1×1×C row: entry (0, 0, l) is the vector's entry l. -/
theorem vec_as_lane_apply (v : (⟨1, ![C]⟩ : Shape).Idx → α)
    (h : (⟨1, ![C]⟩ : Shape).ShapeCasts ⟨3, ![1, 1, C]⟩) (l : Fin C) :
    shapeCast ⟨3, ![1, 1, C]⟩ v h (ix3 0 0 l) = v (ix1 l) := by
  refine shapeCast_apply v h (ix3 0 0 l) (ix1 l) ?_
  rw [Shape.rowMajor_val_three, Shape.rowMajor_val_one]
  show l.val = (0 * 1 + 0) * C + l.val
  omega

/-- The reduced index (b, r) with lane l put back is (b, r, l). -/
theorem lift_lane (h : (⟨3, ![A, B, C]⟩ : Shape).Reduces [2] ⟨2, ![A, B]⟩) (b : Fin A) (r : Fin B)
    (l : Fin ((⟨3, ![A, B, C]⟩ : Shape).size 2)) : h.lift (ix2 b r) l = ix3 b r (⟨l.val, l.isLt⟩ : Fin C) := by
  funext c; apply Fin.ext
  fin_cases c <;> rfl

/-- The lane sum kept as a unit axis: an A×B×C array summed over its lanes and viewed as A×B×1 holds at
    (b, r, 0) the sum over l of the entries (b, r, l). -/
theorem lane_sum_keep_apply {φ : FTy} (src : FVec Ideal ⟨3, ![A, B, C]⟩ φ) (acc : BitVec φ.bits)
    (h : (⟨3, ![A, B, C]⟩ : Shape).Reduces [2] ⟨2, ![A, B]⟩) (hφ : FKind.Formats φ)
    (hacc : acc = FKind.add.neutral φ hφ) (hc : (⟨2, ![A, B]⟩ : Shape).ShapeCasts ⟨3, ![A, B, 1]⟩)
    (b : Fin A) (r : Fin B) :
    shapeCast ⟨3, ![A, B, 1]⟩ (multiReduction .add [2] ⟨2, ![A, B]⟩ src acc h hφ hacc) hc (ix3 b r 0)
      = ∑ l : Fin C, src (ix3 b r l) := by
  rw [shapeCast_apply _ hc (ix3 b r 0) (ix2 b r) (by
    rw [Shape.rowMajor_val_three, Shape.rowMajor_val_two]
    show b.val * B + r.val = (b.val * B + r.val) * 1 + 0
    omega)]
  rw [Ideal.multiReduction_add_single]
  exact Finset.sum_congr rfl fun l _ => congrArg src (lift_lane h b r l)

end Cert.Batch3

end
-- ==== Proof.QuantRow.lean ====
/-
  The quantizing region's stored value, read at an entry.

  A block of 688 rows of 4096 entries is viewed as 688 × 32 × 128: row p, group g, lane l is entry g·128 + l
  of row p. Each group's absolute values are summed over its 128 lanes, the sum is divided by 128 and kept
  from below by ε: the group's scale, one number per (row, group), repeated over the group's lanes. Every
  entry is divided by its group's scale, rounded half to even, clamped to [-1, 1] and multiplied by the
  scale; the result is viewed as 688 × 4096 again, where entry c of row p comes from group c / 128 and lane
  c mod 128. Narrowing the format is the identity on extended reals. So the stored row p is the row
  quantization of the loaded row p.
-/
import proofs.«108235_j15058155339886_2_alg».proof.Proof.Gen.KernelIdeal.Skeleton
import proofs.«108235_j15058155339886_2_alg».proof.Proof.Spec
import proofs.«108235_j15058155339886_2_alg».proof.Proof.LaneGroup
import proofs.«108235_j15058155339886_2_alg».proof.Proof.LibFlatten
import proofs.«108235_j15058155339886_2_alg».proof.Proof.LibBatch3

noncomputable section

open scoped BigOperators

namespace Cert.BitLinear

open Idealize.ShloMosaic Idealize.ShloMosaic.ValueIdx
open Cert.KernelIdeal Cert.KernelIdeal.Gen

/-- The block viewed by groups: 688 × 32 × 128. -/
def cut (v0 : FVec Ideal S688x4096 .f32) : FVec Ideal S688x32x128 .f32 :=
  shapeCast S688x32x128 v0 shapeCasts_S688x4096_S688x32x128

/-- Row p, group g, lane l of the grouped view is entry g·128 + l of row p. -/
theorem cut_apply (v0 : FVec Ideal S688x4096 .f32) (p : Fin 688) (g : Fin 32) (l : Fin 128) :
    cut v0 (ix3 p g l) = v0 (ix2 p (lane g l)) :=
  Cert.Flatten.split_apply v0 shapeCasts_S688x4096_S688x32x128 (by norm_num) p g l (lane g l) rfl

/-- The scales of a grouped block, one per (row, group), kept as a unit lane axis. -/
def scales (v1 : FVec Ideal S688x32x128 .f32) : FVec Ideal S688x32x1 .f32 :=
  maximumf
    (divf
      (shapeCast S688x32x1
        (multiReduction (F := Ideal) .add [2] S688x32 (absf v1) 0x00000000#32 reduces_S688x32x128_S688x32 (.inl rfl) rfl)
        shapeCasts_S688x32_S688x32x1)
      (broadcast S688x32x1 (Scalar.ofBits (F := Ideal) .f32 0x43000000#32)))
    (broadcast S688x32x1 (Scalar.ofBits (F := Ideal) .f32 0x322BCC77#32))

/-- The scale of row p, group g: the sum over the lanes of the absolute values, over 128, at least ε. -/
theorem scales_apply (v1 : FVec Ideal S688x32x128 .f32) (p : Fin 688) (g : Fin 32) :
    scales v1 (ix3 p g 0)
      = max (Ideal.div (∑ l : Fin 128, max (v1 (ix3 p g l)) (-(v1 (ix3 p g l)))) (Ideal.ofBits .f32 0x43000000#32))
          (Ideal.ofBits .f32 0x322BCC77#32) := by
  have hs := Cert.Batch3.lane_sum_keep_apply (absf v1) 0x00000000#32 reduces_S688x32x128_S688x32 (.inl rfl) rfl
    shapeCasts_S688x32_S688x32x1 p g
  exact congrArg (fun s => max (Ideal.div s (Ideal.ofBits .f32 0x43000000#32)) (Ideal.ofBits .f32 0x322BCC77#32)) hs

/-- Every entry over its group's scale, rounded half to even, clamped to [-1, 1], times the scale. -/
def dequant (v1 : FVec Ideal S688x32x128 .f32) (v8 : FVec Ideal S688x32x1 .f32) : FVec Ideal S688x32x128 .f32 :=
  mulf
    (minimumf (broadcast S688x32x128 (Scalar.ofBits (F := Ideal) .f32 0x3F800000#32))
      (maximumf (broadcast S688x32x128 (Scalar.ofBits (F := Ideal) .f32 0xBF800000#32))
        (roundeven (divf v1 (broadcastTo S688x32x128 v8 broadcasts_S688x32x1_S688x32x128)))))
    (broadcastTo S688x32x128 v8 broadcasts_S688x32x1_S688x32x128)

theorem dequant_apply (v1 : FVec Ideal S688x32x128 .f32) (v8 : FVec Ideal S688x32x1 .f32) (p : Fin 688) (g : Fin 32)
    (l : Fin 128) :
    dequant v1 v8 (ix3 p g l)
      = min (Ideal.ofBits .f32 0x3F800000#32)
          (max (Ideal.ofBits .f32 0xBF800000#32)
            (Ideal.liftRound Ideal.roundHalfEven (Ideal.div (v1 (ix3 p g l)) (v8 (ix3 p g 0)))))
        * v8 (ix3 p g 0) := by
  have hb := Cert.Batch3.bcast_col_apply v8 broadcasts_S688x32x1_S688x32x128 p g l
  show min (Ideal.ofBits .f32 0x3F800000#32)
          (max (Ideal.ofBits .f32 0xBF800000#32)
            (Ideal.liftRound Ideal.roundHalfEven (Ideal.div (v1 (ix3 p g l))
              (broadcastTo S688x32x128 v8 broadcasts_S688x32x1_S688x32x128 (ix3 p g l)))))
        * broadcastTo S688x32x128 v8 broadcasts_S688x32x1_S688x32x128 (ix3 p g l) = _
  rw [hb]

/-- The stored value at row p, entry c: the row quantization of the loaded row p at c. -/
theorem quant_payload (v0 : Vec Ideal Cert.KernelIdeal.S688x4096 .f32) (p : Fin 688) (c : Fin 4096) :
    Cert.KernelIdeal.Gen.k0_pay1 (F := Ideal) v0 (ix2 p c) = qrow (fun c' => v0 (ix2 p c')) c := by
  show shapeCast S688x4096 (dequant (cut v0) (scales (cut v0))) shapeCasts_S688x32x128_S688x4096 (ix2 p c) = _
  rw [Cert.Flatten.merge_apply _ shapeCasts_S688x32x128_S688x4096 (by norm_num) p (grp c)
      (lanePos c) c (by show c.val = c.val / 128 * 128 + c.val % 128; omega),
    dequant_apply, scales_apply]
  simp only [cut_apply, lane_grp]
  rfl

end Cert.BitLinear

end
-- ==== Proof.Exact.QuantFinal.lean ====
/-
  What the quantization region leaves in the quantized-weight array: every row of the weights quantized group by
  group.

  Point `t` writes back rows 688·t … 688·t + 687, whole rows, and the sixteen points cover the 11008 rows; an entry of
  the block is the quantization of its own row of the loaded block, which is that row of the weight array.
-/
import proofs.«108235_j15058155339886_2_alg».proof.Proof.Exact.Region0
import proofs.«108235_j15058155339886_2_alg».proof.Proof.QuantRow
import proofs.«108235_j15058155339886_2_alg».proof.Proof.Spec
import Idealize.ShloMosaic.Lib.Pipeline.Value
import Idealize.ShloMosaic.Lib.ValueIdx

set_option maxRecDepth 16384

noncomputable section

namespace Cert.KernelIdeal.Exact

open Cert.KernelIdeal Cert.KernelIdeal.Gen
open Idealize.ShloMosaic Idealize.ShloMosaic.TcCoe Idealize.ShloMosaic.ValueIdx
open Idealize.SL Idealize.SL.Sem
open Idealize.ShloMosaic.Pipeline (Dat Cfg Window)

variable (V : (c : Dev nD) → (b : Ref sig .tc) → Buf (Elt Ideal) ((c : Thread nD τ).loc b))

theorem hzq : (![0, 0] : Fin 2 → Nat) = fun _ => 0 := funext fun a => by fin_cases a <;> rfl

/-- The weight array quantized row by row. -/
def Gq (w : S11008x4096.Idx → EReal) : S11008x4096.Idx → EReal := fun i => Cert.BitLinear.wq w (i 0) (i 1)

/-- Both windows' block at point `t` is row block `t`, all columns. -/
theorem qidx : ∀ t : Fin cfg0.N, win0_0.index t (0 : Fin 2) = t.val ∧ win0_0.index t (1 : Fin 2) = 0
    ∧ win0_1.index t (0 : Fin 2) = t.val ∧ win0_1.index t (1 : Fin 2) = 0 :=
  (by decide +kernel : ∀ t : Fin grid0.N, _)

theorem qrow_lt (t : Fin cfg0.N) (p : Fin 688) : t.val * 688 + p.val < 11008 := by
  have hN : cfg0.N = 16 := N_0
  have := t.isLt; have := p.isLt; omega

/-- An entry of the weight block at point `t` sits in the array at row 688·t + its row. -/
theorem emb_in (t : Fin cfg0.N) (p : Fin 688) (c' : Fin 4096) :
    ((cfg0.win 0).blk t).view.emb (ix2 p c') = ix2 (⟨t.val * 688 + p.val, qrow_lt t p⟩ : Fin 11008) c' := by
  obtain ⟨e0, e1, -, -⟩ := qidx t
  funext a; apply Fin.ext
  match a with
  | ⟨0, _⟩ => show win0_0.index t (0 : Fin 2) * 688 + 1 * p.val = t.val * 688 + p.val; rw [e0]; omega
  | ⟨1, _⟩ => show win0_0.index t (1 : Fin 2) * 4096 + 1 * c'.val = c'.val; rw [e1]; omega

theorem emb_out (t : Fin cfg0.N) (p : Fin 688) (c' : Fin 4096) :
    ((cfg0.win 1).blk t).view.emb (ix2 p c') = ix2 (⟨t.val * 688 + p.val, qrow_lt t p⟩ : Fin 11008) c' := by
  obtain ⟨-, -, e0, e1⟩ := qidx t
  funext a; apply Fin.ext
  match a with
  | ⟨0, _⟩ => show win0_1.index t (0 : Fin 2) * 688 + 1 * p.val = t.val * 688 + p.val; rw [e0]; omega
  | ⟨1, _⟩ => show win0_1.index t (1 : Fin 2) * 4096 + 1 * c'.val = c'.val; rw [e1]; omega

/-- What point `t` writes back is block `t` of the quantized weights. -/
theorem qflushed_eq (c : Dev nD) (t : Fin cfg0.N) :
    (qdat V c).flushed 1 t = ((cfg0.win 1).blk t).view.read (Elt Ideal) (Gq (V c main_arg1)) := by
  show (cfg0.win 1).cut (grid0.coords t) ((qdat V c).after 1 t) = _
  rw [qafter_1]
  unfold qout
  rw [View.canon_unit_zero hzq]
  simp only [View.ld_unit_zero (S := S688x4096) hzq]
  funext j
  obtain ⟨p, cc, rfl⟩ : ∃ (p : Fin 688) (cc : Fin 4096), j = ix2 p cc := ⟨j 0, j 1, eq_ix2 j⟩
  show k0_pay1 (F := Ideal) (qblk V c 0 t) (ix2 p cc) = Gq (V c main_arg1) (((cfg0.win 1).blk t).view.emb (ix2 p cc))
  rw [Cert.BitLinear.quant_payload, emb_out]
  have hrow : (fun c' : Fin 4096 => qblk V c 0 t (ix2 p c'))
      = fun c' : Fin 4096 => V c main_arg1 (ix2 (⟨t.val * 688 + p.val, qrow_lt t p⟩ : Fin 11008) c') :=
    funext fun c' => congrArg (V c main_arg1) (emb_in t p c')
  exact congrArg (fun r => Cert.BitLinear.qrow r cc) hrow

theorem qmem_blk (t : Fin cfg0.N) (i : S11008x4096.Idx) :
    i ∈ ((cfg0.win 1).blk t).view.set ↔ ∀ a : Fin 2, win0_1.index t a * S688x4096.size a ≤ (i a).val ∧ (i a).val < win0_1.index t a * S688x4096.size a + S688x4096.size a := by
  show i ∈ ((View.whole main_v0).slice (win0_1.rect t)).set ↔ _
  rw [View.set_slice_whole, Rect.mem_set_unit]
  exact Iff.rfl

/-- The quantized-weight array after the region. -/
theorem quant_final (c : Dev nD) : (qdat V c).arrAt 1 cfg0.N = Gq (V c main_arg1) := by
  refine (qdat V c).arrAt_eq_of_cover 1 _ (fun t _ => qflushed_eq V c t) fun i => ?_
  have hi0 : (i 0).val < 11008 := (i 0).isLt
  have hi1 : (i 1).val < 4096 := (i 1).isLt
  have hN : cfg0.N = 16 := N_0
  let t : Fin cfg0.N := ⟨(i 0).val / 688, by omega⟩
  obtain ⟨-, -, e0, e1⟩ := qidx t
  refine ⟨t, flush0_1 t, ?_⟩
  rw [qmem_blk]
  intro a
  match a with
  | ⟨0, _⟩ => show win0_1.index t (0 : Fin 2) * 688 ≤ (i 0).val ∧ (i 0).val < win0_1.index t (0 : Fin 2) * 688 + 688; rw [e0]; show (i 0).val / 688 * 688 ≤ (i 0).val ∧ (i 0).val < (i 0).val / 688 * 688 + 688; omega
  | ⟨1, _⟩ => show win0_1.index t (1 : Fin 2) * 4096 ≤ (i 1).val ∧ (i 1).val < win0_1.index t (1 : Fin 2) * 4096 + 4096; rw [e1]; omega

end Cert.KernelIdeal.Exact

end
-- ==== Proof.AccStep.lean ====
/-
  One step of the blocked product, read at an entry.

  The second region keeps a 2048 × 1408 accumulator. At the first contraction block it is set to zero;
  at every contraction block it receives, entry by entry, the product of the current 2048 × 1024 block of
  activations with the current 1408 × 1024 block of dequantized weight rows, both contracted along their
  second axis: entry (p, q) grows by the sum over k of xb[p, k] · wb[q, k]. The format changes and the
  shape casts of a shape to itself are the identity on extended reals.
-/
import proofs.«108235_j15058155339886_2_alg».proof.Proof.Gen.KernelIdeal.Skeleton
import proofs.«108235_j15058155339886_2_alg».proof.Proof.Spec
import Idealize.ShloMosaic.Lib.Pipeline.Value
import Idealize.ShloMosaic.Lib.ValueIdx
import Idealize.ShloMosaic.PureOps.Ideal.Laws

noncomputable section

open scoped BigOperators

namespace Cert.BitLinear

open Idealize.ShloMosaic Idealize.ShloMosaic.ValueIdx
open Cert.KernelIdeal Cert.KernelIdeal.Gen

/-- The dimension record of the block product: both operands contract their second axis. -/
abbrev blockDot : DotDims S2048x1024 S1408x1024 S2048x1408 := dot_S2048x1024_S1408x1024_S2048x1408_1_1_0_0_n_n

/-- The left operand's first coordinate is the result's row, whatever the contraction position. -/
theorem blockDot_lhs0 (j : S2048x1408.Idx) (c : blockDot.contr.Idx) : (blockDot.lhsIdx j c 0).val = (j 0).val := by
  unfold DotDims.lhsIdx
  rw [dif_neg (show ¬(0 : Fin S2048x1024.rank) ∈ blockDot.lhsBatch by decide),
    dif_pos (show (0 : Fin S2048x1024.rank) ∈ blockDot.lhsNonContracting by decide)]
  rfl

/-- The right operand's first coordinate is the result's column: the operand is contracted along its rows' entries. -/
theorem blockDot_rhs0 (j : S2048x1408.Idx) (c : blockDot.contr.Idx) : (blockDot.rhsIdx j c 0).val = (j 1).val := by
  unfold DotDims.rhsIdx
  rw [dif_neg (show ¬(0 : Fin S1408x1024.rank) ∈ blockDot.rhsBatch by decide),
    dif_pos (show (0 : Fin S1408x1024.rank) ∈ blockDot.rhsNonContracting by decide)]
  rfl

/-- The left operand's index at result entry (p, q) and contraction position k is (p, k). -/
theorem blockDot_lhs (p : Fin 2048) (q : Fin 1408) (k : Fin 1024) :
    blockDot.lhsIdx (ix2 p q) ((contrEquiv1 blockDot 1024 rfl rfl).symm k) = ix2 p k :=
  funext fun a => Fin.ext (by
    match a with
    | ⟨0, _⟩ => exact blockDot_lhs0 _ _
    | ⟨1, _⟩ =>
      exact (blockDot.lhsIdx_val_of_single rfl (ix2 p q) _).trans (contrEquiv1_symm_val blockDot 1024 rfl rfl k))

/-- The right operand's index at result entry (p, q) and contraction position k is (q, k). -/
theorem blockDot_rhs (p : Fin 2048) (q : Fin 1408) (k : Fin 1024) :
    blockDot.rhsIdx (ix2 p q) ((contrEquiv1 blockDot 1024 rfl rfl).symm k) = ix2 q k :=
  funext fun a => Fin.ext (by
    match a with
    | ⟨0, _⟩ => exact blockDot_rhs0 _ _
    | ⟨1, _⟩ =>
      exact (blockDot.rhsIdx_val_of_single rfl (ix2 p q) _).trans (contrEquiv1_symm_val blockDot 1024 rfl rfl k))

/-- The block product into the zero accumulator, at entry (p, q): the sum over the 1024 contraction positions. -/
theorem blockDot_entry (xb : FVec Ideal S2048x1024 .bf16) (wb : FVec Ideal S1408x1024 .bf16) (p : Fin 2048) (q : Fin 1408) :
    matmul blockDot none xb wb (constant S2048x1408 .f32 0x00000000#32) (ix2 p q)
      = ∑ k : Fin 1024, xb (ix2 p k) * wb (ix2 q k) := by
  refine (Ideal.matmul_constant_zero_apply blockDot none xb wb (ix2 p q)).trans ?_
  rw [← Equiv.sum_comp (contrEquiv1 blockDot 1024 rfl rfl).symm]
  refine Finset.sum_congr rfl fun k _ => ?_
  rw [blockDot_lhs p q k, blockDot_rhs p q k]

/-- The accumulating store's value at entry (p, q): the accumulator there plus the block product there. -/
theorem acc_payload (acc : Vec Ideal Cert.KernelIdeal.S2048x1408 .f32) (xb : Vec Ideal Cert.KernelIdeal.S2048x1024 .bf16)
    (wb : Vec Ideal Cert.KernelIdeal.S1408x1024 .bf16) (p : Fin 2048) (q : Fin 1408) :
    Cert.KernelIdeal.Gen.k1_pay2 (F := Ideal) acc xb wb (ix2 p q)
      = acc (ix2 p q) + ∑ k : Fin 1024, xb (ix2 p k) * wb (ix2 q k) := by
  unfold k1_pay2
  rw [shapeCast_self, shapeCast_self, shapeCast_self]
  exact congrArg (acc (ix2 p q) + ·) (blockDot_entry xb wb p q)

/-- The zeroing store's value: zero at every entry. -/
theorem zero_payload (j : Cert.KernelIdeal.S2048x1408.Idx) : Cert.KernelIdeal.Gen.k1_pay1 (F := Ideal) j = 0 := by
  unfold k1_pay1
  rw [shapeCast_self]
  exact Ideal.ofBits_zero_f32

end Cert.BitLinear

end
-- ==== Proof.Exact.AccClosed.lean ====
/-
  The accumulator at the end of a group of four contraction blocks, in closed form.

  Within a group the accumulator is zeroed at the first point and grows at every point by that point's block
  product, entry by entry. After the group's fourth point, entry (p, q) is therefore the sum of the four block
  products at (p, q), each the sum over the block's 1024 contraction positions of the activation block's entry
  (p, ·) times the filled-out weight block's entry (q, ·).
-/
import proofs.«108235_j15058155339886_2_alg».proof.Proof.Exact.MatmulData
import proofs.«108235_j15058155339886_2_alg».proof.Proof.AccStep

noncomputable section

open scoped BigOperators

namespace Cert.KernelIdeal.Exact

open Cert.KernelIdeal Cert.KernelIdeal.Gen
open Idealize.ShloMosaic Idealize.ShloMosaic.TcCoe Idealize.ShloMosaic.ValueIdx

variable (V : (c : Dev nD) → (b : Ref sig .tc) → Buf (Elt Ideal) ((c : Thread nD τ).loc b))

/-- The activation block at point n as a 2048 × 1024 array (the block lies inside its array). -/
def xAt (c : Dev nD) (n : Nat) (h : n < cfg1.N) : Vec Ideal S2048x1024 .bf16 := mblk V c 0 ⟨n, h⟩

/-- The block product of point n at entry (p, q). -/
def prodAt (c : Dev nD) (n : Nat) (h : n < cfg1.N) (p : Fin 2048) (q : Fin 1408) : EReal :=
  ∑ k : Fin 1024, xAt V c n h (ix2 p k) * wfill V c ⟨n, h⟩ (ix2 q k)

/-- One point: the accumulator after point n is the one before it (zero at a group's first point) plus the
    point's block product. -/
theorem accAt_step (c : Dev nD) (n : Nat) (h : n < cfg1.N) (p : Fin 2048) (q : Fin 1408) :
    accAt V c (n + 1) (ix2 p q) = (if n % 4 = 0 then 0 else accAt V c n (ix2 p q)) + prodAt V c n h p q := by
  have e : accAt V c (n + 1)
      = k1_pay2 (F := Ideal) (if n % 4 = 0 then k1_pay1 (F := Ideal) else accAt V c n) (xAt V c n h) (wfill V c ⟨n, h⟩) :=
    accAt_succ V c ⟨n, h⟩
  rw [e, Cert.BitLinear.acc_payload]
  by_cases h0 : n % 4 = 0
  · rw [if_pos h0, if_pos h0, Cert.BitLinear.zero_payload]; rfl
  · rw [if_neg h0, if_neg h0]; rfl

/-- A group of four points starting at s: the accumulator after the fourth is the sum of the four block products. -/
theorem acc_closed (c : Dev nD) (s : Nat) (hs : s % 4 = 0) (h : s + 3 < cfg1.N) (p : Fin 2048) (q : Fin 1408) :
    accAt V c (s + 3 + 1) (ix2 p q)
      = prodAt V c s (by omega) p q + prodAt V c (s + 1) (by omega) p q + prodAt V c (s + 2) (by omega) p q
        + prodAt V c (s + 3) h p q := by
  rw [accAt_step V c (s + 3) h, if_neg (by omega), accAt_step V c (s + 2) (by omega), if_neg (by omega),
    accAt_step V c (s + 1) (by omega), if_neg (by omega), accAt_step V c s (by omega), if_pos hs, zero_add]

end Cert.KernelIdeal.Exact

end
-- ==== Proof.Exact.ProdBlocks.lean ====
/-
  The blocks of the contraction region read in their arrays.

  Grid point t has coordinates (i, j, k) = (t / 32, t / 4 % 8, t % 4). The activation block at t is block (i, k)
  of the 8192 × 4096 activations: its entry (p, q') is the array's entry (i·2048 + p, k·1024 + q'). The weight block
  at t is block (j, k) of the 11008 × 4096 dequantized weight, of which the rows inside the array were fetched:
  for a row q inside the array, entry (q, q') of the filled-out block is the array's entry (j·1408 + q, k·1024 + q').
  The output block at t is block (i, j) of the 8192 × 11008 product.
-/
import proofs.«108235_j15058155339886_2_alg».proof.Proof.Exact.MatmulData
import Idealize.ShloMosaic.Lib.ValueIdx

noncomputable section

namespace Cert.KernelIdeal.Exact

open Cert.KernelIdeal Cert.KernelIdeal.Gen
open Idealize.ShloMosaic Idealize.ShloMosaic.TcCoe Idealize.ShloMosaic.ValueIdx
open Idealize.ShloMosaic.Pipeline (Dat Cfg Window)

variable (V : (c : Dev nD) → (b : Ref sig .tc) → Buf (Elt Ideal) ((c : Thread nD τ).loc b))

/-! ## The index maps, decided over the grid -/

theorem idx_x : ∀ t : Fin cfg1.N, win1_0.index t (0 : Fin 2) = t.val / 32 ∧ win1_0.index t (1 : Fin 2) = t.val % 4 :=
  (by decide +kernel : ∀ t : Fin grid1.N, win1_0.index t (0 : Fin 2) = t.val / 32 ∧ win1_0.index t (1 : Fin 2) = t.val % 4)
theorem idx_w : ∀ t : Fin cfg1.N, win1_1.index t (0 : Fin 2) = t.val / 4 % 8 ∧ win1_1.index t (1 : Fin 2) = t.val % 4 :=
  (by decide +kernel : ∀ t : Fin grid1.N, win1_1.index t (0 : Fin 2) = t.val / 4 % 8 ∧ win1_1.index t (1 : Fin 2) = t.val % 4)
theorem idx_o : ∀ t : Fin cfg1.N, win1_2.index t (0 : Fin 2) = t.val / 32 ∧ win1_2.index t (1 : Fin 2) = t.val / 4 % 8 :=
  (by decide +kernel : ∀ t : Fin grid1.N, win1_2.index t (0 : Fin 2) = t.val / 32 ∧ win1_2.index t (1 : Fin 2) = t.val / 4 % 8)

/-! ## The input blocks -/

/-- Entry (p, k) of the activation block at point t is the activations' entry (t/32·2048 + p, t%4·1024 + k). -/
theorem x_block (c : Dev nD) (t : Fin cfg1.N) (p : Fin 2048) (k : Fin 1024) (r : Fin 8192) (kc : Fin 4096)
    (hr : r.val = t.val / 32 * 2048 + p.val) (hk : kc.val = t.val % 4 * 1024 + k.val) :
    (mblk V c 0 t : Vec Ideal S2048x1024 .bf16) (ix2 p k) = V c main_v2 (ix2 r kc) := by
  obtain ⟨e0, e1⟩ := idx_x t
  show V c main_v2 (((cfg1.win 0).blk t).view.emb (ix2 p k)) = _
  refine congrArg (V c main_v2) (funext fun a => Fin.ext ?_)
  match a with
  | ⟨0, _⟩ => show win1_0.index t (0 : Fin 2) * 2048 + 1 * p.val = r.val; rw [e0, hr]; omega
  | ⟨1, _⟩ => show win1_0.index t (1 : Fin 2) * 1024 + 1 * k.val = kc.val; rw [e1, hk]; omega

/-- For a row q inside the array, entry (q, k) of the filled-out weight block at point t is the dequantized
    weight's entry (t/4%8·1408 + q, t%4·1024 + k). -/
theorem w_block (c : Dev nD) (t : Fin cfg1.N) (q : Fin 1408) (k : Fin 1024) (hq : q.val < cols t.val) (r : Fin 11008)
    (kc : Fin 4096) (hr : r.val = t.val / 4 % 8 * 1408 + q.val) (hk : kc.val = t.val % 4 * 1024 + k.val) :
    wfill V c t (ix2 q k) = V c main_v0 (ix2 r kc) := by
  obtain ⟨e0, e1⟩ := idx_w t
  have hm : win1_1.moved (grid1.coords t) (ix2 q k) = true := (win1_1.moved_iff _ (ix2 q k)).mpr fun a => by
    match a with
    | ⟨0, _⟩ => show q.val < win1_1.xsize (grid1.coords t) 0; rw [(xsize_w t).1]; exact hq
    | ⟨1, _⟩ => show k.val < win1_1.xsize (grid1.coords t) 1; rw [(xsize_w t).2]; exact k.isLt
  unfold wfill Window.fill
  rw [dif_pos hm]
  show V c main_v0 (((cfg1.win 1).blk t).view.emb _) = _
  refine congrArg (V c main_v0) (funext fun a => Fin.ext ?_)
  match a with
  | ⟨0, _⟩ => show win1_1.index t (0 : Fin 2) * 1408 + 1 * q.val = r.val; rw [e0, hr]; omega
  | ⟨1, _⟩ => show win1_1.index t (1 : Fin 2) * 1024 + 1 * k.val = kc.val; rw [e1, hk]; omega

/-! ## The output blocks -/

/-- An entry of the product array is in point t's output block iff its row is among the block's 2048 rows and its
    column among the block's columns inside the array. -/
theorem mem_out_blk (t : Fin cfg1.N) (i : S8192x11008.Idx) :
    i ∈ ((cfg1.win 2).blk t).view.set
      ↔ (t.val / 32 * 2048 ≤ (i 0).val ∧ (i 0).val < t.val / 32 * 2048 + 2048)
        ∧ (t.val / 4 % 8 * 1408 ≤ (i 1).val ∧ (i 1).val < t.val / 4 % 8 * 1408 + cols t.val) := by
  obtain ⟨e0, e1⟩ := idx_o t
  obtain ⟨s0, s1⟩ := xsize_o t
  show i ∈ ((View.whole main_v3).slice (win1_2.rect t)).set ↔ _
  rw [View.set_slice_whole, Rect.mem_set_unit]
  constructor
  · intro h
    have h0 : win1_2.index t (0 : Fin 2) * 2048 ≤ (i 0).val ∧ (i 0).val < win1_2.index t (0 : Fin 2) * 2048 + win1_2.xsize (grid1.coords t) 0 := h 0
    have h1 : win1_2.index t (1 : Fin 2) * 1408 ≤ (i 1).val ∧ (i 1).val < win1_2.index t (1 : Fin 2) * 1408 + win1_2.xsize (grid1.coords t) 1 := h 1
    rw [e0, s0] at h0; rw [e1, s1] at h1
    exact ⟨h0, h1⟩
  · rintro ⟨h0, h1⟩ a
    match a with
    | ⟨0, _⟩ =>
      show win1_2.index t (0 : Fin 2) * 2048 ≤ (i 0).val ∧ (i 0).val < win1_2.index t (0 : Fin 2) * 2048 + win1_2.xsize (grid1.coords t) 0
      rw [e0, s0]; exact h0
    | ⟨1, _⟩ =>
      show win1_2.index t (1 : Fin 2) * 1408 ≤ (i 1).val ∧ (i 1).val < win1_2.index t (1 : Fin 2) * 1408 + win1_2.xsize (grid1.coords t) 1
      rw [e1, s1]; exact h1

/-- The entry of the product array under entry j of point t's output block. -/
theorem out_emb (t : Fin cfg1.N) (j : ((cfg1.win 2).xblock (cfg1.grid.coords t)).Idx) :
    ((((cfg1.win 2).blk t).view.emb j) 0).val = t.val / 32 * 2048 + (j 0).val
      ∧ ((((cfg1.win 2).blk t).view.emb j) 1).val = t.val / 4 % 8 * 1408 + (j 1).val := by
  obtain ⟨e0, e1⟩ := idx_o t
  constructor
  · show win1_2.index t (0 : Fin 2) * 2048 + 1 * (j 0).val = _; rw [e0]; omega
  · show win1_2.index t (1 : Fin 2) * 1408 + 1 * (j 1).val = _; rw [e1]; omega

end Cert.KernelIdeal.Exact

end
-- ==== Proof.SumBlocks.lean ====
/-
  A sum over 4096 positions cut into 4 consecutive blocks of 1024: position b·1024 + q is position q of
  block b, and every position below 4096 is of that form exactly once, so the sum is the sum over the blocks
  of the sums within a block. Addition of extended reals is commutative and associative, so no finiteness
  is needed.
-/
import Mathlib.Data.EReal.Basic
import Mathlib.Logic.Equiv.Fin.Basic
import Mathlib.Data.Fintype.BigOperators

open scoped BigOperators

namespace Cert.BitLinear

/-- Pairs (block, position in the block) and positions below 4096 correspond one to one. -/
def blockPos : Fin 4 × Fin 1024 ≃ Fin 4096 := finProdFinEquiv (m := 4) (n := 1024)

theorem blockPos_val (b : Fin 4) (q : Fin 1024) : (blockPos (b, q)).val = b.val * 1024 + q.val := by
  show q.val + 1024 * b.val = b.val * 1024 + q.val
  omega

theorem sum_blocks (f : Fin 4096 → EReal) :
    ∑ k : Fin 4096, f k = ∑ b : Fin 4, ∑ q : Fin 1024, f ⟨b.val * 1024 + q.val, by omega⟩ := by
  rw [← Equiv.sum_comp blockPos f, Fintype.sum_prod_type]
  exact Finset.sum_congr rfl fun b _ => Finset.sum_congr rfl fun q _ => congrArg f (Fin.ext (blockPos_val b q))

end Cert.BitLinear
-- ==== Proof.Exact.ProdFinal.lean ====
/-
  The product array after the contraction region.

  The output window writes its block back at the last point of every group of four, t ≡ 3 (mod 4), and what it
  writes is the accumulator's columns inside the array. By then the accumulator's entry (p, q) is the sum of the
  group's four block products, each over 1024 contraction positions; the four blocks are the four consecutive
  quarters of the 4096 contraction positions, so the entry is the full contraction of row t/32·2048 + p of the
  activations with row t/4%8·1408 + q of the dequantized weight. The block of point t covers rows
  t/32·2048 … +2047 and columns t/4%8·1408 … of the product, cut at column 11008; entry (r, o) is covered by the
  point (r/2048)·32 + (o/1408)·4 + 3. So the array ends holding, at (r, o), the contraction of activations' row r
  with weight row o.
-/
import proofs.«108235_j15058155339886_2_alg».proof.Proof.Exact.MatmulObl
import proofs.«108235_j15058155339886_2_alg».proof.Proof.Exact.AccClosed
import proofs.«108235_j15058155339886_2_alg».proof.Proof.Exact.ProdBlocks
import proofs.«108235_j15058155339886_2_alg».proof.Proof.SumBlocks

noncomputable section

open scoped BigOperators

namespace Cert.KernelIdeal.Exact

open Cert.KernelIdeal Cert.KernelIdeal.Gen
open Idealize.ShloMosaic Idealize.ShloMosaic.TcCoe Idealize.ShloMosaic.ValueIdx
open Idealize.ShloMosaic.Pipeline (Dat Cfg Window)

variable (V : (c : Dev nD) → (b : Ref sig .tc) → Buf (Elt Ideal) ((c : Thread nD τ).loc b))

/-- The flattened activations the region is entered with, as extended reals. -/
def xArr (c : Dev nD) : S8192x4096.Idx → EReal := V c main_v2

/-- The dequantized weight the region is entered with, as extended reals. -/
def wArr (c : Dev nD) : S11008x4096.Idx → EReal := V c main_v0

/-- One term of the contraction of activations' row r with weight row o. -/
def term (c : Dev nD) (r : Fin 8192) (o : Fin 11008) (k : Fin 4096) : EReal :=
  xArr V c (ix2 r k) * wArr V c (ix2 o k)

/-- The product: entry (r, o) is the contraction of activations' row r with weight row o. -/
def prodArr (c : Dev nD) : S8192x11008.Idx → EReal :=
  fun i => ∑ k : Fin 4096, xArr V c (ix2 (i 0) k) * wArr V c (ix2 (i 1) k)

/-- The block product of point n at entry (p, q), for a column q inside the array: the quarter n % 4 of the
    contraction of row n/32·2048 + p with row n/4%8·1408 + q. -/
theorem prod_point (c : Dev nD) (n : Nat) (h : n < cfg1.N) (p : Fin 2048) (q : Fin 1408) (hq : q.val < cols n)
    (r : Fin 8192) (o : Fin 11008) (hr : r.val = n / 32 * 2048 + p.val) (ho : o.val = n / 4 % 8 * 1408 + q.val)
    (b : Fin 4) (hb : n % 4 = b.val) :
    prodAt V c n h p q = ∑ k : Fin 1024, term V c r o ⟨b.val * 1024 + k.val, by omega⟩ := by
  unfold prodAt
  refine Finset.sum_congr rfl fun k _ => ?_
  have ex := x_block V c ⟨n, h⟩ p k r ⟨b.val * 1024 + k.val, by omega⟩ hr
    (by show b.val * 1024 + k.val = n % 4 * 1024 + k.val; rw [hb])
  have ew := w_block V c ⟨n, h⟩ q k hq o ⟨b.val * 1024 + k.val, by omega⟩ ho
    (by show b.val * 1024 + k.val = n % 4 * 1024 + k.val; rw [hb])
  exact congrArg₂ (fun (a b : EReal) => a * b) ex ew

/-- The accumulator after the last point of a group, at entry (p, q) for a column inside the array: the full
    contraction. -/
theorem group_entry (c : Dev nD) (t : Fin cfg1.N) (h3 : t.val % 4 = 3) (p : Fin 2048) (q : Fin 1408)
    (hq : q.val < cols t.val) (r : Fin 8192) (o : Fin 11008) (hr : r.val = t.val / 32 * 2048 + p.val)
    (ho : o.val = t.val / 4 % 8 * 1408 + q.val) :
    accAt V c (t.val + 1) (ix2 p q) = ∑ k : Fin 4096, term V c r o k := by
  have ht := t.isLt
  obtain ⟨s, hs⟩ : ∃ s, t.val = s + 3 := ⟨t.val - 3, by omega⟩
  have hs4 : s % 4 = 0 := by omega
  have hc : ∀ j, j < 4 → cols (s + j) = cols t.val := fun j hj => by
    unfold cols; rw [show (s + j) / 4 = t.val / 4 by omega]
  rw [Cert.BitLinear.sum_blocks, Fin.sum_univ_four, hs, acc_closed V c s hs4 (by omega) p q]
  refine congrArg₂ (· + ·) (congrArg₂ (· + ·) (congrArg₂ (· + ·) ?_ ?_) ?_) ?_
  · exact prod_point V c s (by omega) p q (by rw [show s = s + 0 from rfl, hc 0 (by omega)]; exact hq) r o
      (by rw [hr]; omega) (by rw [ho]; omega) 0 (by show s % 4 = 0; omega)
  · exact prod_point V c (s + 1) (by omega) p q (by rw [hc 1 (by omega)]; exact hq) r o
      (by rw [hr]; omega) (by rw [ho]; omega) 1 (by show (s + 1) % 4 = 1; omega)
  · exact prod_point V c (s + 2) (by omega) p q (by rw [hc 2 (by omega)]; exact hq) r o
      (by rw [hr]; omega) (by rw [ho]; omega) 2 (by show (s + 2) % 4 = 2; omega)
  · exact prod_point V c (s + 3) (by omega) p q (by rw [hc 3 (by omega)]; exact hq) r o
      (by rw [hr]; omega) (by rw [ho]; omega) 3 (by show (s + 3) % 4 = 3; omega)

/-- The product array after the region: entry (r, o) is the contraction of activations' row r with weight row o. -/
theorem prod_final (c : Dev nD) :
    (mdat V c).arrAt 2 cfg1.N = prodArr V c := by
  refine (mdat V c).arrAt_eq_of_cover 2 (prodArr V c) (fun t hf => ?_) (fun i => ?_)
  · have h3 : t.val % 4 = 3 := (flush1_2 t).mp hf
    obtain ⟨s0, s1⟩ := xsize_o t
    show (cfg1.win 2).cut (grid1.coords t) ((mdat V c).after 2 t) = _
    rw [mafter_2]
    funext j
    have hj0 : (j 0).val < win1_2.xsize (grid1.coords t) 0 := (j 0).isLt
    have hj1 : (j 1).val < win1_2.xsize (grid1.coords t) 1 := (j 1).isLt
    rw [s0] at hj0; rw [s1] at hj1
    have hc : cols t.val ≤ 1408 := by unfold cols; split <;> omega
    obtain ⟨e0, e1⟩ := out_emb t j
    have hx : (cfg1.win 2).xinj (grid1.coords t) j = ix2 (⟨(j 0).val, hj0⟩ : Fin 2048) (⟨(j 1).val, by omega⟩ : Fin 1408) :=
      funext fun a => by match a with | ⟨0, _⟩ => rfl | ⟨1, _⟩ => rfl
    show accAt V c (t.val + 1) ((cfg1.win 2).xinj (grid1.coords t) j)
      = ∑ k : Fin 4096, term V c ((((cfg1.win 2).blk t).view.emb j) 0) ((((cfg1.win 2).blk t).view.emb j) 1) k
    rw [hx]
    exact group_entry V c t h3 _ _ hj1 _ _ e0 e1
  · have hi0 : (i 0).val < 8192 := (i 0).isLt
    have hi1 : (i 1).val < 11008 := (i 1).isLt
    have hN : cfg1.N = 128 := N_1
    refine ⟨⟨(i 0).val / 2048 * 32 + (i 1).val / 1408 * 4 + 3, by omega⟩, (flush1_2 _).mpr (by
      show ((i 0).val / 2048 * 32 + (i 1).val / 1408 * 4 + 3) % 4 = 3; omega), (mem_out_blk _ i).mpr ?_⟩
    show (((i 0).val / 2048 * 32 + (i 1).val / 1408 * 4 + 3) / 32 * 2048 ≤ (i 0).val
        ∧ (i 0).val < ((i 0).val / 2048 * 32 + (i 1).val / 1408 * 4 + 3) / 32 * 2048 + 2048)
      ∧ (((i 0).val / 2048 * 32 + (i 1).val / 1408 * 4 + 3) / 4 % 8 * 1408 ≤ (i 1).val
        ∧ (i 1).val < ((i 0).val / 2048 * 32 + (i 1).val / 1408 * 4 + 3) / 4 % 8 * 1408
            + cols ((i 0).val / 2048 * 32 + (i 1).val / 1408 * 4 + 3))
    unfold cols
    split <;> omega

end Cert.KernelIdeal.Exact

end
-- ==== Proof.HostLayout.lean ====
/-
  The two reshapes of the host program, read at an entry.

  The activations, a 4 × 2048 × 4096 array, are viewed as 8192 rows of 4096 entries: row p is batch p / 2048,
  position p mod 2048 (row-major order keeps the flat position); narrowing the format is the identity on
  extended reals. The product, 8192 rows of 11008 entries, is viewed back as 4 × 2048 × 11008: batch b, position s
  is row b·2048 + s.
-/
import proofs.«108235_j15058155339886_2_alg».proof.KernelIdeal
import proofs.«108235_j15058155339886_2_alg».proof.Proof.LibBatch3

noncomputable section

namespace Cert.BitLinear

open Idealize.ShloMosaic Idealize.ShloMosaic.ValueIdx

/-- Row p, entry k of the flattened and narrowed activations is the activation at batch p / 2048,
    position p mod 2048, entry k. -/
theorem flat_x (h : Cert.KernelIdeal.S4x2048x4096.ShapeCasts Cert.KernelIdeal.S8192x4096)
    (hb : FTy.bits .bf16 < FTy.bits .f32) (x : FVec Ideal Cert.KernelIdeal.S4x2048x4096 .f32) (p : Fin 8192) (k : Fin 4096) :
    (truncf .bf16 (shapeCast Cert.KernelIdeal.S8192x4096 x h) hb : FVec Ideal Cert.KernelIdeal.S8192x4096 .bf16) (ix2 p k)
      = x (ix3 ⟨p.val / 2048, by omega⟩ ⟨p.val % 2048, Nat.mod_lt _ (by norm_num)⟩ k) := by
  show shapeCast Cert.KernelIdeal.S8192x4096 x h (ix2 p k) = _
  exact Cert.Batch3.merge_apply x h ⟨p.val / 2048, by omega⟩ ⟨p.val % 2048, Nat.mod_lt _ (by norm_num)⟩ k p
    (by show p.val = p.val / 2048 * 2048 + p.val % 2048; omega)

/-- Batch b, position s, entry o of the product viewed by batches is row b·2048 + s, entry o. -/
theorem unflat_y (h : Cert.KernelIdeal.S8192x11008.ShapeCasts Cert.KernelIdeal.S4x2048x11008)
    (y : FVec Ideal Cert.KernelIdeal.S8192x11008 .f32) (b : Fin 4) (s : Fin 2048) (o : Fin 11008) :
    shapeCast Cert.KernelIdeal.S4x2048x11008 y h (ix3 b s o) = y (ix2 ⟨b.val * 2048 + s.val, by omega⟩ o) :=
  Cert.Batch3.split_apply y h b s o ⟨b.val * 2048 + s.val, by omega⟩ rfl

end Cert.BitLinear

end
-- ==== Proof.Exact.Final.lean ====
/-
  The result array of the idealized program, entry by entry: the specification.

  The last host line reshapes the product array; an entry `(b, s, o)` of the result is entry `(2048·b + s, o)` of the
  product, the contraction over all 4096 positions of row `2048·b + s` of the flattened activations — row `(b, s)` of
  the activations — with row `o` of the quantized weights.
-/
import proofs.«108235_j15058155339886_2_alg».proof.Proof.Exact.Run
import proofs.«108235_j15058155339886_2_alg».proof.Proof.Exact.QuantFinal
import proofs.«108235_j15058155339886_2_alg».proof.Proof.Exact.ProdFinal
import proofs.«108235_j15058155339886_2_alg».proof.Proof.HostLayout
import proofs.«108235_j15058155339886_2_alg».proof.Proof.Spec

set_option maxRecDepth 16384

noncomputable section

namespace Cert.KernelIdeal.Exact

open Cert.KernelIdeal Cert.KernelIdeal.Gen
open Idealize.ShloMosaic Idealize.ShloMosaic.TcCoe Idealize.ShloMosaic.ValueIdx
open Idealize.SL Idealize.SL.Sem
open Idealize.ShloMosaic.Pipeline (Dat Cfg Window)
open scoped BigOperators

variable (m : (ℓ : Loc nD τ sig) → Buf (Elt Ideal) ℓ) (ρ : Dev nD → PrngReg)

/-! ## The arguments are never written -/

theorem W4_arg0 (c : Dev nD) : W4 m ρ c (Proc.devRef .tc main_arg0) = m ((c : Thread nD τ).loc main_arg0) :=
  calc W4 m ρ c (Proc.devRef .tc main_arg0)
    _ = W3 m ρ c (Proc.devRef .tc main_arg0) := by show StableHlo.after hostOps2 (W3 m ρ c) (Proc.devRef .tc main_arg0) = _; after_results
    _ = W2 m ρ c (Proc.devRef .tc main_arg0) := W3_of_ne m ρ c main_arg0 (by decide)
    _ = W1 m ρ c (Proc.devRef .tc main_arg0) := by show StableHlo.after hostOps1 (W1 m ρ c) (Proc.devRef .tc main_arg0) = _; after_results
    _ = W0 m ρ c (Proc.devRef .tc main_arg0) := W1_of_ne m ρ c main_arg0 (by decide)
    _ = m ((c : Thread nD τ).loc main_arg0) := rfl

theorem W1_arg1 (c : Dev nD) : W1 m ρ c (Proc.devRef .tc main_arg1) = m ((c : Thread nD τ).loc main_arg1) :=
  (W1_arr m ρ c 0).trans (((qdat (V0 m ρ) c).arrAt_in 0 rfl _).trans (qA_eq (V0 m ρ) c 0))

theorem W4_arg1 (c : Dev nD) : W4 m ρ c (Proc.devRef .tc main_arg1) = m ((c : Thread nD τ).loc main_arg1) :=
  calc W4 m ρ c (Proc.devRef .tc main_arg1)
    _ = W3 m ρ c (Proc.devRef .tc main_arg1) := by show StableHlo.after hostOps2 (W3 m ρ c) (Proc.devRef .tc main_arg1) = _; after_results
    _ = W2 m ρ c (Proc.devRef .tc main_arg1) := W3_of_ne m ρ c main_arg1 (by decide)
    _ = W1 m ρ c (Proc.devRef .tc main_arg1) := by show StableHlo.after hostOps1 (W1 m ρ c) (Proc.devRef .tc main_arg1) = _; after_results
    _ = m ((c : Thread nD τ).loc main_arg1) := W1_arg1 m ρ c

/-! ## The arrays the contraction region reads -/

/-- The quantized weights reach the contraction region as the quantization region left them. -/
theorem V2_v0 (c : Dev nD) : V2 m ρ c main_v0 = Gq (m ((c : Thread nD τ).loc main_arg1)) :=
  calc V2 m ρ c main_v0
    _ = W1 m ρ c (Proc.devRef .tc main_v0) := by show StableHlo.after hostOps1 (W1 m ρ c) (Proc.devRef .tc main_v0) = _; after_results
    _ = (qdat (V0 m ρ) c).arrAt 1 cfg0.N := W1_arr m ρ c 1
    _ = Gq (V0 m ρ c main_arg1) := quant_final (V0 m ρ) c
    _ = Gq (m ((c : Thread nD τ).loc main_arg1)) := rfl

/-- The activations reach it flattened to 8192 rows (and converted, which changes nothing here). -/
theorem V2_v2 (c : Dev nD) : V2 m ρ c main_v2
    = (truncf .bf16 (shapeCast S8192x4096 (m ((c : Thread nD τ).loc main_arg0)) Facts₀.shapeCasts_S4x2048x4096_S8192x4096) Facts₀.bitsLt_bf16_f32 : FVec Ideal S8192x4096 .bf16) := by
  show StableHlo.after hostOps1 (W1 m ρ c) (Proc.devRef .tc main_v2) = _
  after_results
  rw [show W1 m ρ c (Proc.devRef .tc main_arg0) = m ((c : Thread nD τ).loc main_arg0) from (W1_of_ne m ρ c main_arg0 (by decide)).trans rfl]
  rfl

/-! ## The result -/

theorem W4_v4 (c : Dev nD) : W4 m ρ c (Proc.devRef .tc main_v4)
    = Cert.BitLinear.G (m ((c : Thread nD τ).loc main_arg0)) (m ((c : Thread nD τ).loc main_arg1)) := by
  have e4 : W4 m ρ c (Proc.devRef .tc main_v4)
      = shapeCast S4x2048x11008 ((mdat (V2 m ρ) c).arrAt 2 cfg1.N) Facts₀.shapeCasts_S8192x11008_S4x2048x11008 := by
    show StableHlo.after hostOps2 (W3 m ρ c) (Proc.devRef .tc main_v4) = _
    after_results
    rw [show W3 m ρ c (Proc.devRef .tc main_v3) = (mdat (V2 m ρ) c).arrAt 2 cfg1.N from W3_arr m ρ c 2]
    rfl
  rw [e4, prod_final]
  funext i
  obtain ⟨b, s, o, rfl⟩ : ∃ (b : Fin 4) (s : Fin 2048) (o : Fin 11008), i = ix3 b s o := ⟨i 0, i 1, i 2, eq_ix3 i⟩
  rw [Cert.BitLinear.unflat_y]
  show prodArr (V2 m ρ) c (ix2 _ o) = Cert.BitLinear.yAt _ _ b s o
  unfold prodArr Cert.BitLinear.yAt
  refine Finset.sum_congr rfl fun k _ => ?_
  have hb : (⟨(b.val * 2048 + s.val) / 2048, by have := b.isLt; have := s.isLt; omega⟩ : Fin 4) = b := Fin.ext (by have := s.isLt; show (b.val * 2048 + s.val) / 2048 = b.val; omega)
  have hsx : (⟨(b.val * 2048 + s.val) % 2048, Nat.mod_lt _ (by norm_num)⟩ : Fin 2048) = s := Fin.ext (by have := s.isLt; show (b.val * 2048 + s.val) % 2048 = s.val; omega)
  have hx : xArr (V2 m ρ) c (ix2 (⟨b.val * 2048 + s.val, by have := b.isLt; have := s.isLt; omega⟩ : Fin 8192) k)
      = m ((c : Thread nD τ).loc main_arg0) (ix3 b s k) := by
    unfold xArr; rw [V2_v2, Cert.BitLinear.flat_x, hb, hsx]
  have hw : wArr (V2 m ρ) c (ix2 o k) = Cert.BitLinear.wq (m ((c : Thread nD τ).loc main_arg1)) o k := by
    unfold wArr; rw [V2_v0]; rfl
  exact (congrArg₂ (· * ·) hx hw)

end Cert.KernelIdeal.Exact

end
-- ==== Proof.Exact.AccLocal.lean ====
/-
  The accumulating step is local in the columns.

  Entry (p, q) of the stored value is the accumulator's entry (p, q) plus the sum over k of xb[p, k] · wb[q, k]:
  it reads the accumulator at column q and the weight block at row q only. So two accumulators that agree on the
  first n columns, with two weight blocks that agree on their first n rows, give stored values that agree on the
  first n columns.
-/
import proofs.«108235_j15058155339886_2_alg».proof.Proof.Exact.MatmulData
import proofs.«108235_j15058155339886_2_alg».proof.Proof.AccStep

noncomputable section

open scoped BigOperators

namespace Cert.KernelIdeal.Exact

open Cert.KernelIdeal Cert.KernelIdeal.Gen
open Idealize.ShloMosaic Idealize.ShloMosaic.ValueIdx

theorem step_local : StepLocal := by
  intro n acc acc' xb wb wb' ha hw y hy
  obtain ⟨p, q, rfl⟩ : ∃ (p : Fin 2048) (q : Fin 1408), y = ix2 p q := ⟨y 0, y 1, eq_ix2 y⟩
  rw [Cert.BitLinear.acc_payload, Cert.BitLinear.acc_payload, ha (ix2 p q) hy]
  exact congrArg (acc' (ix2 p q) + ·) (Finset.sum_congr rfl fun k _ => by rw [hw (ix2 q k) hy])

end Cert.KernelIdeal.Exact

end
-- ==== Proof.RefIsG.lean ====
/-
  The reference computes the specified function.

  The reference views the 11008 × 4096 weight as 352256 flat rows of 128 lanes: flat row r·32 + g is group g
  of weight row r, and its lane m is entry g·128 + m of that row. On the flat view it sums the absolute
  values of each flat row, divides by 128, keeps the quotient from below by ε, divides every entry by its flat
  row's scale, rounds half to even, clamps to [-1, 1] and multiplies by the scale; viewed as 11008 × 4096
  again, entry c of row r comes from flat row r·32 + c / 128 at lane c mod 128, which is the row quantization
  of weight row r at c. The result contracts the activations' last axis with the dequantized weight's last
  axis. The sum's initial value is the zero word, which is the extended real 0.
-/
import proofs.«108235_j15058155339886_2_alg».proof.Proof.Gen.ReferenceIdeal.Run
import proofs.«108235_j15058155339886_2_alg».proof.Proof.Gen.ReferenceIdeal.Read
import proofs.«108235_j15058155339886_2_alg».proof.Proof.Spec
import proofs.«108235_j15058155339886_2_alg».proof.Proof.LaneGroup

noncomputable section

open scoped BigOperators

namespace Cert.BitLinear

open Idealize.ShloMosaic Idealize.ShloMosaic.ValueIdx
open Cert.ReferenceIdeal Cert.ReferenceIdeal.Read

/-- The flat row that holds group g of weight row r. -/
def flatRow (r : Fin 11008) (g : Fin 32) : Fin 352256 := ⟨r.val * 32 + g.val, by omega⟩

/-- Lane m of flat row r·32 + g is entry g·128 + m of weight row r. -/
theorem ref_entry (w : (⟨S11008x4096, .f32⟩ : BufTy).Contents (Elt Ideal)) (r : Fin 11008) (g : Fin 32) (m : Fin 128) :
    val_main_v0 (F := Ideal) w (ix2 (flatRow r g) m) = w (ix2 r (lane g m)) := by
  rw [val_main_v0_apply]
  refine congrArg w (funext fun a => Fin.ext ?_)
  match a with
  | ⟨0, _⟩ => show ((r.val * 32 + g.val) * 128 + m.val) / 4096 = r.val; omega
  | ⟨1, _⟩ => show ((r.val * 32 + g.val) * 128 + m.val) % 4096 = g.val * 128 + m.val; omega

/-- The sum of a flat row's absolute values is the sum over the lanes of group g of row r. -/
theorem ref_sum (w : (⟨S11008x4096, .f32⟩ : BufTy).Contents (Elt Ideal)) (r : Fin 11008) (g : Fin 32) :
    val_main_v2 (F := Ideal) w (ix1 (flatRow r g))
      = ∑ k : Fin 128, max (w (ix2 r (lane g k))) (-(w (ix2 r (lane g k)))) := by
  rw [val_main_v2_apply, val_main_cst_apply]
  show Ideal.ofBits .f32 0x00000000#32 + _ = _
  rw [Ideal.ofBits_zero_f32, zero_add]
  refine Finset.sum_congr rfl fun k _ => ?_
  have e : idx_main_v2 (ix1 (flatRow r g)) k = ix2 (flatRow r g) k :=
    funext fun a => by match a with | ⟨0, _⟩ => rfl | ⟨1, _⟩ => rfl
  rw [val_main_v1_apply, e, ref_entry]
  rfl

/-- The scale of a flat row is the scale of group g of row r. -/
theorem ref_scale (w : (⟨S11008x4096, .f32⟩ : BufTy).Contents (Elt Ideal)) (r : Fin 11008) (g : Fin 32) :
    val_main_v7 (F := Ideal) w (ix2 (flatRow r g) (0 : Fin 1)) = gscale (fun c' => w (ix2 r c')) g := by
  have e3 : idx_main_v3 (ix2 (flatRow r g) (0 : Fin 1)) = ix1 (flatRow r g) :=
    funext fun a => by match a with | ⟨0, _⟩ => rfl
  rw [val_main_v7_apply, val_main_v5_apply, val_main_v3_apply, e3, ref_sum, val_main_v4_apply, val_main_cst_0_apply,
    val_main_v6_apply, val_main_cst_1_apply]
  rfl

/-- The reference's dequantized weight at row r, entry c. -/
theorem ref_wq (w : (⟨S11008x4096, .f32⟩ : BufTy).Contents (Elt Ideal)) (r : Fin 11008) (c : Fin 4096) :
    val_main_v14 (F := Ideal) w (ix2 r c) = wq w r c := by
  have e14 : idx_main_v14 (ix2 r c) = ix2 (flatRow r (grp c)) (lanePos c) := funext fun a => Fin.ext (by
    match a with
    | ⟨0, _⟩ => show (r.val * 4096 + c.val) / 128 = r.val * 32 + c.val / 128; omega
    | ⟨1, _⟩ => show (r.val * 4096 + c.val) % 128 = c.val % 128; omega)
  have e12 : idx_main_v12 (ix2 (flatRow r (grp c)) (lanePos c)) = ix2 (flatRow r (grp c)) (0 : Fin 1) :=
    funext fun a => by match a with | ⟨0, _⟩ => rfl | ⟨1, _⟩ => rfl
  have e8 : idx_main_v8 (ix2 (flatRow r (grp c)) (lanePos c)) = ix2 (flatRow r (grp c)) (0 : Fin 1) :=
    funext fun a => by match a with | ⟨0, _⟩ => rfl | ⟨1, _⟩ => rfl
  rw [val_main_v14_apply, e14, val_main_v13_apply, val_main_v12_apply, e12, ref_scale,
    val_main_v11_apply, val_main_call1_v4_apply, val_main_call1_v3_apply, val_main_cst_3_apply,
    val_main_call1_v2_apply, val_main_call1_v1_apply, val_main_call1_v0_apply, val_main_cst_2_apply,
    val_main_v10_apply, val_main_v9_apply, val_main_v8_apply, e8, ref_scale, ref_entry, lane_grp]
  rfl

/-- The reference's result is the specified array. -/
theorem reference_is_G (x : (⟨Cert.ReferenceIdeal.S4x2048x4096, .f32⟩ : BufTy).Contents (Elt Ideal))
    (w : (⟨Cert.ReferenceIdeal.S11008x4096, .f32⟩ : BufTy).Contents (Elt Ideal)) :
    Cert.ReferenceIdeal.Read.val_main_v15 (F := Ideal) x w = G x w := by
  funext i
  obtain ⟨b, s, o, rfl⟩ : ∃ (b : Fin 4) (s : Fin 2048) (o : Fin 11008), i = ix3 b s o := ⟨i 0, i 1, i 2, eq_ix3 i⟩
  rw [val_main_v15_apply]
  show _ = ∑ k : Fin 4096, x (ix3 b s k) * wq w o k
  refine Finset.sum_congr rfl fun k _ => ?_
  have el : lidx_main_v15 (ix3 b s o) k = ix3 b s k :=
    funext fun a => by match a with | ⟨0, _⟩ => rfl | ⟨1, _⟩ => rfl | ⟨2, _⟩ => rfl
  have er : ridx_main_v15 (ix3 b s o) k = ix2 o k :=
    funext fun a => by match a with | ⟨0, _⟩ => rfl | ⟨1, _⟩ => rfl
  rw [el, er, ref_wq]

end Cert.BitLinear

end
-- ==== Proof.lean ====
/-
  The certificate of a ternary-quantized dense layer.

  The kernel quantizes every row of the weights group by group (128 lanes to a group: the group's mean absolute value,
  kept above a small literal, is its scale; an entry becomes the nearest of -1, 0, 1 to its quotient by the scale,
  times the scale) in one region, and in a second region multiplies the flattened activations by the transposed
  quantized weights, 1024 positions of the contraction at a time into an accumulator that is written out after the
  fourth. The reference quantizes the weights flattened to rows of 128 and contracts all 4096 positions at once.

  Read over the extended reals both compute `y[b, s, o] = ∑ k, x[b, s, k] · wq[o, k]`: a row of 4096 cut into groups of
  128 is the flat array's rows 32·r … 32·r + 31, and a sum over 4096 positions is the sum of its four quarters, added
  in order onto zero. No law that needs finite entries is used, so the precondition is never opened.

  The weight blocks of the second region overhang the array's end; the rows past it hold unnamed words, which reach
  only output columns past the array's end, and those are never written back. At the word level the product is not a
  sum of named terms, so there the frames are proved over relational data that says nothing of the values, and the
  values are followed at the ideal instance only.
-/
import proofs.«108235_j15058155339886_2_alg».proof.Defs
import proofs.«108235_j15058155339886_2_alg».proof.Proof.Gen.Kernel
import proofs.«108235_j15058155339886_2_alg».proof.Proof.Gen.KernelIdeal
import proofs.«108235_j15058155339886_2_alg».proof.Proof.Gen.ReferenceIdeal
import proofs.«108235_j15058155339886_2_alg».proof.Proof.Gen.Pre_finite_inputs
import proofs.«108235_j15058155339886_2_alg».proof.Proof.Gen.ReferenceIdeal.Run
import proofs.«108235_j15058155339886_2_alg».proof.Proof.Gen.ReferenceIdeal.Read
import proofs.«108235_j15058155339886_2_alg».proof.Proof.LooseBits.Frame
import proofs.«108235_j15058155339886_2_alg».proof.Proof.LooseIdeal.Frame
import proofs.«108235_j15058155339886_2_alg».proof.Proof.Exact.Final
import proofs.«108235_j15058155339886_2_alg».proof.Proof.Exact.AccLocal
import proofs.«108235_j15058155339886_2_alg».proof.Proof.RefIsG
import Idealize.ShloMosaic.Adequacy
import Idealize.ShloMosaic.Init

noncomputable section

namespace Cert.Proof

open Idealize.ShloMosaic Idealize.ShloMosaic.TcCoe Idealize.SL.Sem

/-- The word-level kernel runs to the end and leaves its arguments alone. -/
theorem frame_kernel : Cert.frame_Kernel := fun m ρ _ => Cert.Kernel.Loose.frame (F := Bits) m ρ

/-- So does the idealized kernel. -/
theorem frame_kernelIdeal : Cert.frame_KernelIdeal := fun m ρ _ => Cert.KernelIdeal.Loose.frame (F := Ideal) m ρ

/-- The reference is host operations only: its run, the result dropped. -/
theorem frame_referenceIdeal : Cert.frame_ReferenceIdeal := fun m ρ _ =>
  (θ_run Cert.ReferenceIdeal.defs _ _).mono (fun _ h c => (h c).2) (Cert.ReferenceIdeal.Value.run (F := Ideal) m ρ)

/-- The idealization rewrote nothing. -/
theorem preserves : Cert.preserves_Kernel_KernelIdeal := trivial

/-- Both idealized programs end with the result array at the specification of the arguments. -/
theorem algebraic : Cert.algebraic_KernelIdeal_ReferenceIdeal := by
  intro m ρ m' ρ' _ hagree
  refine ⟨fun c => Cert.BitLinear.G (m ((c.tc : Thread Cert.KernelIdeal.nD Cert.KernelIdeal.τ).loc Cert.KernelIdeal.main_arg0))
    (m ((c.tc : Thread Cert.KernelIdeal.nD Cert.KernelIdeal.τ).loc Cert.KernelIdeal.main_arg1)), ?_, ?_⟩
  · exact (θ_run Cert.KernelIdeal.defs _ _).mono
      (fun r h c => ⟨(h c _ (Cert.KernelIdeal.Exact.mem_uc Cert.KernelIdeal.main_v4 (by decide))).trans (Cert.KernelIdeal.Exact.W4_v4 m ρ c),
        (h c _ (Cert.KernelIdeal.Exact.mem_uc Cert.KernelIdeal.main_arg0 (by decide))).trans (Cert.KernelIdeal.Exact.W4_arg0 m ρ c),
        (h c _ (Cert.KernelIdeal.Exact.mem_uc Cert.KernelIdeal.main_arg1 (by decide))).trans (Cert.KernelIdeal.Exact.W4_arg1 m ρ c)⟩)
      (Cert.KernelIdeal.Exact.run m ρ Cert.KernelIdeal.Exact.step_local)
  · refine (θ_run Cert.ReferenceIdeal.defs _ _).mono (fun r h c => ⟨?_, (h c).2⟩)
      (Cert.ReferenceIdeal.Value.run (F := Ideal) m' ρ')
    rw [(h c).1, Cert.ReferenceIdeal.Read.val_main_v15_eq, Cert.BitLinear.reference_is_G, (hagree c).1, (hagree c).2]

theorem claim : Cert.Claim :=
  ⟨Cert.Kernel.Gen.facts, Cert.KernelIdeal.Gen.facts, Cert.ReferenceIdeal.Gen.facts, Cert.Pre_finite_inputs.Gen.facts,
    frame_kernel, frame_kernelIdeal, frame_referenceIdeal, preserves, algebraic⟩

end Cert.Proof

end
